-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S8192 : Shape := ⟨1, ![8192]⟩
abbrev S64x32 : Shape := ⟨2, ![64, 32]⟩
abbrev S64 : Shape := ⟨1, ![64]⟩
abbrev S128x64 : Shape := ⟨2, ![128, 64]⟩
abbrev S128 : Shape := ⟨1, ![128]⟩
abbrev S128x128 : Shape := ⟨2, ![128, 128]⟩
abbrev S128x256 : Shape := ⟨2, ![128, 256]⟩
abbrev S64x128 : Shape := ⟨2, ![64, 128]⟩
abbrev S8x64 : Shape := ⟨2, ![8, 64]⟩
abbrev S8 : Shape := ⟨1, ![8]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  reducesTo_S8192x8192_S8192_d1 : S8192x8192.ReducesTo [1] S8192

variable [Facts]

def fn_part5 {F : FTy → Type} [FloatOps F] (main_arg1 : FVec F S8192x8192 .f32) (main_v83 : IVec S_ 1) (main_v84 : IVec S8192x8192 32) (main_v85 : IVec S8192x8192 32) : IVec S_ 1 :=
  let main_c_32 : IVec S_ 32 := constantI S_ 32 0#32
  let main_v86 : IVec S8192x8192 32 := broadcastInDim S8192x8192 ![] bcast_S_S8192x8192 main_c_32
  let main_v87 : IVec S8192x8192 32 := addi main_v84 main_v86
  let main_v88 : IVec S8192x8192 1 := cmpi .eq main_v87 main_v85
  let main_v89 : FVec F S8192x8192 .f32 := uitofp .f32 main_v88
  let main_v90 : FVec F S8192x8192 .f32 := addf main_arg1 main_v89
  let main_cst_33 : FVec F S_ .f32 := constant S_ .f32 0x00000000#32
  let main_v91 : FVec F S8192 .f32 := (fun x v => Host.reduceAdd x v reducesTo_S8192x8192_S8192_d1 h_S_) main_v90 main_cst_33
  let main_cst_34 : FVec F S_ .f32 := constant S_ .f32 0x00000000#32
  let main_v92 : FVec F S8192 .f32 := broadcastInDim S8192 ![] bcast_S_S8192 main_cst_34
  let main_v93 : IVec S8192 1 := cmpf .ogt main_v91 main_v92
  let main_c_35 : IVec S_ 1 := constantI S_ 1 1#1
  let main_v94 : IVec S_ 1 := (fun x v => Host.reduce IntOp.andi x v reducesTo_S8192_S_d0 h_S_) main_v93 main_c_35
  let main_v95 : IVec S_ 1 := andi main_v83 main_v94
  main_v95

def fn_part4 {F : FTy → Type} [FloatOps F] (main_arg1 : FVec F S8192x8192 .f32) (main_arg14 : FVec F S64 .f32) (main_arg15 : FVec F S8x64 .f32) (main_arg16 : FVec F S8 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S8x64 .f32 := Host.absf main_arg15
  let main_cst_28 : FVec F S_ .f32 := constant S_ .f32 0x7F800000#32
  let main_v75 : FVec F S8x64 .f32 := broadcastInDim S8x64 ![] bcast_S_S8x64 main_cst_28
  let main_v76 : IVec S8x64 1 := cmpf .olt main_v74 main_v75
  let main_c_29 : IVec S_ 1 := constantI S_ 1 1#1
  let main_v77 : IVec S_ 1 := (fun x v => Host.reduce IntOp.andi x v reducesTo_S8x64_S_d0_1 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : IVec S8192x8192 32 := iotaInDim S8192x8192 32 0
  let main_v85 : IVec S8192x8192 32 := iotaInDim S8192x8192 32 1
  fn_part5 (F := F) main_arg1 main_v83 main_v84 main_v85

def fn_part3 {F : FTy → Type} [FloatOps F] (main_arg1 : FVec F S8192x8192 .f32) (main_arg11 : FVec F S128x256 .f32) (main_arg12 : FVec F S128 .f32) (main_arg13 : FVec F S64x128 .f32) (main_arg14 : FVec F S64 .f32) (main_arg15 : FVec F S8x64 .f32) (main_arg16 : FVec F S8 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x128 .f32 := Host.absf main_arg13
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg1 main_arg14 main_arg15 main_arg16 main_v63 main_v67

def fn_part2 {F : FTy → Type} [FloatOps F] (main_arg1 : FVec F S8192x8192 .f32) (main_arg7 : FVec F S128x128 .f32) (main_arg8 : FVec F S128 .f32) (main_arg9 : FVec F S128x128 .f32) (main_arg10 : FVec F S128 .f32) (main_arg11 : FVec F S128x256 .f32) (main_arg12 : FVec F S128 .f32) (main_arg13 : FVec F S64x128 .f32) (main_arg14 : FVec F S64 .f32) (main_arg15 : FVec F S8x64 .f32) (main_arg16 : FVec F S8 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg1 main_arg11 main_arg12 main_arg13 main_arg14 main_arg15 main_arg16 main_v48 main_v49 main_v50

def fn_part1 {F : FTy → Type} [FloatOps F] (main_arg1 : FVec F S8192x8192 .f32) (main_arg4 : FVec F S64 .f32) (main_arg5 : FVec F S128x64 .f32) (main_arg6 : FVec F S128 .f32) (main_arg7 : FVec F S128x128 .f32) (main_arg8 : FVec F S128 .f32) (main_arg9 : FVec F S128x128 .f32) (main_arg10 : FVec F S128 .f32) (main_arg11 : FVec F S128x256 .f32) (main_arg12 : FVec F S128 .f32) (main_arg13 : FVec F S64x128 .f32) (main_arg14 : FVec F S64 .f32) (main_arg15 : FVec F S8x64 .f32) (main_arg16 : FVec F S8 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg7 main_arg8 main_arg9 main_arg10 main_arg11 main_arg12 main_arg13 main_arg14 main_arg15 main_arg16 main_v33

def fn {F : FTy → Type} [FloatOps F] (main_arg0 : FVec F S8192x32 .f32) (main_arg1 : FVec F S8192x8192 .f32) (main_arg2 : FVec F S8192 .f32) (main_arg3 : FVec F S64x32 .f32) (main_arg4 : FVec F S64 .f32) (main_arg5 : FVec F S128x64 .f32) (main_arg6 : FVec F S128 .f32) (main_arg7 : FVec F S128x128 .f32) (main_arg8 : FVec F S128 .f32) (main_arg9 : FVec F S128x128 .f32) (main_arg10 : FVec F S128 .f32) (main_arg11 : FVec F S128x256 .f32) (main_arg12 : FVec F S128 .f32) (main_arg13 : FVec F S64x128 .f32) (main_arg14 : FVec F S64 .f32) (main_arg15 : FVec F S8x64 .f32) (main_arg16 : FVec F S8 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg4 main_arg5 main_arg6 main_arg7 main_arg8 main_arg9 main_arg10 main_arg11 main_arg12 main_arg13 main_arg14 main_arg15 main_arg16 main_v13 main_v16
-- ==== Kernel.lean ====
abbrev S8192x32 : Shape := ⟨2, ![8192, 32]⟩
abbrev S8192x8192 : Shape := ⟨2, ![8192, 8192]⟩
abbrev S8192 : Shape := ⟨1, ![8192]⟩
abbrev S64x32 : Shape := ⟨2, ![64, 32]⟩
abbrev S64 : Shape := ⟨1, ![64]⟩
abbrev S128x64 : Shape := ⟨2, ![128, 64]⟩
abbrev S128 : Shape := ⟨1, ![128]⟩
abbrev S128x128 : Shape := ⟨2, ![128, 128]⟩
abbrev S128x256 : Shape := ⟨2, ![128, 256]⟩
abbrev S64x128 : Shape := ⟨2, ![64, 128]⟩
abbrev S8x64 : Shape := ⟨2, ![8, 64]⟩
abbrev S8 : Shape := ⟨1, ![8]⟩
abbrev S1x64 : Shape := ⟨2, ![1, 64]⟩
abbrev S1x128 : Shape := ⟨2, ![1, 128]⟩
abbrev S1x8 : Shape := ⟨2, ![1, 8]⟩
abbrev S8192x1 : Shape := ⟨2, ![8192, 1]⟩
abbrev S8192x128 : Shape := ⟨2, ![8192, 128]⟩
abbrev S1024x32 : Shape := ⟨2, ![1024, 32]⟩
abbrev S1024x128 : Shape := ⟨2, ![1024, 128]⟩
abbrev S32x64 : Shape := ⟨2, ![32, 64]⟩
abbrev S1024x64 : Shape := ⟨2, ![1024, 64]⟩
abbrev S1024x1024 : Shape := ⟨2, ![1024, 1024]⟩
abbrev S1024x1 : Shape := ⟨2, ![1024, 1]⟩
abbrev S1024 : Shape := ⟨1, ![1024]⟩
abbrev S8192x8 : Shape := ⟨2, ![8192, 8]⟩
abbrev S1024x8 : Shape := ⟨2, ![1024, 8]⟩
abbrev S1024x256 : Shape := ⟨2, ![1024, 256]⟩
abbrev S256x128 : Shape := ⟨2, ![256, 128]⟩
abbrev S64x8 : Shape := ⟨2, ![64, 8]⟩

abbrev nBuf : Space → Nat
  | .hbm => 31
  | .vmem => 46
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192, .f32⟩
  | .hbm, ⟨3, _⟩ => ⟨S64x32, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S8x64, .f32⟩
  | .hbm, ⟨16, _⟩ => ⟨S8, .f32⟩
  | .hbm, ⟨17, _⟩ => ⟨S1x64, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x64, .f32⟩
  | .hbm, ⟨23, _⟩ => ⟨S1x8, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x1, .f32⟩
  | .hbm, ⟨28, _⟩ => ⟨S8192x1, .f32⟩
  | .hbm, ⟨29, _⟩ => ⟨S8192x128, .f32⟩
  | .hbm, ⟨30, _⟩ => ⟨S8192x8, .f32⟩
  | .local _ .vmem, ⟨0, _⟩ => ⟨S1024x32, .f32⟩
  | .local _ .vmem, ⟨1, _⟩ => ⟨S1024x32, .f32⟩
  | .local _ .vmem, ⟨2, _⟩ => ⟨S64x32, .f32⟩
  | .local _ .vmem, ⟨3, _⟩ => ⟨S1x64, .f32⟩
  | .local _ .vmem, ⟨4, _⟩ => ⟨S128x64, .f32⟩
  | .local _ .vmem, ⟨5, _⟩ => ⟨S1x128, .f32⟩
  | .local _ .vmem, ⟨6, _⟩ => ⟨S128x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .f32⟩
  | .local _ .vmem, ⟨12, _⟩ => ⟨S1024x1024, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | .local _ .vmem, ⟨17, _⟩ => ⟨S1024x1024, .f32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1024x128, .f32⟩
  | .local _ .vmem, ⟨23, _⟩ => ⟨S1024x128, .f32⟩
  | .local _ .vmem, ⟨24, _⟩ => ⟨S1024x1, .f32⟩
  | .local _ .vmem, ⟨25, _⟩ => ⟨S1024x1, .f32⟩
  | .local _ .vmem, ⟨26, _⟩ => ⟨S1x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S128x128, .f32⟩
  | .local _ .vmem, ⟨35, _⟩ => ⟨S1x128, .f32⟩
  | .local _ .vmem, ⟨36, _⟩ => ⟨S128x256, .f32⟩
  | .local _ .vmem, ⟨37, _⟩ => ⟨S1x128, .f32⟩
  | .local _ .vmem, ⟨38, _⟩ => ⟨S64x128, .f32⟩
  | .local _ .vmem, ⟨39, _⟩ => ⟨S1x64, .f32⟩
  | .local _ .vmem, ⟨40, _⟩ => ⟨S8x64, .f32⟩
  | .local _ .vmem, ⟨41, _⟩ => ⟨S1x8, .f32⟩
  | .local _ .vmem, ⟨42, _⟩ => ⟨S1024x1, .f32⟩
  | .local _ .vmem, ⟨43, _⟩ => ⟨S1024x1, .f32⟩
  | .local _ .vmem, ⟨44, _⟩ => ⟨S1024x8, .f32⟩
  | .local _ .vmem, ⟨45, _⟩ => ⟨S1024x8, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc3_stg11_0 : Ref sig .tc := ⟨.vmem, 44, rfl⟩
abbrev cc3_stg11_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem10_1 : DmaSem sig := 41
abbrev cc3_sem11_0 : DmaSem sig := 42
abbrev cc3_sem11_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x8 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1024x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1024x8 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  shapeCasts_S64_S1x64 : S64.ShapeCasts S1x64
  shapeCasts_S128_S1x128 : S128.ShapeCasts S1x128
  shapeCasts_S8_S1x8 : S8.ShapeCasts S1x8
  shapeCasts_S8192_S8192x1 : S8192.ShapeCasts S8192x1
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024x128_S1024x128 : S1024x128.ShapeCasts S1024x128
  broadcasts_S1024x1_S1024x128 : S1024x1.Broadcasts S1024x128
  concatenates_S1024x128_S1024x128_S1024x256_d1 : Shape.Concatenates [S1024x128, S1024x128] S1024x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S8x64_S8x64_0_0 : ∀ a, (![0, 0] : Fin 2 → Nat) a + S8x64.size a ≤ S8x64.size a
  h_S8x64 : 0 < S8x64.numel
  transposes_S8x64_p1_0_S64x8 : S8x64.Transposes [1, 0] S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  broadcasts_S1024x1_S1024x8 : S1024x1.Broadcasts S1024x8
  inb_S1024x8_S1024x8_0_0 : ∀ a, (![0, 0] : Fin 2 → Nat) a + S1024x8.size a ≤ S1024x8.size a
  h_S1024x8 : 0 < S1024x8.numel
  dot_S1024x32_S32x64_S1024x64_1_0_0_1_n_n_wf : DotDims.WF S1024x32 S32x64 S1024x64 [1] [0] [0] [1] [] []
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x8_S1024x8_1_0_0_1_n_n_wf : DotDims.WF S1024x64 S64x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S8192x32.size a
  hwx0_0 : ∀ i : grid0.Coords, EltTy.bits .f32 = 32 ∨ (Rect.block (s := S8192x32) S1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S8192x128.size a
  hwx2_6 : ∀ i : grid2.Coords, EltTy.bits .f32 = 32 ∨ (Rect.block (s := S8192x128) S1024x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x128.size a ≤ S64x128.size a
  hwx3_6 : ∀ i : grid3.Coords, EltTy.bits .f32 = 32 ∨ (Rect.block (s := S64x128) S64x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S8x64.size a ≤ S8x64.size a
  hwx3_8 : ∀ i : grid3.Coords, EltTy.bits .f32 = 32 ∨ (Rect.block (s := S8x64) S8x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x8.size a ≤ S1x8.size a
  hwx3_9 : ∀ i : grid3.Coords, EltTy.bits .f32 = 32 ∨ (Rect.block (s := S1x8) S1x8.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1024x1.size a ≤ S8192x1.size a
  hwx3_10 : ∀ i : grid3.Coords, EltTy.bits .f32 = 32 ∨ (Rect.block (s := S8192x1) S1024x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1024x8.size a ≤ S8192x8.size a
  hwx3_11 : ∀ i : grid3.Coords, EltTy.bits .f32 = 32 ∨ (Rect.block (s := S8192x8) S1024x8.size (cc3_transform_11 i) (hinb3_11 i)).WholeWords (EltTy.packing .f32)

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8_1) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v11) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8_0) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S64x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v5) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg15) S8x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v6) S1x8.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v7) S1024x1.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v12) S1024x8.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S8192x32 : Shape := ⟨2, ![8192, 32]⟩
abbrev S8192x8192 : Shape := ⟨2, ![8192, 8192]⟩
abbrev S8192 : Shape := ⟨1, ![8192]⟩
abbrev S64x32 : Shape := ⟨2, ![64, 32]⟩
abbrev S64 : Shape := ⟨1, ![64]⟩
abbrev S128x64 : Shape := ⟨2, ![128, 64]⟩
abbrev S128 : Shape := ⟨1, ![128]⟩
abbrev S128x128 : Shape := ⟨2, ![128, 128]⟩
abbrev S128x256 : Shape := ⟨2, ![128, 256]⟩
abbrev S64x128 : Shape := ⟨2, ![64, 128]⟩
abbrev S8x64 : Shape := ⟨2, ![8, 64]⟩
abbrev S8 : Shape := ⟨1, ![8]⟩
abbrev S32x64 : Shape := ⟨2, ![32, 64]⟩
abbrev S8192x64 : Shape := ⟨2, ![8192, 64]⟩
abbrev S1x64 : Shape := ⟨2, ![1, 64]⟩
abbrev S_ : Shape := ⟨0, ![]⟩
abbrev S8192x128 : Shape := ⟨2, ![8192, 128]⟩
abbrev S1x128 : Shape := ⟨2, ![1, 128]⟩
abbrev S8192x1 : Shape := ⟨2, ![8192, 1]⟩
abbrev S8192x256 : Shape := ⟨2, ![8192, 256]⟩
abbrev S256x128 : Shape := ⟨2, ![256, 128]⟩
abbrev S64x8 : Shape := ⟨2, ![64, 8]⟩
abbrev S8192x8 : Shape := ⟨2, ![8192, 8]⟩
abbrev S1x8 : Shape := ⟨2, ![1, 8]⟩

abbrev nBuf : Space → Nat
  | .hbm => 92
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192, .f32⟩
  | .hbm, ⟨3, _⟩ => ⟨S64x32, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S8x64, .f32⟩
  | .hbm, ⟨16, _⟩ => ⟨S8, .f32⟩
  | .hbm, ⟨17, _⟩ => ⟨S32x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192x64, .f32⟩
  | .hbm, ⟨24, _⟩ => ⟨S8192x64, .f32⟩
  | .hbm, ⟨25, _⟩ => ⟨S64x128, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S128x128, .f32⟩
  | .hbm, ⟨45, _⟩ => ⟨S8192x128, .f32⟩
  | .hbm, ⟨46, _⟩ => ⟨S8192x1, .f32⟩
  | .hbm, ⟨47, _⟩ => ⟨S8192x1, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S128x128, .f32⟩
  | .hbm, ⟨60, _⟩ => ⟨S8192x128, .f32⟩
  | .hbm, ⟨61, _⟩ => ⟨S1x128, .f32⟩
  | .hbm, ⟨62, _⟩ => ⟨S8192x128, .f32⟩
  | .hbm, ⟨63, _⟩ => ⟨S8192x128, .f32⟩
  | .hbm, ⟨64, _⟩ => ⟨S_, .f32⟩
  | .hbm, ⟨65, _⟩ => ⟨S8192x128, .f32⟩
  | .hbm, ⟨66, _⟩ => ⟨S8192x128, .f32⟩
  | .hbm, ⟨67, _⟩ => ⟨S8192x256, .f32⟩
  | .hbm, ⟨68, _⟩ => ⟨S256x128, .f32⟩
  | .hbm, ⟨69, _⟩ => ⟨S8192x128, .f32⟩
  | .hbm, ⟨70, _⟩ => ⟨S1x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S128x64, .f32⟩
  | .hbm, ⟨77, _⟩ => ⟨S8192x64, .f32⟩
  | .hbm, ⟨78, _⟩ => ⟨S1x64, .f32⟩
  | .hbm, ⟨79, _⟩ => ⟨S8192x64, .f32⟩
  | .hbm, ⟨80, _⟩ => ⟨S8192x64, .f32⟩
  | .hbm, ⟨81, _⟩ => ⟨S_, .f32⟩
  | .hbm, ⟨82, _⟩ => ⟨S8192x64, .f32⟩
  | .hbm, ⟨83, _⟩ => ⟨S8192x64, .f32⟩
  | .hbm, ⟨84, _⟩ => ⟨S64x8, .f32⟩
  | .hbm, ⟨85, _⟩ => ⟨S8192x8, .f32⟩
  | .hbm, ⟨86, _⟩ => ⟨S1x8, .f32⟩
  | .hbm, ⟨87, _⟩ => ⟨S8192x8, .f32⟩
  | .hbm, ⟨88, _⟩ => ⟨S8192x8, .f32⟩
  | .hbm, ⟨89, _⟩ => ⟨S8192x1, .f32⟩
  | .hbm, ⟨90, _⟩ => ⟨S8192x8, .f32⟩
  | .hbm, ⟨91, _⟩ => ⟨S8192x8, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_cst : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call4_cst : Ref sig .tc := ⟨.hbm, 73, rfl⟩
abbrev main_call4_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call5_cst : Ref sig .tc := ⟨.hbm, 81, rfl⟩
abbrev main_call5_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  transposes_S64x32_S32x64_1_0 : S64x32.Transposes [1, 0] S32x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S128x64_S64x128_1_0 : S128x64.Transposes [1, 0] S64x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S8192x8192 : S_.BroadcastsInDim S8192x8192 (![] : Fin 0 → Fin S8192x8192.rank)
  reducesTo_S8192x8192_S8192_d1 : S8192x8192.ReducesTo [1] S8192
  h_S_ : 0 < S_.numel
  transposes_S128x128_S128x128_1_0 : S128x128.Transposes [1, 0] S128x128
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  concatenates_S8192x128_S8192x128_S8192x256_d1 : Shape.Concatenates [S8192x128, S8192x128] S8192x256 1
  transposes_S128x256_S256x128_1_0 : S128x256.Transposes [1, 0] S256x128
  transposes_S64x128_S128x64_1_0 : S64x128.Transposes [1, 0] S128x64
  transposes_S8x64_S64x8_1_0 : S8x64.Transposes [1, 0] S64x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S8192x1_S8192x8_0_1 : S8192x1.BroadcastsInDim S8192x8 (![0, 1] : Fin 2 → Fin S8192x8.rank)
  dot_S8192x32_S32x64_S8192x64_1_0_0_1_n_n_wf : DotDims.WF S8192x32 S32x64 S8192x64 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  dot_S8192x64_S64x8_S8192x8_1_0_0_1_n_n_wf : DotDims.WF S8192x64 S64x8 S8192x8 [1] [0] [0] [1] [] []

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8_S8192x8_1_0_0_1_n_n : DotDims S8192x64 S64x8 S8192x8 where
  lhsContracting := [1]
  rhsContracting := [0]
  lhsNonContracting := [0]
  rhsNonContracting := [1]
  lhsBatch := []
  rhsBatch := []
  wf := dot_S8192x64_S64x8_S8192x8_1_0_0_1_n_n_wf

class Facts : Prop extends Facts₀ where

variable [Facts]
-- ==== Proof.KRegion0.lean ====
/-
  The frame data of the encoder region at the word-level program, for any contents of the buffers at its entry.
-/
import proofs.«174617_j2465311228175_2_alg».proof.Proof.Gen.Kernel.Launch
import proofs.«174617_j2465311228175_2_alg».proof.Proof.Gen.Kernel.Skeleton
import proofs.«174617_j2465311228175_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The encoder region: per block of 1024 rows, two rectified linear layers and the message projection -/

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x32 := Rect.unit (s := S1024x32) ![0, 0] S1024x32.size inb_S1024x32_S1024x32_0_0
abbrev r0_1 : Rect S64x32 := Rect.unit (s := S64x32) ![0, 0] S64x32.size inb_S64x32_S64x32_0_0
abbrev r0_2 : Rect S1x64 := Rect.unit (s := S1x64) ![0, 0] S1x64.size inb_S1x64_S1x64_0_0
abbrev r0_3 : Rect S128x64 := Rect.unit (s := S128x64) ![0, 0] S128x64.size inb_S128x64_S128x64_0_0
abbrev r0_4 : Rect S1x128 := Rect.unit (s := S1x128) ![0, 0] S1x128.size inb_S1x128_S1x128_0_0
abbrev r0_5 : Rect S128x128 := Rect.unit (s := S128x128) ![0, 0] S128x128.size inb_S128x128_S128x128_0_0
abbrev r0_6 : Rect S1024x128 := Rect.unit (s := S1024x128) ![0, 0] S1024x128.size inb_S1024x128_S1024x128_0_0
abbrev r0_7 : Rect S1024x128 := Rect.unit (s := S1024x128) ![0, 0] S1024x128.size inb_S1024x128_S1024x128_0_0

/-- What the body leaves in output window 6's staging buffer: its one store over the whole block. -/
def out0_6 (x0 : Vec F S1024x32 .f32) (x1 : Vec F S64x32 .f32) (x2 : Vec F S1x64 .f32) (x3 : Vec F S128x64 .f32) (x4 : Vec F S1x128 .f32) (x5 : Vec F S128x128 .f32) : Vec F S1024x128 .f32 :=
  View.canon [⟨r0_6, k0_pay1 (View.ld x0 r0_0) (View.ld x1 r0_1) (View.ld x2 r0_2) (View.ld x3 r0_3) (View.ld x4 r0_4)⟩]

theorem cover0_6 (p0 : Vec F S1024x128 .f32) (y : S1024x128.Idx) :
    ∃ pc ∈ ([⟨r0_6, p0⟩] : List (View.Piece (Elt F) S1024x128 .f32)), y ∈ pc.1.set :=
  View.cover_of_tiled [⟨r0_6, p0⟩] S1024x128.size (by rfl) y

/-- What the body leaves in output window 7's staging buffer: its one store over the whole block. -/
def out0_7 (x0 : Vec F S1024x32 .f32) (x1 : Vec F S64x32 .f32) (x2 : Vec F S1x64 .f32) (x3 : Vec F S128x64 .f32) (x4 : Vec F S1x128 .f32) (x5 : Vec F S128x128 .f32) : Vec F S1024x128 .f32 :=
  View.canon [⟨r0_7, k0_pay2 (View.ld x0 r0_0) (View.ld x1 r0_1) (View.ld x2 r0_2) (View.ld x3 r0_3) (View.ld x4 r0_4) (View.ld x5 r0_5)⟩]

theorem cover0_7 (p0 : Vec F S1024x128 .f32) (y : S1024x128.Idx) :
    ∃ pc ∈ ([⟨r0_7, p0⟩] : List (View.Piece (Elt F) S1024x128 .f32)), y ∈ pc.1.set :=
  View.cover_of_tiled [⟨r0_7, p0⟩] S1024x128.size (by rfl) y

set_option maxHeartbeats 4000000 in
/-- The kernel body on whole staging buffers, the inputs at their contents and the outputs at anything, runs to the end leaving the inputs as they were and each output at its stored value. -/
theorem sound_kernel0 (c : Dev nD) (E : Set ℕ) (i : grid0.Coords) (arg1 : Memref sig .tc .vmem S1024x32 .f32) (harg1 : arg1.IsWhole) (arg2 : Memref sig .tc .vmem S64x32 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole)
    (x0 : Vec F S1024x32 .f32) (x1 : Vec F S64x32 .f32) (x2 : Vec F S1x64 .f32) (x3 : Vec F S128x64 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data of this pipeline: the arrays as the region finds them; after the body each input buffer at its block and each output buffer at the stored value of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.Kernel.Run

end
-- ==== Proof.KRegion1.lean ====
/-
  The frame data of the degree region at the word-level program, for any contents of the buffers at its entry.
-/
import proofs.«174617_j2465311228175_2_alg».proof.Proof.Gen.Kernel.Launch
import proofs.«174617_j2465311228175_2_alg».proof.Proof.Gen.Kernel.Skeleton
import proofs.«174617_j2465311228175_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The degree region: per block of 1024 rows, the row sums of the adjacency accumulated over eight blocks of 1024 columns, plus one at the last -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first conditional of the body (the accumulator's reset): taken at the first step along the second grid axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional (the output's store): taken at the last step along the second grid axis. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

abbrev VO1_1 : View sig .tc .vmem S1024x1 .f32 := (Memref.whole cc1_stg1_0 : Memref sig .tc .vmem S1024x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev scM1_0 : Memref sig .tc .vmem S1024x1 .f32 := Memref.whole cc1_scratch0
abbrev VS1_0 : View sig .tc .vmem S1024x1 .f32 := scM1_0.view

/-- The scoped buffers no window stages, other than the kernel's own accumulator. -/
abbrev Rest1 (c : Dev nD) : sProp 𝕄 := Pipeline.scopedRestBut (Ix := Unit) (Name := ℕ) (U := UR sig nD τ) (Lvl := ℕ) (Val := Elt F) spec1 c [cc1_scratch0]

/-- The region's plain invariant, with the accumulator split out of the scoped rest. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA; rw [scopedRest1_split]; simp only [scM1_0, owns_whole]; try rfl

set_option maxHeartbeats 4000000 in
noncomputable def kernelRun1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
noncomputable def kernelRun1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
noncomputable def kernelRun1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨?_, ?_, fun E K => ?run⟩
  case run =>
    simp only [cc1__degree_kernel_eq_skeleton]; unfold cc1__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-- What this case leaves in the output's staging buffer (nothing is stored: a placeholder no one reads). -/
def out1_A_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) : Vec F S1024x1 .f32 :=
  VO1_1.read (Elt F) (VO1_1.writes (Elt F) VO1_1.junk (kernelRun1_A c i arg2 harg2 arg3 harg3 arg4 harg4 hc0 hc1 x0).1)

theorem scover1_A_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) (y : S1024x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S1024x1.size (by sl_kernel_rfl) y

/-- What this case leaves in the accumulator. -/
def sout1_A_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) : Vec F S1024x1 .f32 :=
  VS1_0.read (Elt F) (VS1_0.writes (Elt F) VS1_0.junk (kernelRun1_A c i arg2 harg2 arg3 harg3 arg4 harg4 hc0 hc1 x0).2.1)

/-- What this case leaves in the output's staging buffer (nothing is stored: a placeholder no one reads). -/
def out1_B_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) : Vec F S1024x1 .f32 :=
  VO1_1.read (Elt F) (VO1_1.writes (Elt F) VO1_1.junk (kernelRun1_B c i arg2 harg2 arg3 harg3 arg4 harg4 hc0 hc1 x0 xs0).1)

theorem scover1_B_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) (y : S1024x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S1024x1.size (by sl_kernel_rfl) y

/-- What this case leaves in the accumulator. -/
def sout1_B_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) : Vec F S1024x1 .f32 :=
  VS1_0.read (Elt F) (VS1_0.writes (Elt F) VS1_0.junk (kernelRun1_B c i arg2 harg2 arg3 harg3 arg4 harg4 hc0 hc1 x0 xs0).2.1)

theorem cover1_C_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) (y : S1024x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S1024x1.size (by sl_kernel_rfl) y

/-- What this case leaves in the output's staging buffer. -/
def out1_C_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) : Vec F S1024x1 .f32 :=
  VO1_1.read (Elt F) (VO1_1.writes (Elt F) VO1_1.junk (kernelRun1_C c i arg2 harg2 arg3 harg3 arg4 harg4 hc0 hc1 x0 xs0).1)

theorem scover1_C_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) (y : S1024x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S1024x1.size (by sl_kernel_rfl) y

/-- What this case leaves in the accumulator. -/
def sout1_C_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) : Vec F S1024x1 .f32 :=
  VS1_0.read (Elt F) (VS1_0.writes (Elt F) VS1_0.junk (kernelRun1_C c i arg2 harg2 arg3 harg3 arg4 harg4 hc0 hc1 x0 xs0).2.1)

/-- What the output's staging buffer and the accumulator hold after the body at position `n`, by recursion on the position: the case the position is in, run on the point's blocks and, from the second step of a row block on, on what the position before left in the accumulator. -/
def outsAt1 (c : Dev nD) : (n : ℕ) → n < cfg1.N → Vec F S1024x1 .f32 × Vec F S1024x1 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 8 = 0 then
      if h1 : (n + 1) % 8 = 7 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 8 = 7 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one; afterwards the accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-- The proof data of this pipeline: the arrays as the region finds them; after the body each input buffer at its block, the output's at the recursion's first component; the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _)
            iexact HR
          iexact Hg
        isplitl [Ho]; · iexact Ho
        isplitl [H0]; · iexact H0
        iexists _; iexact H1
      · rw [PhiS1_castSucc V c t, PhiS1_pos V c _ _ hz]
        iintro ⟨⟨⟨HS0, HR⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _)
            iexact HR
          iexact Hg
        isplitl [Ho]; · iexact Ho
        isplitl [H0]; · iexact H0
        iexists _; iexact H1
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _)
            iexact HR
          iexact Hg
        isplitl [Ho]; · iexact Ho
        isplitl [H0]; · iexact H0
        iexists _; iexact H1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Run

end
-- ==== Proof.KRegion2.lean ====
/-
  The frame data of the aggregation region at the word-level program, for any contents of the buffers at its entry; the two arrays read through two windows each are held at half their share per window.
-/
import proofs.«174617_j2465311228175_2_alg».proof.Proof.Gen.Kernel.Launch
import proofs.«174617_j2465311228175_2_alg».proof.Proof.Gen.Kernel.Skeleton
import proofs.«174617_j2465311228175_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The aggregation region: per block of 1024 rows, the adjacency block times the scaled messages accumulated over eight blocks of 1024 columns; at the last, the row scaling, the node's own term, the bias and the rectification -/

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The first conditional of the body (the accumulator's reset): taken at the first step along the second grid axis. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional (the output's store): taken at the last step along the second grid axis. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

abbrev VO2_6 : View sig .tc .vmem S1024x128 .f32 := (Memref.whole cc2_stg6_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
abbrev scM2_0 : Memref sig .tc .vmem S1024x128 .f32 := Memref.whole cc2_scratch0
abbrev VS2_0 : View sig .tc .vmem S1024x128 .f32 := scM2_0.view

/-- The scoped buffers no window stages, other than the kernel's own accumulator. -/
abbrev Rest2 (c : Dev nD) : sProp 𝕄 := Pipeline.scopedRestBut (Ix := Unit) (Name := ℕ) (U := UR sig nD τ) (Lvl := ℕ) (Val := Elt F) spec2 c [cc2_scratch0]

/-- The region's plain invariant, with the accumulator split out of the scoped rest. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA; rw [scopedRest2_split]; simp only [scM2_0, owns_whole]; try rfl

set_option maxHeartbeats 4000000 in
noncomputable def kernelRun2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7 arg8 harg8 arg9 harg9) K } := by
  refine ⟨[], ?_, fun xi6 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 4000000 in
noncomputable def kernelRun2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7 arg8 harg8 arg9 harg9) K } := by
  refine ⟨[], ?_, fun xi6 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 4000000 in
noncomputable def kernelRun2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7 arg8 harg8 arg9 harg9) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

/-- What this case leaves in the output's staging buffer (nothing is stored: a placeholder no one reads). -/
def out2_A_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

theorem scover2_A_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S1024x128.size (by sl_kernel_rfl) y

/-- What this case leaves in the accumulator. -/
def sout2_A_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

/-- What this case leaves in the output's staging buffer (nothing is stored: a placeholder no one reads). -/
def out2_B_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

theorem scover2_B_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator. -/
def sout2_B_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

theorem cover2_C_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What this case leaves in the output's staging buffer. -/
def out2_C_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

theorem scover2_C_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator. -/
def sout2_C_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-- What the output's staging buffer and the accumulator hold after the body at position `n`, by recursion on the position: the case the position is in, run on the point's blocks and, from the second step of a row block on, on what the position before left in the accumulator. -/
def outsAt2 (c : Dev nD) : (n : ℕ) → n < cfg2.N → Vec F S1024x128 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 8 = 0 then
      if h1 : (n + 1) % 8 = 7 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 8 = 7 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one; afterwards the accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-- The proof data of this pipeline: the arrays as the region finds them; after the body each input buffer at its block, the output's at the recursion's first component; the invariant carries the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover2_C_6 c _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 64 := N_2; omega)

end Region2

end Cert.Kernel.Run

end
-- ==== Proof.KRegion3.lean ====
/-
  The frame data of the decoder and policy head region at the word-level program, for any contents of the buffers at its entry.
-/
import proofs.«174617_j2465311228175_2_alg».proof.Proof.Gen.Kernel.Launch
import proofs.«174617_j2465311228175_2_alg».proof.Proof.Gen.Kernel.Skeleton
import proofs.«174617_j2465311228175_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The decoder and policy head region: per block of 1024 rows, four linear layers over the aggregated and the encoded features, masked at the end -/

section Region3

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or kept from an earlier point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1024x128 := Rect.unit (s := S1024x128) ![0, 0] S1024x128.size inb_S1024x128_S1024x128_0_0
abbrev r3_1 : Rect S1024x128 := Rect.unit (s := S1024x128) ![0, 0] S1024x128.size inb_S1024x128_S1024x128_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0
abbrev r3_4 : Rect S128x256 := Rect.unit (s := S128x256) ![0, 0] S128x256.size inb_S128x256_S128x256_0_0
abbrev r3_5 : Rect S1x128 := Rect.unit (s := S1x128) ![0, 0] S1x128.size inb_S1x128_S1x128_0_0
abbrev r3_6 : Rect S64x128 := Rect.unit (s := S64x128) ![0, 0] S64x128.size inb_S64x128_S64x128_0_0
abbrev r3_7 : Rect S1x64 := Rect.unit (s := S1x64) ![0, 0] S1x64.size inb_S1x64_S1x64_0_0
abbrev r3_8 : Rect S8x64 := Rect.unit (s := S8x64) ![0, 0] S8x64.size inb_S8x64_S8x64_0_0
abbrev r3_9 : Rect S1x8 := Rect.unit (s := S1x8) ![0, 0] S1x8.size inb_S1x8_S1x8_0_0
abbrev r3_10 : Rect S1024x1 := Rect.unit (s := S1024x1) ![0, 0] S1024x1.size inb_S1024x1_S1024x1_0_0
abbrev r3_11 : Rect S1024x8 := Rect.unit (s := S1024x8) ![0, 0] S1024x8.size inb_S1024x8_S1024x8_0_0

/-- What the body leaves in output window 11's staging buffer: its one store over the whole block. -/
def out3_11 (x0 : Vec F S1024x128 .f32) (x1 : Vec F S1024x128 .f32) (x2 : Vec F S128x128 .f32) (x3 : Vec F S1x128 .f32) (x4 : Vec F S128x256 .f32) (x5 : Vec F S1x128 .f32) (x6 : Vec F S64x128 .f32) (x7 : Vec F S1x64 .f32) (x8 : Vec F S8x64 .f32) (x9 : Vec F S1x8 .f32) (x10 : Vec F S1024x1 .f32) : Vec F S1024x8 .f32 :=
  View.canon [⟨r3_11, k3_pay1 (k3_pay2 (View.ld x0 r3_0) (View.ld x2 r3_2) (View.ld x3 r3_3) (View.ld x1 r3_1) (View.ld x4 r3_4) (View.ld x5 r3_5) (View.ld x6 r3_6) (View.ld x7 r3_7)) (k3_pay3 (F := F)) (View.ld x8 r3_8) (View.ld x9 r3_9) (View.ld x10 r3_10)⟩]

theorem cover3_11 (p0 : Vec F S1024x8 .f32) (y : S1024x8.Idx) :
    ∃ pc ∈ ([⟨r3_11, p0⟩] : List (View.Piece (Elt F) S1024x8 .f32)), y ∈ pc.1.set :=
  View.cover_of_tiled [⟨r3_11, p0⟩] S1024x8.size (by rfl) y

set_option maxHeartbeats 4000000 in
/-- The kernel body on whole staging buffers, the inputs at their contents and the outputs at anything, runs to the end leaving the inputs as they were and each output at its stored value. -/
theorem sound_kernel3 (c : Dev nD) (E : Set ℕ) (i : grid3.Coords) (arg1 : Memref sig .tc .vmem S1024x128 .f32) (harg1 : arg1.IsWhole) (arg2 : Memref sig .tc .vmem S1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S1x64 .f32) (harg8 : arg8.IsWhole) (arg9 : Memref sig .tc .vmem S8x64 .f32) (harg9 : arg9.IsWhole) (arg10 : Memref sig .tc .vmem S1x8 .f32) (harg10 : arg10.IsWhole) (arg11 : Memref sig .tc .vmem S1024x1 .f32) (harg11 : arg11.IsWhole) (arg12 : Memref sig .tc .vmem S1024x8 .f32) (harg12 : arg12.IsWhole)
    (x0 : Vec F S1024x128 .f32) (x1 : Vec F S1024x128 .f32) (x2 : Vec F S128x128 .f32) (x3 : Vec F S1x128 .f32) (x4 : Vec F S128x256 .f32) (x5 : Vec F S1x128 .f32) (x6 : Vec F S64x128 .f32) (x7 : Vec F S1x64 .f32) (x8 : Vec F S8x64 .f32) (x9 : Vec F S1x8 .f32) (x10 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__decode_policy_kernel i arg1 harg1 arg2 harg2 arg3 harg3 arg4 harg4 arg5 harg5 arg6 harg6 arg7 harg7 arg8 harg8 arg9 harg9 arg10 harg10 arg11 harg11 arg12 harg12) K := by
  simp only [cc3__decode_policy_kernel_eq_skeleton]; unfold cc3__decode_policy_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-- The proof data of this pipeline: the arrays as the region finds them; after the body each input buffer at its block and each output buffer at the stored value of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation3 (c : Dev nD) : BodyObligation (dat3 (F := F) V c) (defs₀ (F := F)) Variants.none () Set.univ := fun t => by
  rw [bigSep_W3, bigSep_W3]
  exact sound_body3 V c t

end Region3

end Cert.Kernel.Run

end
-- ==== Proof.KShared2.lean ====
/-
  The aggregation region reads the messages through two windows and the inverse square roots of the degrees through
  two windows. Outside the region each of these two arrays is held whole at the full share; inside, each window holds
  its array at half of it. Here: the five distinct buffers behind the region's seven windows, held at the full share,
  are the seven windows' arrays at the shares the proof data names, at the same contents — and back.
-/
import proofs.«174617_j2465311228175_2_alg».proof.Proof.Gen.Kernel.Launch
import proofs.«174617_j2465311228175_2_alg».proof.Proof.Gen.Kernel.Skeleton
import proofs.«174617_j2465311228175_2_alg».proof.Proof.Gen.Kernel.Points
import proofs.«174617_j2465311228175_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shared2

variable (V : (c : Dev nD) → (b : Ref sig .tc) → Buf (Elt F) ((c : Thread nD τ).loc b))

theorem image_arr2 : Finset.univ.image (Pipeline.arrRef spec2) = ([main_arg1, main_v8_1, main_v10, main_v2, main_v11] : List (Ref sig .tc)).toFinset := by decide

/-- The five distinct buffers behind the seven windows, one by one. -/
theorem arrBufs2_eq (c : Dev nD) (Vv : (b : Ref sig .tc) → Buf (Elt F) ((c : Thread nD τ).loc b)) :
    (Pipeline.arrBufs (Ix := Unit) (Name := ℕ) (U := UR sig nD τ) (Lvl := ℕ) spec2 c Vv : sProp 𝕄)
      = iprop((((c : Thread nD τ).loc main_arg1) ↦{fullShare} Vv main_arg1) ∗ (((c : Thread nD τ).loc main_v8_1) ↦{fullShare} Vv main_v8_1)
          ∗ (((c : Thread nD τ).loc main_v10) ↦{fullShare} Vv main_v10) ∗ (((c : Thread nD τ).loc main_v2) ↦{fullShare} Vv main_v2)
          ∗ (((c : Thread nD τ).loc main_v11) ↦{fullShare} Vv main_v11)) := by
  unfold Pipeline.arrBufs
  rw [BI.bigSep_eq_bigSepL_of_eq _ image_arr2 (by decide)]
  rfl

/-- The seven windows' arrays, one by one, each a whole buffer at its share. -/
theorem arrays2_eq (c : Dev nD) (Fw : (w : Fin cfg2.W) → Buf (Elt F) ((cfg2.win w).arr.view.loc (c : Thread nD τ))) :
    ((dat2 V c).arrays Fw : sProp 𝕄)
      = iprop((((c : Thread nD τ).loc main_arg1) ↦{fullShare} Fw 0) ∗ (((c : Thread nD τ).loc main_v8_1) ↦{fullShare.left} Fw 1)
          ∗ (((c : Thread nD τ).loc main_v10) ↦{fullShare.left} Fw 2) ∗ (((c : Thread nD τ).loc main_v8_1) ↦{fullShare.right} Fw 3)
          ∗ (((c : Thread nD τ).loc main_v10) ↦{fullShare.right} Fw 4) ∗ (((c : Thread nD τ).loc main_v2) ↦{fullShare} Fw 5)
          ∗ (((c : Thread nD τ).loc main_v11) ↦{fullShare} Fw 6)) := by
  unfold Pipeline.Dat.arrays
  rw [bigSep_W2, (arr_whole2 0).set_eq_univ, (arr_whole2 1).set_eq_univ, (arr_whole2 2).set_eq_univ,
    (arr_whole2 5).set_eq_univ, (arr_whole2 6).set_eq_univ]
  rfl

/-- The distinct buffers at the full share give every window its array at its share. -/
theorem arrays_split2 (c : Dev nD) (Vv : (b : Ref sig .tc) → Buf (Elt F) ((c : Thread nD τ).loc b))
    (Fw : (w : Fin cfg2.W) → Buf (Elt F) ((cfg2.win w).arr.view.loc (c : Thread nD τ))) (hF : ∀ w, Fw w = Vv (Pipeline.arrRef spec2 w)) :
    (Pipeline.arrBufs (Ix := Unit) (Name := ℕ) (U := UR sig nD τ) (Lvl := ℕ) spec2 c Vv : sProp 𝕄) ⊢ (dat2 V c).arrays Fw := by
  rw [arrBufs2_eq, arrays2_eq, hF 0, hF 1, hF 2, hF 3, hF 4, hF 5, hF 6]
  iintro ⟨Ha, Hm, Hd, Hb, Ho⟩
  ihave Hm' := (pointsTo_share (PosShare.mem_left_op_right fullShare)).1 $$ Hm
  icases Hm' with ⟨Hml, Hmr⟩
  ihave Hd' := (pointsTo_share (PosShare.mem_left_op_right fullShare)).1 $$ Hd
  icases Hd' with ⟨Hdl, Hdr⟩
  isplitl [Ha]; · iexact Ha
  isplitl [Hml]; · iexact Hml
  isplitl [Hdl]; · iexact Hdl
  isplitl [Hmr]; · iexact Hmr
  isplitl [Hdr]; · iexact Hdr
  isplitl [Hb]; · iexact Hb
  iexact Ho

/-- And the windows' arrays at their shares give the distinct buffers back at the full share. -/
theorem arrays_join2 (c : Dev nD) (Vv : (b : Ref sig .tc) → Buf (Elt F) ((c : Thread nD τ).loc b))
    (Fw : (w : Fin cfg2.W) → Buf (Elt F) ((cfg2.win w).arr.view.loc (c : Thread nD τ))) (hF : ∀ w, Fw w = Vv (Pipeline.arrRef spec2 w)) :
    (dat2 V c).arrays Fw ⊢ (Pipeline.arrBufs (Ix := Unit) (Name := ℕ) (U := UR sig nD τ) (Lvl := ℕ) spec2 c Vv : sProp 𝕄) := by
  rw [arrBufs2_eq, arrays2_eq, hF 0, hF 1, hF 2, hF 3, hF 4, hF 5, hF 6]
  iintro ⟨Ha, Hml, Hdl, Hmr, Hdr, Hb, Ho⟩
  isplitl [Ha]; · iexact Ha
  isplitl [Hml Hmr]
  · iapply (pointsTo_share (PosShare.mem_left_op_right fullShare)).2
    isplitl [Hml] <;> iassumption
  isplitl [Hdl Hdr]
  · iapply (pointsTo_share (PosShare.mem_left_op_right fullShare)).2
    isplitl [Hdl] <;> iassumption
  isplitl [Hb]; · iexact Hb
  iexact Ho

end Shared2

end Cert.Kernel.Run

end
-- ==== Proof.KRun.lean ====
/-
  The run of the whole program: the four regions and the host operations between them as one list of segments, every
  unscoped buffer's contents named at each boundary, from the launch to the return.
-/
import proofs.«174617_j2465311228175_2_alg».proof.Proof.Gen.Kernel.Launch
import proofs.«174617_j2465311228175_2_alg».proof.Proof.Gen.Kernel.Skeleton
import proofs.«174617_j2465311228175_2_alg».proof.Proof.Gen.Kernel.Points
import proofs.«174617_j2465311228175_2_alg».proof.Proof.Gen.Kernel.Regions
import proofs.«174617_j2465311228175_2_alg».proof.Proof.KRegion0
import proofs.«174617_j2465311228175_2_alg».proof.Proof.KRegion1
import proofs.«174617_j2465311228175_2_alg».proof.Proof.KRegion2
import proofs.«174617_j2465311228175_2_alg».proof.Proof.KRegion3
import proofs.«174617_j2465311228175_2_alg».proof.Proof.KShared2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev Wv0 : Dev nD → Valuation τ sig (Elt F) := fun c b => (s₀ m ρ).mem ((c : Dev nD), b)
abbrev Wv1 : Dev nD → Valuation τ sig (Elt F) := fun c => StableHlo.after hostOps0 (Wv0 m ρ c)
abbrev Vv1 : (c : Dev nD) → (b : Ref sig .tc) → Buf (Elt F) ((c : Thread nD τ).loc b) := fun c b => Wv1 m ρ c b
/-- After region 0: its arrays at what its write-backs leave, every other buffer as entered. -/
def Wv2 (c : Dev nD) : Valuation τ sig (Elt F) :=
  Pipeline.withArrays spec0 c (Wv1 m ρ c) fun w => (dat0 (Vv1 m ρ) c).arrAt w cfg0.N
theorem Wv2_arr (c : Dev nD) (w : Fin cfg0.W) :
    Wv2 m ρ c (Proc.devRef .tc (Pipeline.arrRef spec0 w)) = (dat0 (Vv1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vv2 : (c : Dev nD) → (b : Ref sig .tc) → Buf (Elt F) ((c : Thread nD τ).loc b) := fun c b => Wv2 m ρ c b
theorem hF0 (c : Dev nD) (w : Fin cfg0.W) : (dat0 (Vv1 m ρ) c).arrAt w cfg0.N = Vv2 m ρ c (Pipeline.arrRef spec0 w) :=
  (Wv2_arr m ρ c w).symm
theorem hrest0 (c : Dev nD) : ∀ b, b ∉ Finset.univ.image (Pipeline.arrRef spec0) → Vv2 m ρ c b = Vv1 m ρ c b :=
  fun b hb => Wv2_of_ne m ρ c b fun w e => hb (Finset.mem_image.mpr ⟨w, Finset.mem_univ _, e⟩)

/-- After region 1: its arrays at what its write-backs leave, every other buffer as entered. -/
def Wv3 (c : Dev nD) : Valuation τ sig (Elt F) :=
  Pipeline.withArrays spec1 c (Wv2 m ρ c) fun w => (dat1 (Vv2 m ρ) c).arrAt w cfg1.N
theorem Wv3_arr (c : Dev nD) (w : Fin cfg1.W) :
    Wv3 m ρ c (Proc.devRef .tc (Pipeline.arrRef spec1 w)) = (dat1 (Vv2 m ρ) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m ρ c (Proc.devRef .tc b) = Wv2 m ρ c (Proc.devRef .tc b) := by
  unfold Wv3; exact Pipeline.withArrays_of_ne spec1 c _ _ b hb
abbrev Vv3 : (c : Dev nD) → (b : Ref sig .tc) → Buf (Elt F) ((c : Thread nD τ).loc b) := fun c b => Wv3 m ρ c b
theorem hF1 (c : Dev nD) (w : Fin cfg1.W) : (dat1 (Vv2 m ρ) c).arrAt w cfg1.N = Vv3 m ρ c (Pipeline.arrRef spec1 w) :=
  (Wv3_arr m ρ c w).symm
theorem hrest1 (c : Dev nD) : ∀ b, b ∉ Finset.univ.image (Pipeline.arrRef spec1) → Vv3 m ρ c b = Vv2 m ρ c b :=
  fun b hb => Wv3_of_ne m ρ c b fun w e => hb (Finset.mem_image.mpr ⟨w, Finset.mem_univ _, e⟩)

abbrev Wv4 : Dev nD → Valuation τ sig (Elt F) := fun c => StableHlo.after hostOps2 (Wv3 m ρ c)
abbrev Vv4 : (c : Dev nD) → (b : Ref sig .tc) → Buf (Elt F) ((c : Thread nD τ).loc b) := fun c b => Wv4 m ρ c b

/-- After the aggregation region: its one output array at what its write-backs leave, every other buffer as entered. -/
def Wv5 (c : Dev nD) : Valuation τ sig (Elt F) :=
  Function.update (Wv4 m ρ c) (Proc.devRef .tc main_v11) ((dat2 (Vv4 m ρ) c).arrAt 6 cfg2.N)
abbrev Vv5 : (c : Dev nD) → (b : Ref sig .tc) → Buf (Elt F) ((c : Thread nD τ).loc b) := fun c b => Wv5 m ρ c b
theorem Wv5_out (c : Dev nD) : Wv5 m ρ c (Proc.devRef .tc main_v11) = (dat2 (Vv4 m ρ) c).arrAt 6 cfg2.N := by
  unfold Wv5; exact Function.update_self ..
theorem Wv5_of_ne (c : Dev nD) (b : Ref sig .tc) (hb : b ≠ main_v11) : Wv5 m ρ c (Proc.devRef .tc b) = Wv4 m ρ c (Proc.devRef .tc b) := by
  unfold Wv5; exact Function.update_of_ne (StableHlo.devRef_ne_of_ne hb) _ _
theorem hF2 (c : Dev nD) (w : Fin cfg2.W) : (dat2 (Vv4 m ρ) c).arrAt w cfg2.N = Vv5 m ρ c (Pipeline.arrRef spec2 w) :=
  match w with
  | ⟨0, _⟩ => (((dat2 (Vv4 m ρ) c).arrAt_in 0 rfl _).trans (A_eq2 (Vv4 m ρ) c 0)).trans (Wv5_of_ne m ρ c _ (by decide)).symm
  | ⟨1, _⟩ => (((dat2 (Vv4 m ρ) c).arrAt_in 1 rfl _).trans (A_eq2 (Vv4 m ρ) c 1)).trans (Wv5_of_ne m ρ c _ (by decide)).symm
  | ⟨2, _⟩ => (((dat2 (Vv4 m ρ) c).arrAt_in 2 rfl _).trans (A_eq2 (Vv4 m ρ) c 2)).trans (Wv5_of_ne m ρ c _ (by decide)).symm
  | ⟨3, _⟩ => (((dat2 (Vv4 m ρ) c).arrAt_in 3 rfl _).trans (A_eq2 (Vv4 m ρ) c 3)).trans (Wv5_of_ne m ρ c _ (by decide)).symm
  | ⟨4, _⟩ => (((dat2 (Vv4 m ρ) c).arrAt_in 4 rfl _).trans (A_eq2 (Vv4 m ρ) c 4)).trans (Wv5_of_ne m ρ c _ (by decide)).symm
  | ⟨5, _⟩ => (((dat2 (Vv4 m ρ) c).arrAt_in 5 rfl _).trans (A_eq2 (Vv4 m ρ) c 5)).trans (Wv5_of_ne m ρ c _ (by decide)).symm
  | ⟨6, _⟩ => (Wv5_out m ρ c).symm
theorem hrest2 (c : Dev nD) : ∀ b, b ∉ Finset.univ.image (Pipeline.arrRef spec2) → Vv5 m ρ c b = Vv4 m ρ c b :=
  fun b hb => Wv5_of_ne m ρ c b fun e => hb (Finset.mem_image.mpr ⟨6, Finset.mem_univ _, e.symm⟩)

/-- After region 3: its arrays at what its write-backs leave, every other buffer as entered. -/
def Wv6 (c : Dev nD) : Valuation τ sig (Elt F) :=
  Pipeline.withArrays spec3 c (Wv5 m ρ c) fun w => (dat3 (Vv5 m ρ) c).arrAt w cfg3.N
theorem Wv6_arr (c : Dev nD) (w : Fin cfg3.W) :
    Wv6 m ρ c (Proc.devRef .tc (Pipeline.arrRef spec3 w)) = (dat3 (Vv5 m ρ) c).arrAt w cfg3.N := by
  unfold Wv6; exact Pipeline.withArrays_arr spec3 launch3.win.arr_inj c _ _ w
theorem Wv6_of_ne (c : Dev nD) (b : Ref sig .tc) (hb : ∀ w, Pipeline.arrRef spec3 w ≠ b) :
    Wv6 m ρ c (Proc.devRef .tc b) = Wv5 m ρ c (Proc.devRef .tc b) := by
  unfold Wv6; exact Pipeline.withArrays_of_ne spec3 c _ _ b hb
abbrev Vv6 : (c : Dev nD) → (b : Ref sig .tc) → Buf (Elt F) ((c : Thread nD τ).loc b) := fun c b => Wv6 m ρ c b
theorem hF3 (c : Dev nD) (w : Fin cfg3.W) : (dat3 (Vv5 m ρ) c).arrAt w cfg3.N = Vv6 m ρ c (Pipeline.arrRef spec3 w) :=
  (Wv6_arr m ρ c w).symm
theorem hrest3 (c : Dev nD) : ∀ b, b ∉ Finset.univ.image (Pipeline.arrRef spec3) → Vv6 m ρ c b = Vv5 m ρ c b :=
  fun b hb => Wv6_of_ne m ρ c b fun w e => hb (Finset.mem_image.mpr ⟨w, Finset.mem_univ _, e⟩)

/-! ## The arguments end as launched: no host operation writes one, and a region reads it through an input window or not at all -/

theorem Wv6_main_arg0 (c : Dev nD) : Wv6 m ρ c (Proc.devRef .tc main_arg0) = Wv0 m ρ c (Proc.devRef .tc main_arg0) :=
  calc Wv6 m ρ c (Proc.devRef .tc main_arg0)
    _ = Wv5 m ρ c (Proc.devRef .tc main_arg0) := Wv6_of_ne m ρ c main_arg0 (by decide)
    _ = Wv4 m ρ c (Proc.devRef .tc main_arg0) := Function.update_of_ne (StableHlo.devRef_ne_of_ne (by decide : main_arg0 ≠ main_v11)) _ _
    _ = Wv3 m ρ c (Proc.devRef .tc main_arg0) := StableHlo.after_of_writes_sub hostOps2 _ hostOps2_writes (by decide : main_arg0 ∉ hostOps2_W)
    _ = Wv2 m ρ c (Proc.devRef .tc main_arg0) := Wv3_of_ne m ρ c main_arg0 (by decide)
    _ = Wv1 m ρ c (Proc.devRef .tc main_arg0) := (Wv2_arr m ρ c 0).trans (((dat0 (Vv1 m ρ) c).arrAt_in 0 rfl _).trans (A_eq0 (Vv1 m ρ) c 0))
    _ = Wv0 m ρ c (Proc.devRef .tc main_arg0) := StableHlo.after_of_writes_sub hostOps0 _ hostOps0_writes (by decide : main_arg0 ∉ hostOps0_W)

theorem Wv6_main_arg1 (c : Dev nD) : Wv6 m ρ c (Proc.devRef .tc main_arg1) = Wv0 m ρ c (Proc.devRef .tc main_arg1) :=
  calc Wv6 m ρ c (Proc.devRef .tc main_arg1)
    _ = Wv5 m ρ c (Proc.devRef .tc main_arg1) := Wv6_of_ne m ρ c main_arg1 (by decide)
    _ = Wv4 m ρ c (Proc.devRef .tc main_arg1) := Function.update_of_ne (StableHlo.devRef_ne_of_ne (by decide : main_arg1 ≠ main_v11)) _ _
    _ = Wv3 m ρ c (Proc.devRef .tc main_arg1) := StableHlo.after_of_writes_sub hostOps2 _ hostOps2_writes (by decide : main_arg1 ∉ hostOps2_W)
    _ = Wv2 m ρ c (Proc.devRef .tc main_arg1) := (Wv3_arr m ρ c 0).trans (((dat1 (Vv2 m ρ) c).arrAt_in 0 rfl _).trans (A_eq1 (Vv2 m ρ) c 0))
    _ = Wv1 m ρ c (Proc.devRef .tc main_arg1) := Wv2_of_ne m ρ c main_arg1 (by decide)
    _ = Wv0 m ρ c (Proc.devRef .tc main_arg1) := StableHlo.after_of_writes_sub hostOps0 _ hostOps0_writes (by decide : main_arg1 ∉ hostOps0_W)

theorem Wv6_main_arg2 (c : Dev nD) : Wv6 m ρ c (Proc.devRef .tc main_arg2) = Wv0 m ρ c (Proc.devRef .tc main_arg2) :=
  calc Wv6 m ρ c (Proc.devRef .tc main_arg2)
    _ = Wv5 m ρ c (Proc.devRef .tc main_arg2) := Wv6_of_ne m ρ c main_arg2 (by decide)
    _ = Wv4 m ρ c (Proc.devRef .tc main_arg2) := Function.update_of_ne (StableHlo.devRef_ne_of_ne (by decide : main_arg2 ≠ main_v11)) _ _
    _ = Wv3 m ρ c (Proc.devRef .tc main_arg2) := StableHlo.after_of_writes_sub hostOps2 _ hostOps2_writes (by decide : main_arg2 ∉ hostOps2_W)
    _ = Wv2 m ρ c (Proc.devRef .tc main_arg2) := Wv3_of_ne m ρ c main_arg2 (by decide)
    _ = Wv1 m ρ c (Proc.devRef .tc main_arg2) := Wv2_of_ne m ρ c main_arg2 (by decide)
    _ = Wv0 m ρ c (Proc.devRef .tc main_arg2) := StableHlo.after_of_writes_sub hostOps0 _ hostOps0_writes (by decide : main_arg2 ∉ hostOps0_W)

theorem Wv6_main_arg3 (c : Dev nD) : Wv6 m ρ c (Proc.devRef .tc main_arg3) = Wv0 m ρ c (Proc.devRef .tc main_arg3) :=
  calc Wv6 m ρ c (Proc.devRef .tc main_arg3)
    _ = Wv5 m ρ c (Proc.devRef .tc main_arg3) := Wv6_of_ne m ρ c main_arg3 (by decide)
    _ = Wv4 m ρ c (Proc.devRef .tc main_arg3) := Function.update_of_ne (StableHlo.devRef_ne_of_ne (by decide : main_arg3 ≠ main_v11)) _ _
    _ = Wv3 m ρ c (Proc.devRef .tc main_arg3) := StableHlo.after_of_writes_sub hostOps2 _ hostOps2_writes (by decide : main_arg3 ∉ hostOps2_W)
    _ = Wv2 m ρ c (Proc.devRef .tc main_arg3) := Wv3_of_ne m ρ c main_arg3 (by decide)
    _ = Wv1 m ρ c (Proc.devRef .tc main_arg3) := (Wv2_arr m ρ c 1).trans (((dat0 (Vv1 m ρ) c).arrAt_in 1 rfl _).trans (A_eq0 (Vv1 m ρ) c 1))
    _ = Wv0 m ρ c (Proc.devRef .tc main_arg3) := StableHlo.after_of_writes_sub hostOps0 _ hostOps0_writes (by decide : main_arg3 ∉ hostOps0_W)

theorem Wv6_main_arg4 (c : Dev nD) : Wv6 m ρ c (Proc.devRef .tc main_arg4) = Wv0 m ρ c (Proc.devRef .tc main_arg4) :=
  calc Wv6 m ρ c (Proc.devRef .tc main_arg4)
    _ = Wv5 m ρ c (Proc.devRef .tc main_arg4) := Wv6_of_ne m ρ c main_arg4 (by decide)
    _ = Wv4 m ρ c (Proc.devRef .tc main_arg4) := Function.update_of_ne (StableHlo.devRef_ne_of_ne (by decide : main_arg4 ≠ main_v11)) _ _
    _ = Wv3 m ρ c (Proc.devRef .tc main_arg4) := StableHlo.after_of_writes_sub hostOps2 _ hostOps2_writes (by decide : main_arg4 ∉ hostOps2_W)
    _ = Wv2 m ρ c (Proc.devRef .tc main_arg4) := Wv3_of_ne m ρ c main_arg4 (by decide)
    _ = Wv1 m ρ c (Proc.devRef .tc main_arg4) := Wv2_of_ne m ρ c main_arg4 (by decide)
    _ = Wv0 m ρ c (Proc.devRef .tc main_arg4) := StableHlo.after_of_writes_sub hostOps0 _ hostOps0_writes (by decide : main_arg4 ∉ hostOps0_W)

theorem Wv6_main_arg5 (c : Dev nD) : Wv6 m ρ c (Proc.devRef .tc main_arg5) = Wv0 m ρ c (Proc.devRef .tc main_arg5) :=
  calc Wv6 m ρ c (Proc.devRef .tc main_arg5)
    _ = Wv5 m ρ c (Proc.devRef .tc main_arg5) := Wv6_of_ne m ρ c main_arg5 (by decide)
    _ = Wv4 m ρ c (Proc.devRef .tc main_arg5) := Function.update_of_ne (StableHlo.devRef_ne_of_ne (by decide : main_arg5 ≠ main_v11)) _ _
    _ = Wv3 m ρ c (Proc.devRef .tc main_arg5) := StableHlo.after_of_writes_sub hostOps2 _ hostOps2_writes (by decide : main_arg5 ∉ hostOps2_W)
    _ = Wv2 m ρ c (Proc.devRef .tc main_arg5) := Wv3_of_ne m ρ c main_arg5 (by decide)
    _ = Wv1 m ρ c (Proc.devRef .tc main_arg5) := (Wv2_arr m ρ c 3).trans (((dat0 (Vv1 m ρ) c).arrAt_in 3 rfl _).trans (A_eq0 (Vv1 m ρ) c 3))
    _ = Wv0 m ρ c (Proc.devRef .tc main_arg5) := StableHlo.after_of_writes_sub hostOps0 _ hostOps0_writes (by decide : main_arg5 ∉ hostOps0_W)

theorem Wv6_main_arg6 (c : Dev nD) : Wv6 m ρ c (Proc.devRef .tc main_arg6) = Wv0 m ρ c (Proc.devRef .tc main_arg6) :=
  calc Wv6 m ρ c (Proc.devRef .tc main_arg6)
    _ = Wv5 m ρ c (Proc.devRef .tc main_arg6) := Wv6_of_ne m ρ c main_arg6 (by decide)
    _ = Wv4 m ρ c (Proc.devRef .tc main_arg6) := Function.update_of_ne (StableHlo.devRef_ne_of_ne (by decide : main_arg6 ≠ main_v11)) _ _
    _ = Wv3 m ρ c (Proc.devRef .tc main_arg6) := StableHlo.after_of_writes_sub hostOps2 _ hostOps2_writes (by decide : main_arg6 ∉ hostOps2_W)
    _ = Wv2 m ρ c (Proc.devRef .tc main_arg6) := Wv3_of_ne m ρ c main_arg6 (by decide)
    _ = Wv1 m ρ c (Proc.devRef .tc main_arg6) := Wv2_of_ne m ρ c main_arg6 (by decide)
    _ = Wv0 m ρ c (Proc.devRef .tc main_arg6) := StableHlo.after_of_writes_sub hostOps0 _ hostOps0_writes (by decide : main_arg6 ∉ hostOps0_W)

theorem Wv6_main_arg7 (c : Dev nD) : Wv6 m ρ c (Proc.devRef .tc main_arg7) = Wv0 m ρ c (Proc.devRef .tc main_arg7) :=
  calc Wv6 m ρ c (Proc.devRef .tc main_arg7)
    _ = Wv5 m ρ c (Proc.devRef .tc main_arg7) := Wv6_of_ne m ρ c main_arg7 (by decide)
    _ = Wv4 m ρ c (Proc.devRef .tc main_arg7) := Function.update_of_ne (StableHlo.devRef_ne_of_ne (by decide : main_arg7 ≠ main_v11)) _ _
    _ = Wv3 m ρ c (Proc.devRef .tc main_arg7) := StableHlo.after_of_writes_sub hostOps2 _ hostOps2_writes (by decide : main_arg7 ∉ hostOps2_W)
    _ = Wv2 m ρ c (Proc.devRef .tc main_arg7) := Wv3_of_ne m ρ c main_arg7 (by decide)
    _ = Wv1 m ρ c (Proc.devRef .tc main_arg7) := (Wv2_arr m ρ c 5).trans (((dat0 (Vv1 m ρ) c).arrAt_in 5 rfl _).trans (A_eq0 (Vv1 m ρ) c 5))
    _ = Wv0 m ρ c (Proc.devRef .tc main_arg7) := StableHlo.after_of_writes_sub hostOps0 _ hostOps0_writes (by decide : main_arg7 ∉ hostOps0_W)

theorem Wv6_main_arg8 (c : Dev nD) : Wv6 m ρ c (Proc.devRef .tc main_arg8) = Wv0 m ρ c (Proc.devRef .tc main_arg8) :=
  calc Wv6 m ρ c (Proc.devRef .tc main_arg8)
    _ = Wv5 m ρ c (Proc.devRef .tc main_arg8) := Wv6_of_ne m ρ c main_arg8 (by decide)
    _ = Wv4 m ρ c (Proc.devRef .tc main_arg8) := Function.update_of_ne (StableHlo.devRef_ne_of_ne (by decide : main_arg8 ≠ main_v11)) _ _
    _ = Wv3 m ρ c (Proc.devRef .tc main_arg8) := StableHlo.after_of_writes_sub hostOps2 _ hostOps2_writes (by decide : main_arg8 ∉ hostOps2_W)
    _ = Wv2 m ρ c (Proc.devRef .tc main_arg8) := Wv3_of_ne m ρ c main_arg8 (by decide)
    _ = Wv1 m ρ c (Proc.devRef .tc main_arg8) := Wv2_of_ne m ρ c main_arg8 (by decide)
    _ = Wv0 m ρ c (Proc.devRef .tc main_arg8) := StableHlo.after_of_writes_sub hostOps0 _ hostOps0_writes (by decide : main_arg8 ∉ hostOps0_W)

theorem Wv6_main_arg9 (c : Dev nD) : Wv6 m ρ c (Proc.devRef .tc main_arg9) = Wv0 m ρ c (Proc.devRef .tc main_arg9) :=
  calc Wv6 m ρ c (Proc.devRef .tc main_arg9)
    _ = Wv5 m ρ c (Proc.devRef .tc main_arg9) := (Wv6_arr m ρ c 2).trans (((dat3 (Vv5 m ρ) c).arrAt_in 2 rfl _).trans (A_eq3 (Vv5 m ρ) c 2))
    _ = Wv4 m ρ c (Proc.devRef .tc main_arg9) := Function.update_of_ne (StableHlo.devRef_ne_of_ne (by decide : main_arg9 ≠ main_v11)) _ _
    _ = Wv3 m ρ c (Proc.devRef .tc main_arg9) := StableHlo.after_of_writes_sub hostOps2 _ hostOps2_writes (by decide : main_arg9 ∉ hostOps2_W)
    _ = Wv2 m ρ c (Proc.devRef .tc main_arg9) := Wv3_of_ne m ρ c main_arg9 (by decide)
    _ = Wv1 m ρ c (Proc.devRef .tc main_arg9) := Wv2_of_ne m ρ c main_arg9 (by decide)
    _ = Wv0 m ρ c (Proc.devRef .tc main_arg9) := StableHlo.after_of_writes_sub hostOps0 _ hostOps0_writes (by decide : main_arg9 ∉ hostOps0_W)

theorem Wv6_main_arg10 (c : Dev nD) : Wv6 m ρ c (Proc.devRef .tc main_arg10) = Wv0 m ρ c (Proc.devRef .tc main_arg10) :=
  calc Wv6 m ρ c (Proc.devRef .tc main_arg10)
    _ = Wv5 m ρ c (Proc.devRef .tc main_arg10) := Wv6_of_ne m ρ c main_arg10 (by decide)
    _ = Wv4 m ρ c (Proc.devRef .tc main_arg10) := Function.update_of_ne (StableHlo.devRef_ne_of_ne (by decide : main_arg10 ≠ main_v11)) _ _
    _ = Wv3 m ρ c (Proc.devRef .tc main_arg10) := StableHlo.after_of_writes_sub hostOps2 _ hostOps2_writes (by decide : main_arg10 ∉ hostOps2_W)
    _ = Wv2 m ρ c (Proc.devRef .tc main_arg10) := Wv3_of_ne m ρ c main_arg10 (by decide)
    _ = Wv1 m ρ c (Proc.devRef .tc main_arg10) := Wv2_of_ne m ρ c main_arg10 (by decide)
    _ = Wv0 m ρ c (Proc.devRef .tc main_arg10) := StableHlo.after_of_writes_sub hostOps0 _ hostOps0_writes (by decide : main_arg10 ∉ hostOps0_W)

theorem Wv6_main_arg11 (c : Dev nD) : Wv6 m ρ c (Proc.devRef .tc main_arg11) = Wv0 m ρ c (Proc.devRef .tc main_arg11) :=
  calc Wv6 m ρ c (Proc.devRef .tc main_arg11)
    _ = Wv5 m ρ c (Proc.devRef .tc main_arg11) := (Wv6_arr m ρ c 4).trans (((dat3 (Vv5 m ρ) c).arrAt_in 4 rfl _).trans (A_eq3 (Vv5 m ρ) c 4))
    _ = Wv4 m ρ c (Proc.devRef .tc main_arg11) := Function.update_of_ne (StableHlo.devRef_ne_of_ne (by decide : main_arg11 ≠ main_v11)) _ _
    _ = Wv3 m ρ c (Proc.devRef .tc main_arg11) := StableHlo.after_of_writes_sub hostOps2 _ hostOps2_writes (by decide : main_arg11 ∉ hostOps2_W)
    _ = Wv2 m ρ c (Proc.devRef .tc main_arg11) := Wv3_of_ne m ρ c main_arg11 (by decide)
    _ = Wv1 m ρ c (Proc.devRef .tc main_arg11) := Wv2_of_ne m ρ c main_arg11 (by decide)
    _ = Wv0 m ρ c (Proc.devRef .tc main_arg11) := StableHlo.after_of_writes_sub hostOps0 _ hostOps0_writes (by decide : main_arg11 ∉ hostOps0_W)

theorem Wv6_main_arg12 (c : Dev nD) : Wv6 m ρ c (Proc.devRef .tc main_arg12) = Wv0 m ρ c (Proc.devRef .tc main_arg12) :=
  calc Wv6 m ρ c (Proc.devRef .tc main_arg12)
    _ = Wv5 m ρ c (Proc.devRef .tc main_arg12) := Wv6_of_ne m ρ c main_arg12 (by decide)
    _ = Wv4 m ρ c (Proc.devRef .tc main_arg12) := Function.update_of_ne (StableHlo.devRef_ne_of_ne (by decide : main_arg12 ≠ main_v11)) _ _
    _ = Wv3 m ρ c (Proc.devRef .tc main_arg12) := StableHlo.after_of_writes_sub hostOps2 _ hostOps2_writes (by decide : main_arg12 ∉ hostOps2_W)
    _ = Wv2 m ρ c (Proc.devRef .tc main_arg12) := Wv3_of_ne m ρ c main_arg12 (by decide)
    _ = Wv1 m ρ c (Proc.devRef .tc main_arg12) := Wv2_of_ne m ρ c main_arg12 (by decide)
    _ = Wv0 m ρ c (Proc.devRef .tc main_arg12) := StableHlo.after_of_writes_sub hostOps0 _ hostOps0_writes (by decide : main_arg12 ∉ hostOps0_W)

theorem Wv6_main_arg13 (c : Dev nD) : Wv6 m ρ c (Proc.devRef .tc main_arg13) = Wv0 m ρ c (Proc.devRef .tc main_arg13) :=
  calc Wv6 m ρ c (Proc.devRef .tc main_arg13)
    _ = Wv5 m ρ c (Proc.devRef .tc main_arg13) := (Wv6_arr m ρ c 6).trans (((dat3 (Vv5 m ρ) c).arrAt_in 6 rfl _).trans (A_eq3 (Vv5 m ρ) c 6))
    _ = Wv4 m ρ c (Proc.devRef .tc main_arg13) := Function.update_of_ne (StableHlo.devRef_ne_of_ne (by decide : main_arg13 ≠ main_v11)) _ _
    _ = Wv3 m ρ c (Proc.devRef .tc main_arg13) := StableHlo.after_of_writes_sub hostOps2 _ hostOps2_writes (by decide : main_arg13 ∉ hostOps2_W)
    _ = Wv2 m ρ c (Proc.devRef .tc main_arg13) := Wv3_of_ne m ρ c main_arg13 (by decide)
    _ = Wv1 m ρ c (Proc.devRef .tc main_arg13) := Wv2_of_ne m ρ c main_arg13 (by decide)
    _ = Wv0 m ρ c (Proc.devRef .tc main_arg13) := StableHlo.after_of_writes_sub hostOps0 _ hostOps0_writes (by decide : main_arg13 ∉ hostOps0_W)

theorem Wv6_main_arg14 (c : Dev nD) : Wv6 m ρ c (Proc.devRef .tc main_arg14) = Wv0 m ρ c (Proc.devRef .tc main_arg14) :=
  calc Wv6 m ρ c (Proc.devRef .tc main_arg14)
    _ = Wv5 m ρ c (Proc.devRef .tc main_arg14) := Wv6_of_ne m ρ c main_arg14 (by decide)
    _ = Wv4 m ρ c (Proc.devRef .tc main_arg14) := Function.update_of_ne (StableHlo.devRef_ne_of_ne (by decide : main_arg14 ≠ main_v11)) _ _
    _ = Wv3 m ρ c (Proc.devRef .tc main_arg14) := StableHlo.after_of_writes_sub hostOps2 _ hostOps2_writes (by decide : main_arg14 ∉ hostOps2_W)
    _ = Wv2 m ρ c (Proc.devRef .tc main_arg14) := Wv3_of_ne m ρ c main_arg14 (by decide)
    _ = Wv1 m ρ c (Proc.devRef .tc main_arg14) := Wv2_of_ne m ρ c main_arg14 (by decide)
    _ = Wv0 m ρ c (Proc.devRef .tc main_arg14) := StableHlo.after_of_writes_sub hostOps0 _ hostOps0_writes (by decide : main_arg14 ∉ hostOps0_W)

theorem Wv6_main_arg15 (c : Dev nD) : Wv6 m ρ c (Proc.devRef .tc main_arg15) = Wv0 m ρ c (Proc.devRef .tc main_arg15) :=
  calc Wv6 m ρ c (Proc.devRef .tc main_arg15)
    _ = Wv5 m ρ c (Proc.devRef .tc main_arg15) := (Wv6_arr m ρ c 8).trans (((dat3 (Vv5 m ρ) c).arrAt_in 8 rfl _).trans (A_eq3 (Vv5 m ρ) c 8))
    _ = Wv4 m ρ c (Proc.devRef .tc main_arg15) := Function.update_of_ne (StableHlo.devRef_ne_of_ne (by decide : main_arg15 ≠ main_v11)) _ _
    _ = Wv3 m ρ c (Proc.devRef .tc main_arg15) := StableHlo.after_of_writes_sub hostOps2 _ hostOps2_writes (by decide : main_arg15 ∉ hostOps2_W)
    _ = Wv2 m ρ c (Proc.devRef .tc main_arg15) := Wv3_of_ne m ρ c main_arg15 (by decide)
    _ = Wv1 m ρ c (Proc.devRef .tc main_arg15) := Wv2_of_ne m ρ c main_arg15 (by decide)
    _ = Wv0 m ρ c (Proc.devRef .tc main_arg15) := StableHlo.after_of_writes_sub hostOps0 _ hostOps0_writes (by decide : main_arg15 ∉ hostOps0_W)

theorem Wv6_main_arg16 (c : Dev nD) : Wv6 m ρ c (Proc.devRef .tc main_arg16) = Wv0 m ρ c (Proc.devRef .tc main_arg16) :=
  calc Wv6 m ρ c (Proc.devRef .tc main_arg16)
    _ = Wv5 m ρ c (Proc.devRef .tc main_arg16) := Wv6_of_ne m ρ c main_arg16 (by decide)
    _ = Wv4 m ρ c (Proc.devRef .tc main_arg16) := Function.update_of_ne (StableHlo.devRef_ne_of_ne (by decide : main_arg16 ≠ main_v11)) _ _
    _ = Wv3 m ρ c (Proc.devRef .tc main_arg16) := StableHlo.after_of_writes_sub hostOps2 _ hostOps2_writes (by decide : main_arg16 ∉ hostOps2_W)
    _ = Wv2 m ρ c (Proc.devRef .tc main_arg16) := Wv3_of_ne m ρ c main_arg16 (by decide)
    _ = Wv1 m ρ c (Proc.devRef .tc main_arg16) := Wv2_of_ne m ρ c main_arg16 (by decide)
    _ = Wv0 m ρ c (Proc.devRef .tc main_arg16) := StableHlo.after_of_writes_sub hostOps0 _ hostOps0_writes (by decide : main_arg16 ∉ hostOps0_W)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vv1 m ρ) c
  | ⟨1, _⟩ => fun c => dat1 (Vv2 m ρ) c
  | ⟨2, _⟩ => fun c => dat2 (Vv4 m ρ) c
  | ⟨3, _⟩ => fun c => dat3 (Vv5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wv6 m ρ c) ∗ ∃ r, prngReg c r)

/-! ## The regions as segments -/

set_option backward.isDefEq.respectTransparency.types false in
/-- Region 0 as a segment: entered from every unscoped buffer at the contents before it, left with its arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vv1 m ρ) c).loose
  hwaits := Pipeline.hwaits_of_owed_zero _ _ _ _ L lv 0 fun _ _ => rfl
  pre c := iprop(StableHlo.held (c : Thread nD τ) (Pipeline.ucRefs τ sig) (Wv1 m ρ c) ∗ R c)
  post c := iprop(StableHlo.held (c : Thread nD τ) (Pipeline.ucRefs τ sig) (Wv2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vv1 m ρ c) (Vv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left with its arrays at what its write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv2 m ρ) c).loose
  hwaits := Pipeline.hwaits_of_owed_zero _ _ _ _ L lv 1 fun _ _ => rfl
  pre c := iprop(StableHlo.held (c : Thread nD τ) (Pipeline.ucRefs τ sig) (Wv2 m ρ c) ∗ R c)
  post c := iprop(StableHlo.held (c : Thread nD τ) (Pipeline.ucRefs τ sig) (Wv3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vv2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
      unfold Pipeline.ΦA
      iintro ⟨Hp, -, Hr⟩
      isplitl [Hr]; · iexact Hr
      iexact Hp).trans (hin1 (Vv2 m ρ) c)
  hout c := (hout1 (Vv2 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vv2 m ρ c) (Vv3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment. Two of its arrays are each read through two windows: the distinct buffers behind the windows'
    arrays are dealt among the windows at the entry and gathered again at the exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (Vv4 m ρ) c).loose
  hwaits := Pipeline.hwaits_of_owed_zero _ _ _ _ L lv 2 fun _ _ => rfl
  pre c := iprop(StableHlo.held (c : Thread nD τ) (Pipeline.ucRefs τ sig) (Wv4 m ρ c) ∗ R c)
  post c := iprop(StableHlo.held (c : Thread nD τ) (Pipeline.ucRefs τ sig) (Wv5 m ρ c) ∗ R c)
  X c := iprop(∃ r, prngReg c r)
  Y c := iprop(∃ r, prngReg c r)
  Z c := Pipeline.unscopedRest (Ix := Unit) (Name := ℕ) (U := UR sig nD τ) (Lvl := ℕ) spec2 c (Vv4 m ρ c)
  hentry c := by
    rw [Pipeline.ownSems0_none]
    have hsplit : (unscopedBufs c (Vv4 m ρ c) : sProp 𝕄)
        ⊢ iprop((pdats m ρ 2 c).arrays ((pdats m ρ 2 c).arrAt · 0) ∗ Pipeline.unscopedRest spec2 c (Vv4 m ρ c)) := by
      rw [Pipeline.unscopedBufs_split₀ cfgs 2 winFacts₀2.arr_unscoped c (Vv4 m ρ c)]
      exact sep_mono (arrays_split2 (Vv4 m ρ) c (Vv4 m ρ c) _ fun w => A_eq2 (Vv4 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
      unfold Pipeline.ΦA
      iintro ⟨Hp, -, Hr⟩
      isplitl [Hr]; · iexact Hr
      iexact Hp).trans (hin2 (Vv4 m ρ) c)
  hout c := (hout2 (Vv4 m ρ) c).trans (by
    rw [Pipeline.ownSems0_none]; unfold Pipeline.ΦA
    iintro ⟨Hr, Hp⟩
    isplitl [Hp]; · iexact Hp
    isplitr; · iempintro
    iexact Hr)
  hexit c := by
    have hjoin : iprop((pdats m ρ 2 c).arrays ((pdats m ρ 2 c).arrAt · cfg2.N) ∗ Pipeline.unscopedRest spec2 c (Vv4 m ρ c))
        ⊢ (unscopedBufs c (Vv5 m ρ c) : sProp 𝕄) := by
      rw [Pipeline.unscopedBufs_split₀ cfgs 2 winFacts₀2.arr_unscoped c (Vv5 m ρ c)]
      refine sep_mono (arrays_join2 (Vv4 m ρ) c (Vv5 m ρ c) _ (hF2 m ρ c)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at the contents before it, left with its arrays at what its write-backs leave. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vv5 m ρ) c).loose
  hwaits := Pipeline.hwaits_of_owed_zero _ _ _ _ L lv 3 fun _ _ => rfl
  pre c := iprop(StableHlo.held (c : Thread nD τ) (Pipeline.ucRefs τ sig) (Wv5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vv5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vv5 m ρ c) (Vv6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program as segments, and its run -/

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segsAll : List (Pipeline.Seg (pcfgs (F := F)) adm (pdats m ρ) () defs₀ 𝒱₀ L lv) :=
  [ .host (hseg hostOps0 hostOps0_sub hostOps0_fresh' (Wv0 m ρ)),
    .region (reg0 m ρ),
    .region (reg1 m ρ),
    .host (hseg hostOps2 hostOps2_sub hostOps2_fresh' (Wv3 m ρ)),
    .region (reg2 m ρ),
    .region (reg3 m ρ) ]
theorem main_run (c : Dev nD) : main (F := F) c = Pipeline.Seg.run (segsAll m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv6 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv6 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_arg0 (by decide))).trans (Wv6_main_arg0 m ρ c),
    (h c _ (mem_uc main_arg1 (by decide))).trans (Wv6_main_arg1 m ρ c),
    (h c _ (mem_uc main_arg2 (by decide))).trans (Wv6_main_arg2 m ρ c),
    (h c _ (mem_uc main_arg3 (by decide))).trans (Wv6_main_arg3 m ρ c),
    (h c _ (mem_uc main_arg4 (by decide))).trans (Wv6_main_arg4 m ρ c),
    (h c _ (mem_uc main_arg5 (by decide))).trans (Wv6_main_arg5 m ρ c),
    (h c _ (mem_uc main_arg6 (by decide))).trans (Wv6_main_arg6 m ρ c),
    (h c _ (mem_uc main_arg7 (by decide))).trans (Wv6_main_arg7 m ρ c),
    (h c _ (mem_uc main_arg8 (by decide))).trans (Wv6_main_arg8 m ρ c),
    (h c _ (mem_uc main_arg9 (by decide))).trans (Wv6_main_arg9 m ρ c),
    (h c _ (mem_uc main_arg10 (by decide))).trans (Wv6_main_arg10 m ρ c),
    (h c _ (mem_uc main_arg11 (by decide))).trans (Wv6_main_arg11 m ρ c),
    (h c _ (mem_uc main_arg12 (by decide))).trans (Wv6_main_arg12 m ρ c),
    (h c _ (mem_uc main_arg13 (by decide))).trans (Wv6_main_arg13 m ρ c),
    (h c _ (mem_uc main_arg14 (by decide))).trans (Wv6_main_arg14 m ρ c),
    (h c _ (mem_uc main_arg15 (by decide))).trans (Wv6_main_arg15 m ρ c),
    (h c _ (mem_uc main_arg16 (by decide))).trans (Wv6_main_arg16 m ρ c)⟩) (run_all m ρ)

end Cert.Kernel.Run

end
-- ==== Proof.KIRegion0.lean ====
/-
  The frame data of the encoder region, for any contents of the buffers at its entry.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The encoder region: per block of 1024 rows, two rectified linear layers and the message projection -/

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or kept from an earlier point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x32 := Rect.unit (s := S1024x32) ![0, 0] S1024x32.size inb_S1024x32_S1024x32_0_0
abbrev r0_1 : Rect S64x32 := Rect.unit (s := S64x32) ![0, 0] S64x32.size inb_S64x32_S64x32_0_0
abbrev r0_2 : Rect S1x64 := Rect.unit (s := S1x64) ![0, 0] S1x64.size inb_S1x64_S1x64_0_0
abbrev r0_3 : Rect S128x64 := Rect.unit (s := S128x64) ![0, 0] S128x64.size inb_S128x64_S128x64_0_0
abbrev r0_4 : Rect S1x128 := Rect.unit (s := S1x128) ![0, 0] S1x128.size inb_S1x128_S1x128_0_0
abbrev r0_5 : Rect S128x128 := Rect.unit (s := S128x128) ![0, 0] S128x128.size inb_S128x128_S128x128_0_0
abbrev r0_6 : Rect S1024x128 := Rect.unit (s := S1024x128) ![0, 0] S1024x128.size inb_S1024x128_S1024x128_0_0
abbrev r0_7 : Rect S1024x128 := Rect.unit (s := S1024x128) ![0, 0] S1024x128.size inb_S1024x128_S1024x128_0_0

/-- What the body leaves in output window 6's staging buffer: its one store over the whole block. -/
def out0_6 (x0 : Vec F S1024x32 .f32) (x1 : Vec F S64x32 .f32) (x2 : Vec F S1x64 .f32) (x3 : Vec F S128x64 .f32) (x4 : Vec F S1x128 .f32) (x5 : Vec F S128x128 .f32) : Vec F S1024x128 .f32 :=
  View.canon [⟨r0_6, k0_pay1 (View.ld x0 r0_0) (View.ld x1 r0_1) (View.ld x2 r0_2) (View.ld x3 r0_3) (View.ld x4 r0_4)⟩]

theorem cover0_6 (p0 : Vec F S1024x128 .f32) (y : S1024x128.Idx) :
    ∃ pc ∈ ([⟨r0_6, p0⟩] : List (View.Piece (Elt F) S1024x128 .f32)), y ∈ pc.1.set :=
  View.cover_of_tiled [⟨r0_6, p0⟩] S1024x128.size (by rfl) y

/-- What the body leaves in output window 7's staging buffer: its one store over the whole block. -/
def out0_7 (x0 : Vec F S1024x32 .f32) (x1 : Vec F S64x32 .f32) (x2 : Vec F S1x64 .f32) (x3 : Vec F S128x64 .f32) (x4 : Vec F S1x128 .f32) (x5 : Vec F S128x128 .f32) : Vec F S1024x128 .f32 :=
  View.canon [⟨r0_7, k0_pay2 (View.ld x0 r0_0) (View.ld x1 r0_1) (View.ld x2 r0_2) (View.ld x3 r0_3) (View.ld x4 r0_4) (View.ld x5 r0_5)⟩]

theorem cover0_7 (p0 : Vec F S1024x128 .f32) (y : S1024x128.Idx) :
    ∃ pc ∈ ([⟨r0_7, p0⟩] : List (View.Piece (Elt F) S1024x128 .f32)), y ∈ pc.1.set :=
  View.cover_of_tiled [⟨r0_7, p0⟩] S1024x128.size (by rfl) y

set_option maxHeartbeats 4000000 in
/-- The kernel body on whole staging buffers, the inputs at their contents and the outputs at anything, runs to the end leaving the inputs as they were and each output at its stored value. -/
theorem sound_kernel0 (c : Dev nD) (E : Set ℕ) (i : grid0.Coords) (arg1 : Memref sig .tc .vmem S1024x32 .f32) (harg1 : arg1.IsWhole) (arg2 : Memref sig .tc .vmem S64x32 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole)
    (x0 : Vec F S1024x32 .f32) (x1 : Vec F S64x32 .f32) (x2 : Vec F S1x64 .f32) (x3 : Vec F S128x64 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data of this pipeline: the arrays as the region finds them; after the body each input buffer at its block and each output buffer at the stored value of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.KernelIdeal.Run

end
-- ==== Proof.KIRegion1.lean ====
/-
  The frame data of the degree region, for any contents of the buffers at its entry.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The degree region: per block of 1024 rows, the row sums of the adjacency accumulated over eight blocks of 1024 columns, plus one at the last -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first conditional of the body (the accumulator's reset): taken at the first step along the second grid axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional (the output's store): taken at the last step along the second grid axis. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

abbrev VO1_1 : View sig .tc .vmem S1024x1 .f32 := (Memref.whole cc1_stg1_0 : Memref sig .tc .vmem S1024x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev scM1_0 : Memref sig .tc .vmem S1024x1 .f32 := Memref.whole cc1_scratch0
abbrev VS1_0 : View sig .tc .vmem S1024x1 .f32 := scM1_0.view

/-- The scoped buffers no window stages, other than the kernel's own accumulator. -/
abbrev Rest1 (c : Dev nD) : sProp 𝕄 := Pipeline.scopedRestBut (Ix := Unit) (Name := ℕ) (U := UR sig nD τ) (Lvl := ℕ) (Val := Elt F) spec1 c [cc1_scratch0]

/-- The region's plain invariant, with the accumulator split out of the scoped rest. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA; rw [scopedRest1_split]; simp only [scM1_0, owns_whole]; try rfl

set_option maxHeartbeats 4000000 in
noncomputable def kernelRun1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
noncomputable def kernelRun1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
noncomputable def kernelRun1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨?_, ?_, fun E K => ?run⟩
  case run =>
    simp only [cc1__degree_kernel_eq_skeleton]; unfold cc1__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-- What this case leaves in the output's staging buffer (nothing is stored: a placeholder no one reads). -/
def out1_A_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) : Vec F S1024x1 .f32 :=
  VO1_1.read (Elt F) (VO1_1.writes (Elt F) VO1_1.junk (kernelRun1_A c i arg2 harg2 arg3 harg3 arg4 harg4 hc0 hc1 x0).1)

theorem scover1_A_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) (y : S1024x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S1024x1.size (by sl_kernel_rfl) y

/-- What this case leaves in the accumulator. -/
def sout1_A_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) : Vec F S1024x1 .f32 :=
  VS1_0.read (Elt F) (VS1_0.writes (Elt F) VS1_0.junk (kernelRun1_A c i arg2 harg2 arg3 harg3 arg4 harg4 hc0 hc1 x0).2.1)

/-- What this case leaves in the output's staging buffer (nothing is stored: a placeholder no one reads). -/
def out1_B_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) : Vec F S1024x1 .f32 :=
  VO1_1.read (Elt F) (VO1_1.writes (Elt F) VO1_1.junk (kernelRun1_B c i arg2 harg2 arg3 harg3 arg4 harg4 hc0 hc1 x0 xs0).1)

theorem scover1_B_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) (y : S1024x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S1024x1.size (by sl_kernel_rfl) y

/-- What this case leaves in the accumulator. -/
def sout1_B_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) : Vec F S1024x1 .f32 :=
  VS1_0.read (Elt F) (VS1_0.writes (Elt F) VS1_0.junk (kernelRun1_B c i arg2 harg2 arg3 harg3 arg4 harg4 hc0 hc1 x0 xs0).2.1)

theorem cover1_C_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) (y : S1024x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S1024x1.size (by sl_kernel_rfl) y

/-- What this case leaves in the output's staging buffer. -/
def out1_C_1 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) : Vec F S1024x1 .f32 :=
  VO1_1.read (Elt F) (VO1_1.writes (Elt F) VO1_1.junk (kernelRun1_C c i arg2 harg2 arg3 harg3 arg4 harg4 hc0 hc1 x0 xs0).1)

theorem scover1_C_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) (y : S1024x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S1024x1.size (by sl_kernel_rfl) y

/-- What this case leaves in the accumulator. -/
def sout1_C_0 (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) : Vec F S1024x1 .f32 :=
  VS1_0.read (Elt F) (VS1_0.writes (Elt F) VS1_0.junk (kernelRun1_C c i arg2 harg2 arg3 harg3 arg4 harg4 hc0 hc1 x0 xs0).2.1)

/-- What the output's staging buffer and the accumulator hold after the body at position `n`, by recursion on the position: the case the position is in, run on the point's blocks and, from the second step of a row block on, on what the position before left in the accumulator. -/
def outsAt1 (c : Dev nD) : (n : ℕ) → n < cfg1.N → Vec F S1024x1 .f32 × Vec F S1024x1 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 8 = 0 then
      if h1 : (n + 1) % 8 = 7 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 8 = 7 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one; afterwards the accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-- The proof data of this pipeline: the arrays as the region finds them; after the body each input buffer at its block, the output's at the recursion's first component; the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _)
            iexact HR
          iexact Hg
        isplitl [Ho]; · iexact Ho
        isplitl [H0]; · iexact H0
        iexists _; iexact H1
      · rw [PhiS1_castSucc V c t, PhiS1_pos V c _ _ hz]
        iintro ⟨⟨⟨HS0, HR⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _)
            iexact HR
          iexact Hg
        isplitl [Ho]; · iexact Ho
        isplitl [H0]; · iexact H0
        iexists _; iexact H1
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _)
            iexact HR
          iexact Hg
        isplitl [Ho]; · iexact Ho
        isplitl [H0]; · iexact H0
        iexists _; iexact H1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Run

end
-- ==== Proof.KIRegion2.lean ====
/-
  The frame data of the aggregation region, for any contents of the buffers at its entry. The messages and the
  inverse square roots of the degrees are each read through two windows (a block of columns' worth of rows, and the
  row block's own rows), so each of those two arrays is held at half its share per window.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The aggregation region: per block of 1024 rows, the adjacency block times the scaled messages accumulated over eight blocks of 1024 columns; at the last, the row scaling, the node's own term, the bias and the rectification -/

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The first conditional of the body (the accumulator's reset): taken at the first step along the second grid axis. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional (the output's store): taken at the last step along the second grid axis. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

abbrev VO2_6 : View sig .tc .vmem S1024x128 .f32 := (Memref.whole cc2_stg6_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
abbrev scM2_0 : Memref sig .tc .vmem S1024x128 .f32 := Memref.whole cc2_scratch0
abbrev VS2_0 : View sig .tc .vmem S1024x128 .f32 := scM2_0.view

/-- The scoped buffers no window stages, other than the kernel's own accumulator. -/
abbrev Rest2 (c : Dev nD) : sProp 𝕄 := Pipeline.scopedRestBut (Ix := Unit) (Name := ℕ) (U := UR sig nD τ) (Lvl := ℕ) (Val := Elt F) spec2 c [cc2_scratch0]

/-- The region's plain invariant, with the accumulator split out of the scoped rest. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA; rw [scopedRest2_split]; simp only [scM2_0, owns_whole]; try rfl

set_option maxHeartbeats 4000000 in
noncomputable def kernelRun2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7 arg8 harg8 arg9 harg9) K } := by
  refine ⟨[], ?_, fun xi6 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 4000000 in
noncomputable def kernelRun2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7 arg8 harg8 arg9 harg9) K } := by
  refine ⟨[], ?_, fun xi6 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 4000000 in
noncomputable def kernelRun2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_kernel i arg2 harg2 arg3 harg3 arg4 harg4 arg5 harg5 arg6 harg6 arg7 harg7 arg8 harg8 arg9 harg9) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

/-- What this case leaves in the output's staging buffer (nothing is stored: a placeholder no one reads). -/
def out2_A_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

theorem scover2_A_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S1024x128.size (by sl_kernel_rfl) y

/-- What this case leaves in the accumulator. -/
def sout2_A_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

/-- What this case leaves in the output's staging buffer (nothing is stored: a placeholder no one reads). -/
def out2_B_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

theorem scover2_B_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator. -/
def sout2_B_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

theorem cover2_C_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What this case leaves in the output's staging buffer. -/
def out2_C_6 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

theorem scover2_C_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator. -/
def sout2_C_0 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-- What the output's staging buffer and the accumulator hold after the body at position `n`, by recursion on the position: the case the position is in, run on the point's blocks and, from the second step of a row block on, on what the position before left in the accumulator. -/
def outsAt2 (c : Dev nD) : (n : ℕ) → n < cfg2.N → Vec F S1024x128 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 8 = 0 then
      if h1 : (n + 1) % 8 = 7 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 8 = 7 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one; afterwards the accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-- The proof data of this pipeline: the arrays as the region finds them; after the body each input buffer at its block, the output's at the recursion's first component; the invariant carries the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover2_C_6 c _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 64 := N_2; omega)

end Region2

end Cert.KernelIdeal.Run

end
-- ==== Proof.KIRegion3.lean ====
/-
  The frame data of the decoder and policy head region, for any contents of the buffers at its entry.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The decoder and policy head region: per block of 1024 rows, four linear layers over the aggregated and the encoded features, masked at the end -/

section Region3

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or kept from an earlier point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or kept from an earlier point. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1024x128 := Rect.unit (s := S1024x128) ![0, 0] S1024x128.size inb_S1024x128_S1024x128_0_0
abbrev r3_1 : Rect S1024x128 := Rect.unit (s := S1024x128) ![0, 0] S1024x128.size inb_S1024x128_S1024x128_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0
abbrev r3_4 : Rect S128x256 := Rect.unit (s := S128x256) ![0, 0] S128x256.size inb_S128x256_S128x256_0_0
abbrev r3_5 : Rect S1x128 := Rect.unit (s := S1x128) ![0, 0] S1x128.size inb_S1x128_S1x128_0_0
abbrev r3_6 : Rect S64x128 := Rect.unit (s := S64x128) ![0, 0] S64x128.size inb_S64x128_S64x128_0_0
abbrev r3_7 : Rect S1x64 := Rect.unit (s := S1x64) ![0, 0] S1x64.size inb_S1x64_S1x64_0_0
abbrev r3_8 : Rect S8x64 := Rect.unit (s := S8x64) ![0, 0] S8x64.size inb_S8x64_S8x64_0_0
abbrev r3_9 : Rect S1x8 := Rect.unit (s := S1x8) ![0, 0] S1x8.size inb_S1x8_S1x8_0_0
abbrev r3_10 : Rect S1024x1 := Rect.unit (s := S1024x1) ![0, 0] S1024x1.size inb_S1024x1_S1024x1_0_0
abbrev r3_11 : Rect S1024x8 := Rect.unit (s := S1024x8) ![0, 0] S1024x8.size inb_S1024x8_S1024x8_0_0

/-- What the body leaves in output window 11's staging buffer: its one store over the whole block. -/
def out3_11 (x0 : Vec F S1024x128 .f32) (x1 : Vec F S1024x128 .f32) (x2 : Vec F S128x128 .f32) (x3 : Vec F S1x128 .f32) (x4 : Vec F S128x256 .f32) (x5 : Vec F S1x128 .f32) (x6 : Vec F S64x128 .f32) (x7 : Vec F S1x64 .f32) (x8 : Vec F S8x64 .f32) (x9 : Vec F S1x8 .f32) (x10 : Vec F S1024x1 .f32) : Vec F S1024x8 .f32 :=
  View.canon [⟨r3_11, k3_pay1 (k3_pay2 (View.ld x0 r3_0) (View.ld x2 r3_2) (View.ld x3 r3_3) (View.ld x1 r3_1) (View.ld x4 r3_4) (View.ld x5 r3_5) (View.ld x6 r3_6) (View.ld x7 r3_7)) (k3_pay3 (F := F)) (View.ld x8 r3_8) (View.ld x9 r3_9) (View.ld x10 r3_10)⟩]

theorem cover3_11 (p0 : Vec F S1024x8 .f32) (y : S1024x8.Idx) :
    ∃ pc ∈ ([⟨r3_11, p0⟩] : List (View.Piece (Elt F) S1024x8 .f32)), y ∈ pc.1.set :=
  View.cover_of_tiled [⟨r3_11, p0⟩] S1024x8.size (by rfl) y

set_option maxHeartbeats 4000000 in
/-- The kernel body on whole staging buffers, the inputs at their contents and the outputs at anything, runs to the end leaving the inputs as they were and each output at its stored value. -/
theorem sound_kernel3 (c : Dev nD) (E : Set ℕ) (i : grid3.Coords) (arg1 : Memref sig .tc .vmem S1024x128 .f32) (harg1 : arg1.IsWhole) (arg2 : Memref sig .tc .vmem S1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S1x64 .f32) (harg8 : arg8.IsWhole) (arg9 : Memref sig .tc .vmem S8x64 .f32) (harg9 : arg9.IsWhole) (arg10 : Memref sig .tc .vmem S1x8 .f32) (harg10 : arg10.IsWhole) (arg11 : Memref sig .tc .vmem S1024x1 .f32) (harg11 : arg11.IsWhole) (arg12 : Memref sig .tc .vmem S1024x8 .f32) (harg12 : arg12.IsWhole)
    (x0 : Vec F S1024x128 .f32) (x1 : Vec F S1024x128 .f32) (x2 : Vec F S128x128 .f32) (x3 : Vec F S1x128 .f32) (x4 : Vec F S128x256 .f32) (x5 : Vec F S1x128 .f32) (x6 : Vec F S64x128 .f32) (x7 : Vec F S1x64 .f32) (x8 : Vec F S8x64 .f32) (x9 : Vec F S1x8 .f32) (x10 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__decode_policy_kernel i arg1 harg1 arg2 harg2 arg3 harg3 arg4 harg4 arg5 harg5 arg6 harg6 arg7 harg7 arg8 harg8 arg9 harg9 arg10 harg10 arg11 harg11 arg12 harg12) K := by
  simp only [cc3__decode_policy_kernel_eq_skeleton]; unfold cc3__decode_policy_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-- The proof data of this pipeline: the arrays as the region finds them; after the body each input buffer at its block and each output buffer at the stored value of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation3 (c : Dev nD) : BodyObligation (dat3 (F := F) V c) (defs₀ (F := F)) Variants.none () Set.univ := fun t => by
  rw [bigSep_W3, bigSep_W3]
  exact sound_body3 V c t

end Region3

end Cert.KernelIdeal.Run

end
-- ==== Proof.KIShared2.lean ====
/-
  The aggregation region reads the messages through two windows and the inverse square roots of the degrees through
  two windows. Outside the region each of these two arrays is held whole at the full share; inside, each window holds
  its array at half of it. Here: the five distinct buffers behind the region's seven windows, held at the full share,
  are the seven windows' arrays at the shares the proof data names, at the same contents — and back.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shared2

variable (V : (c : Dev nD) → (b : Ref sig .tc) → Buf (Elt F) ((c : Thread nD τ).loc b))

theorem image_arr2 : Finset.univ.image (Pipeline.arrRef spec2) = ([main_arg1, main_v8_1, main_v10, main_v2, main_v11] : List (Ref sig .tc)).toFinset := by decide

/-- The five distinct buffers behind the seven windows, one by one. -/
theorem arrBufs2_eq (c : Dev nD) (Vv : (b : Ref sig .tc) → Buf (Elt F) ((c : Thread nD τ).loc b)) :
    (Pipeline.arrBufs (Ix := Unit) (Name := ℕ) (U := UR sig nD τ) (Lvl := ℕ) spec2 c Vv : sProp 𝕄)
      = iprop((((c : Thread nD τ).loc main_arg1) ↦{fullShare} Vv main_arg1) ∗ (((c : Thread nD τ).loc main_v8_1) ↦{fullShare} Vv main_v8_1)
          ∗ (((c : Thread nD τ).loc main_v10) ↦{fullShare} Vv main_v10) ∗ (((c : Thread nD τ).loc main_v2) ↦{fullShare} Vv main_v2)
          ∗ (((c : Thread nD τ).loc main_v11) ↦{fullShare} Vv main_v11)) := by
  unfold Pipeline.arrBufs
  rw [BI.bigSep_eq_bigSepL_of_eq _ image_arr2 (by decide)]
  rfl

/-- The seven windows' arrays, one by one, each a whole buffer at its share. -/
theorem arrays2_eq (c : Dev nD) (Fw : (w : Fin cfg2.W) → Buf (Elt F) ((cfg2.win w).arr.view.loc (c : Thread nD τ))) :
    ((dat2 V c).arrays Fw : sProp 𝕄)
      = iprop((((c : Thread nD τ).loc main_arg1) ↦{fullShare} Fw 0) ∗ (((c : Thread nD τ).loc main_v8_1) ↦{fullShare.left} Fw 1)
          ∗ (((c : Thread nD τ).loc main_v10) ↦{fullShare.left} Fw 2) ∗ (((c : Thread nD τ).loc main_v8_1) ↦{fullShare.right} Fw 3)
          ∗ (((c : Thread nD τ).loc main_v10) ↦{fullShare.right} Fw 4) ∗ (((c : Thread nD τ).loc main_v2) ↦{fullShare} Fw 5)
          ∗ (((c : Thread nD τ).loc main_v11) ↦{fullShare} Fw 6)) := by
  unfold Pipeline.Dat.arrays
  rw [bigSep_W2, (arr_whole2 0).set_eq_univ, (arr_whole2 1).set_eq_univ, (arr_whole2 2).set_eq_univ,
    (arr_whole2 5).set_eq_univ, (arr_whole2 6).set_eq_univ]
  rfl

/-- The distinct buffers at the full share give every window its array at its share. -/
theorem arrays_split2 (c : Dev nD) (Vv : (b : Ref sig .tc) → Buf (Elt F) ((c : Thread nD τ).loc b))
    (Fw : (w : Fin cfg2.W) → Buf (Elt F) ((cfg2.win w).arr.view.loc (c : Thread nD τ))) (hF : ∀ w, Fw w = Vv (Pipeline.arrRef spec2 w)) :
    (Pipeline.arrBufs (Ix := Unit) (Name := ℕ) (U := UR sig nD τ) (Lvl := ℕ) spec2 c Vv : sProp 𝕄) ⊢ (dat2 V c).arrays Fw := by
  rw [arrBufs2_eq, arrays2_eq, hF 0, hF 1, hF 2, hF 3, hF 4, hF 5, hF 6]
  iintro ⟨Ha, Hm, Hd, Hb, Ho⟩
  ihave Hm' := (pointsTo_share (PosShare.mem_left_op_right fullShare)).1 $$ Hm
  icases Hm' with ⟨Hml, Hmr⟩
  ihave Hd' := (pointsTo_share (PosShare.mem_left_op_right fullShare)).1 $$ Hd
  icases Hd' with ⟨Hdl, Hdr⟩
  isplitl [Ha]; · iexact Ha
  isplitl [Hml]; · iexact Hml
  isplitl [Hdl]; · iexact Hdl
  isplitl [Hmr]; · iexact Hmr
  isplitl [Hdr]; · iexact Hdr
  isplitl [Hb]; · iexact Hb
  iexact Ho

/-- And the windows' arrays at their shares give the distinct buffers back at the full share. -/
theorem arrays_join2 (c : Dev nD) (Vv : (b : Ref sig .tc) → Buf (Elt F) ((c : Thread nD τ).loc b))
    (Fw : (w : Fin cfg2.W) → Buf (Elt F) ((cfg2.win w).arr.view.loc (c : Thread nD τ))) (hF : ∀ w, Fw w = Vv (Pipeline.arrRef spec2 w)) :
    (dat2 V c).arrays Fw ⊢ (Pipeline.arrBufs (Ix := Unit) (Name := ℕ) (U := UR sig nD τ) (Lvl := ℕ) spec2 c Vv : sProp 𝕄) := by
  rw [arrBufs2_eq, arrays2_eq, hF 0, hF 1, hF 2, hF 3, hF 4, hF 5, hF 6]
  iintro ⟨Ha, Hml, Hdl, Hmr, Hdr, Hb, Ho⟩
  isplitl [Ha]; · iexact Ha
  isplitl [Hml Hmr]
  · iapply (pointsTo_share (PosShare.mem_left_op_right fullShare)).2
    isplitl [Hml] <;> iassumption
  isplitl [Hdl Hdr]
  · iapply (pointsTo_share (PosShare.mem_left_op_right fullShare)).2
    isplitl [Hdl] <;> iassumption
  isplitl [Hb]; · iexact Hb
  iexact Ho

end Shared2

end Cert.KernelIdeal.Run

end
-- ==== Proof.KIRun.lean ====
/-
  The run of the whole program: the four regions and the host operations between them as one list of segments, every
  unscoped buffer's contents named at each boundary, from the launch to the return.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.Gen.KernelIdeal.Regions
import proofs.«174617_j2465311228175_2_alg».proof.Proof.KIRegion0
import proofs.«174617_j2465311228175_2_alg».proof.Proof.KIRegion1
import proofs.«174617_j2465311228175_2_alg».proof.Proof.KIRegion2
import proofs.«174617_j2465311228175_2_alg».proof.Proof.KIRegion3
import proofs.«174617_j2465311228175_2_alg».proof.Proof.KIShared2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev Wv0 : Dev nD → Valuation τ sig (Elt F) := fun c b => (s₀ m ρ).mem ((c : Dev nD), b)
abbrev Wv1 : Dev nD → Valuation τ sig (Elt F) := fun c => StableHlo.after hostOps0 (Wv0 m ρ c)
abbrev Vv1 : (c : Dev nD) → (b : Ref sig .tc) → Buf (Elt F) ((c : Thread nD τ).loc b) := fun c b => Wv1 m ρ c b
/-- After region 0: its arrays at what its write-backs leave, every other buffer as entered. -/
def Wv2 (c : Dev nD) : Valuation τ sig (Elt F) :=
  Pipeline.withArrays spec0 c (Wv1 m ρ c) fun w => (dat0 (Vv1 m ρ) c).arrAt w cfg0.N
theorem Wv2_arr (c : Dev nD) (w : Fin cfg0.W) :
    Wv2 m ρ c (Proc.devRef .tc (Pipeline.arrRef spec0 w)) = (dat0 (Vv1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vv2 : (c : Dev nD) → (b : Ref sig .tc) → Buf (Elt F) ((c : Thread nD τ).loc b) := fun c b => Wv2 m ρ c b
theorem hF0 (c : Dev nD) (w : Fin cfg0.W) : (dat0 (Vv1 m ρ) c).arrAt w cfg0.N = Vv2 m ρ c (Pipeline.arrRef spec0 w) :=
  (Wv2_arr m ρ c w).symm
theorem hrest0 (c : Dev nD) : ∀ b, b ∉ Finset.univ.image (Pipeline.arrRef spec0) → Vv2 m ρ c b = Vv1 m ρ c b :=
  fun b hb => Wv2_of_ne m ρ c b fun w e => hb (Finset.mem_image.mpr ⟨w, Finset.mem_univ _, e⟩)

/-- After region 1: its arrays at what its write-backs leave, every other buffer as entered. -/
def Wv3 (c : Dev nD) : Valuation τ sig (Elt F) :=
  Pipeline.withArrays spec1 c (Wv2 m ρ c) fun w => (dat1 (Vv2 m ρ) c).arrAt w cfg1.N
theorem Wv3_arr (c : Dev nD) (w : Fin cfg1.W) :
    Wv3 m ρ c (Proc.devRef .tc (Pipeline.arrRef spec1 w)) = (dat1 (Vv2 m ρ) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m ρ c (Proc.devRef .tc b) = Wv2 m ρ c (Proc.devRef .tc b) := by
  unfold Wv3; exact Pipeline.withArrays_of_ne spec1 c _ _ b hb
abbrev Vv3 : (c : Dev nD) → (b : Ref sig .tc) → Buf (Elt F) ((c : Thread nD τ).loc b) := fun c b => Wv3 m ρ c b
theorem hF1 (c : Dev nD) (w : Fin cfg1.W) : (dat1 (Vv2 m ρ) c).arrAt w cfg1.N = Vv3 m ρ c (Pipeline.arrRef spec1 w) :=
  (Wv3_arr m ρ c w).symm
theorem hrest1 (c : Dev nD) : ∀ b, b ∉ Finset.univ.image (Pipeline.arrRef spec1) → Vv3 m ρ c b = Vv2 m ρ c b :=
  fun b hb => Wv3_of_ne m ρ c b fun w e => hb (Finset.mem_image.mpr ⟨w, Finset.mem_univ _, e⟩)

abbrev Wv4 : Dev nD → Valuation τ sig (Elt F) := fun c => StableHlo.after hostOps2 (Wv3 m ρ c)
abbrev Vv4 : (c : Dev nD) → (b : Ref sig .tc) → Buf (Elt F) ((c : Thread nD τ).loc b) := fun c b => Wv4 m ρ c b

/-- After the aggregation region: its one output array at what its write-backs leave, every other buffer as entered. -/
def Wv5 (c : Dev nD) : Valuation τ sig (Elt F) :=
  Function.update (Wv4 m ρ c) (Proc.devRef .tc main_v11) ((dat2 (Vv4 m ρ) c).arrAt 6 cfg2.N)
abbrev Vv5 : (c : Dev nD) → (b : Ref sig .tc) → Buf (Elt F) ((c : Thread nD τ).loc b) := fun c b => Wv5 m ρ c b
theorem Wv5_out (c : Dev nD) : Wv5 m ρ c (Proc.devRef .tc main_v11) = (dat2 (Vv4 m ρ) c).arrAt 6 cfg2.N := by
  unfold Wv5; exact Function.update_self ..
theorem Wv5_of_ne (c : Dev nD) (b : Ref sig .tc) (hb : b ≠ main_v11) : Wv5 m ρ c (Proc.devRef .tc b) = Wv4 m ρ c (Proc.devRef .tc b) := by
  unfold Wv5; exact Function.update_of_ne (StableHlo.devRef_ne_of_ne hb) _ _
theorem hF2 (c : Dev nD) (w : Fin cfg2.W) : (dat2 (Vv4 m ρ) c).arrAt w cfg2.N = Vv5 m ρ c (Pipeline.arrRef spec2 w) :=
  match w with
  | ⟨0, _⟩ => (((dat2 (Vv4 m ρ) c).arrAt_in 0 rfl _).trans (A_eq2 (Vv4 m ρ) c 0)).trans (Wv5_of_ne m ρ c _ (by decide)).symm
  | ⟨1, _⟩ => (((dat2 (Vv4 m ρ) c).arrAt_in 1 rfl _).trans (A_eq2 (Vv4 m ρ) c 1)).trans (Wv5_of_ne m ρ c _ (by decide)).symm
  | ⟨2, _⟩ => (((dat2 (Vv4 m ρ) c).arrAt_in 2 rfl _).trans (A_eq2 (Vv4 m ρ) c 2)).trans (Wv5_of_ne m ρ c _ (by decide)).symm
  | ⟨3, _⟩ => (((dat2 (Vv4 m ρ) c).arrAt_in 3 rfl _).trans (A_eq2 (Vv4 m ρ) c 3)).trans (Wv5_of_ne m ρ c _ (by decide)).symm
  | ⟨4, _⟩ => (((dat2 (Vv4 m ρ) c).arrAt_in 4 rfl _).trans (A_eq2 (Vv4 m ρ) c 4)).trans (Wv5_of_ne m ρ c _ (by decide)).symm
  | ⟨5, _⟩ => (((dat2 (Vv4 m ρ) c).arrAt_in 5 rfl _).trans (A_eq2 (Vv4 m ρ) c 5)).trans (Wv5_of_ne m ρ c _ (by decide)).symm
  | ⟨6, _⟩ => (Wv5_out m ρ c).symm
theorem hrest2 (c : Dev nD) : ∀ b, b ∉ Finset.univ.image (Pipeline.arrRef spec2) → Vv5 m ρ c b = Vv4 m ρ c b :=
  fun b hb => Wv5_of_ne m ρ c b fun e => hb (Finset.mem_image.mpr ⟨6, Finset.mem_univ _, e.symm⟩)

/-- After region 3: its arrays at what its write-backs leave, every other buffer as entered. -/
def Wv6 (c : Dev nD) : Valuation τ sig (Elt F) :=
  Pipeline.withArrays spec3 c (Wv5 m ρ c) fun w => (dat3 (Vv5 m ρ) c).arrAt w cfg3.N
theorem Wv6_arr (c : Dev nD) (w : Fin cfg3.W) :
    Wv6 m ρ c (Proc.devRef .tc (Pipeline.arrRef spec3 w)) = (dat3 (Vv5 m ρ) c).arrAt w cfg3.N := by
  unfold Wv6; exact Pipeline.withArrays_arr spec3 launch3.win.arr_inj c _ _ w
theorem Wv6_of_ne (c : Dev nD) (b : Ref sig .tc) (hb : ∀ w, Pipeline.arrRef spec3 w ≠ b) :
    Wv6 m ρ c (Proc.devRef .tc b) = Wv5 m ρ c (Proc.devRef .tc b) := by
  unfold Wv6; exact Pipeline.withArrays_of_ne spec3 c _ _ b hb
abbrev Vv6 : (c : Dev nD) → (b : Ref sig .tc) → Buf (Elt F) ((c : Thread nD τ).loc b) := fun c b => Wv6 m ρ c b
theorem hF3 (c : Dev nD) (w : Fin cfg3.W) : (dat3 (Vv5 m ρ) c).arrAt w cfg3.N = Vv6 m ρ c (Pipeline.arrRef spec3 w) :=
  (Wv6_arr m ρ c w).symm
theorem hrest3 (c : Dev nD) : ∀ b, b ∉ Finset.univ.image (Pipeline.arrRef spec3) → Vv6 m ρ c b = Vv5 m ρ c b :=
  fun b hb => Wv6_of_ne m ρ c b fun w e => hb (Finset.mem_image.mpr ⟨w, Finset.mem_univ _, e⟩)

/-! ## The arguments end as launched: no host operation writes one, and a region reads it through an input window or not at all -/

theorem Wv6_main_arg0 (c : Dev nD) : Wv6 m ρ c (Proc.devRef .tc main_arg0) = Wv0 m ρ c (Proc.devRef .tc main_arg0) :=
  calc Wv6 m ρ c (Proc.devRef .tc main_arg0)
    _ = Wv5 m ρ c (Proc.devRef .tc main_arg0) := Wv6_of_ne m ρ c main_arg0 (by decide)
    _ = Wv4 m ρ c (Proc.devRef .tc main_arg0) := Function.update_of_ne (StableHlo.devRef_ne_of_ne (by decide : main_arg0 ≠ main_v11)) _ _
    _ = Wv3 m ρ c (Proc.devRef .tc main_arg0) := StableHlo.after_of_writes_sub hostOps2 _ hostOps2_writes (by decide : main_arg0 ∉ hostOps2_W)
    _ = Wv2 m ρ c (Proc.devRef .tc main_arg0) := Wv3_of_ne m ρ c main_arg0 (by decide)
    _ = Wv1 m ρ c (Proc.devRef .tc main_arg0) := (Wv2_arr m ρ c 0).trans (((dat0 (Vv1 m ρ) c).arrAt_in 0 rfl _).trans (A_eq0 (Vv1 m ρ) c 0))
    _ = Wv0 m ρ c (Proc.devRef .tc main_arg0) := StableHlo.after_of_writes_sub hostOps0 _ hostOps0_writes (by decide : main_arg0 ∉ hostOps0_W)

theorem Wv6_main_arg1 (c : Dev nD) : Wv6 m ρ c (Proc.devRef .tc main_arg1) = Wv0 m ρ c (Proc.devRef .tc main_arg1) :=
  calc Wv6 m ρ c (Proc.devRef .tc main_arg1)
    _ = Wv5 m ρ c (Proc.devRef .tc main_arg1) := Wv6_of_ne m ρ c main_arg1 (by decide)
    _ = Wv4 m ρ c (Proc.devRef .tc main_arg1) := Function.update_of_ne (StableHlo.devRef_ne_of_ne (by decide : main_arg1 ≠ main_v11)) _ _
    _ = Wv3 m ρ c (Proc.devRef .tc main_arg1) := StableHlo.after_of_writes_sub hostOps2 _ hostOps2_writes (by decide : main_arg1 ∉ hostOps2_W)
    _ = Wv2 m ρ c (Proc.devRef .tc main_arg1) := (Wv3_arr m ρ c 0).trans (((dat1 (Vv2 m ρ) c).arrAt_in 0 rfl _).trans (A_eq1 (Vv2 m ρ) c 0))
    _ = Wv1 m ρ c (Proc.devRef .tc main_arg1) := Wv2_of_ne m ρ c main_arg1 (by decide)
    _ = Wv0 m ρ c (Proc.devRef .tc main_arg1) := StableHlo.after_of_writes_sub hostOps0 _ hostOps0_writes (by decide : main_arg1 ∉ hostOps0_W)

theorem Wv6_main_arg2 (c : Dev nD) : Wv6 m ρ c (Proc.devRef .tc main_arg2) = Wv0 m ρ c (Proc.devRef .tc main_arg2) :=
  calc Wv6 m ρ c (Proc.devRef .tc main_arg2)
    _ = Wv5 m ρ c (Proc.devRef .tc main_arg2) := Wv6_of_ne m ρ c main_arg2 (by decide)
    _ = Wv4 m ρ c (Proc.devRef .tc main_arg2) := Function.update_of_ne (StableHlo.devRef_ne_of_ne (by decide : main_arg2 ≠ main_v11)) _ _
    _ = Wv3 m ρ c (Proc.devRef .tc main_arg2) := StableHlo.after_of_writes_sub hostOps2 _ hostOps2_writes (by decide : main_arg2 ∉ hostOps2_W)
    _ = Wv2 m ρ c (Proc.devRef .tc main_arg2) := Wv3_of_ne m ρ c main_arg2 (by decide)
    _ = Wv1 m ρ c (Proc.devRef .tc main_arg2) := Wv2_of_ne m ρ c main_arg2 (by decide)
    _ = Wv0 m ρ c (Proc.devRef .tc main_arg2) := StableHlo.after_of_writes_sub hostOps0 _ hostOps0_writes (by decide : main_arg2 ∉ hostOps0_W)

theorem Wv6_main_arg3 (c : Dev nD) : Wv6 m ρ c (Proc.devRef .tc main_arg3) = Wv0 m ρ c (Proc.devRef .tc main_arg3) :=
  calc Wv6 m ρ c (Proc.devRef .tc main_arg3)
    _ = Wv5 m ρ c (Proc.devRef .tc main_arg3) := Wv6_of_ne m ρ c main_arg3 (by decide)
    _ = Wv4 m ρ c (Proc.devRef .tc main_arg3) := Function.update_of_ne (StableHlo.devRef_ne_of_ne (by decide : main_arg3 ≠ main_v11)) _ _
    _ = Wv3 m ρ c (Proc.devRef .tc main_arg3) := StableHlo.after_of_writes_sub hostOps2 _ hostOps2_writes (by decide : main_arg3 ∉ hostOps2_W)
    _ = Wv2 m ρ c (Proc.devRef .tc main_arg3) := Wv3_of_ne m ρ c main_arg3 (by decide)
    _ = Wv1 m ρ c (Proc.devRef .tc main_arg3) := (Wv2_arr m ρ c 1).trans (((dat0 (Vv1 m ρ) c).arrAt_in 1 rfl _).trans (A_eq0 (Vv1 m ρ) c 1))
    _ = Wv0 m ρ c (Proc.devRef .tc main_arg3) := StableHlo.after_of_writes_sub hostOps0 _ hostOps0_writes (by decide : main_arg3 ∉ hostOps0_W)

theorem Wv6_main_arg4 (c : Dev nD) : Wv6 m ρ c (Proc.devRef .tc main_arg4) = Wv0 m ρ c (Proc.devRef .tc main_arg4) :=
  calc Wv6 m ρ c (Proc.devRef .tc main_arg4)
    _ = Wv5 m ρ c (Proc.devRef .tc main_arg4) := Wv6_of_ne m ρ c main_arg4 (by decide)
    _ = Wv4 m ρ c (Proc.devRef .tc main_arg4) := Function.update_of_ne (StableHlo.devRef_ne_of_ne (by decide : main_arg4 ≠ main_v11)) _ _
    _ = Wv3 m ρ c (Proc.devRef .tc main_arg4) := StableHlo.after_of_writes_sub hostOps2 _ hostOps2_writes (by decide : main_arg4 ∉ hostOps2_W)
    _ = Wv2 m ρ c (Proc.devRef .tc main_arg4) := Wv3_of_ne m ρ c main_arg4 (by decide)
    _ = Wv1 m ρ c (Proc.devRef .tc main_arg4) := Wv2_of_ne m ρ c main_arg4 (by decide)
    _ = Wv0 m ρ c (Proc.devRef .tc main_arg4) := StableHlo.after_of_writes_sub hostOps0 _ hostOps0_writes (by decide : main_arg4 ∉ hostOps0_W)

theorem Wv6_main_arg5 (c : Dev nD) : Wv6 m ρ c (Proc.devRef .tc main_arg5) = Wv0 m ρ c (Proc.devRef .tc main_arg5) :=
  calc Wv6 m ρ c (Proc.devRef .tc main_arg5)
    _ = Wv5 m ρ c (Proc.devRef .tc main_arg5) := Wv6_of_ne m ρ c main_arg5 (by decide)
    _ = Wv4 m ρ c (Proc.devRef .tc main_arg5) := Function.update_of_ne (StableHlo.devRef_ne_of_ne (by decide : main_arg5 ≠ main_v11)) _ _
    _ = Wv3 m ρ c (Proc.devRef .tc main_arg5) := StableHlo.after_of_writes_sub hostOps2 _ hostOps2_writes (by decide : main_arg5 ∉ hostOps2_W)
    _ = Wv2 m ρ c (Proc.devRef .tc main_arg5) := Wv3_of_ne m ρ c main_arg5 (by decide)
    _ = Wv1 m ρ c (Proc.devRef .tc main_arg5) := (Wv2_arr m ρ c 3).trans (((dat0 (Vv1 m ρ) c).arrAt_in 3 rfl _).trans (A_eq0 (Vv1 m ρ) c 3))
    _ = Wv0 m ρ c (Proc.devRef .tc main_arg5) := StableHlo.after_of_writes_sub hostOps0 _ hostOps0_writes (by decide : main_arg5 ∉ hostOps0_W)

theorem Wv6_main_arg6 (c : Dev nD) : Wv6 m ρ c (Proc.devRef .tc main_arg6) = Wv0 m ρ c (Proc.devRef .tc main_arg6) :=
  calc Wv6 m ρ c (Proc.devRef .tc main_arg6)
    _ = Wv5 m ρ c (Proc.devRef .tc main_arg6) := Wv6_of_ne m ρ c main_arg6 (by decide)
    _ = Wv4 m ρ c (Proc.devRef .tc main_arg6) := Function.update_of_ne (StableHlo.devRef_ne_of_ne (by decide : main_arg6 ≠ main_v11)) _ _
    _ = Wv3 m ρ c (Proc.devRef .tc main_arg6) := StableHlo.after_of_writes_sub hostOps2 _ hostOps2_writes (by decide : main_arg6 ∉ hostOps2_W)
    _ = Wv2 m ρ c (Proc.devRef .tc main_arg6) := Wv3_of_ne m ρ c main_arg6 (by decide)
    _ = Wv1 m ρ c (Proc.devRef .tc main_arg6) := Wv2_of_ne m ρ c main_arg6 (by decide)
    _ = Wv0 m ρ c (Proc.devRef .tc main_arg6) := StableHlo.after_of_writes_sub hostOps0 _ hostOps0_writes (by decide : main_arg6 ∉ hostOps0_W)

theorem Wv6_main_arg7 (c : Dev nD) : Wv6 m ρ c (Proc.devRef .tc main_arg7) = Wv0 m ρ c (Proc.devRef .tc main_arg7) :=
  calc Wv6 m ρ c (Proc.devRef .tc main_arg7)
    _ = Wv5 m ρ c (Proc.devRef .tc main_arg7) := Wv6_of_ne m ρ c main_arg7 (by decide)
    _ = Wv4 m ρ c (Proc.devRef .tc main_arg7) := Function.update_of_ne (StableHlo.devRef_ne_of_ne (by decide : main_arg7 ≠ main_v11)) _ _
    _ = Wv3 m ρ c (Proc.devRef .tc main_arg7) := StableHlo.after_of_writes_sub hostOps2 _ hostOps2_writes (by decide : main_arg7 ∉ hostOps2_W)
    _ = Wv2 m ρ c (Proc.devRef .tc main_arg7) := Wv3_of_ne m ρ c main_arg7 (by decide)
    _ = Wv1 m ρ c (Proc.devRef .tc main_arg7) := (Wv2_arr m ρ c 5).trans (((dat0 (Vv1 m ρ) c).arrAt_in 5 rfl _).trans (A_eq0 (Vv1 m ρ) c 5))
    _ = Wv0 m ρ c (Proc.devRef .tc main_arg7) := StableHlo.after_of_writes_sub hostOps0 _ hostOps0_writes (by decide : main_arg7 ∉ hostOps0_W)

theorem Wv6_main_arg8 (c : Dev nD) : Wv6 m ρ c (Proc.devRef .tc main_arg8) = Wv0 m ρ c (Proc.devRef .tc main_arg8) :=
  calc Wv6 m ρ c (Proc.devRef .tc main_arg8)
    _ = Wv5 m ρ c (Proc.devRef .tc main_arg8) := Wv6_of_ne m ρ c main_arg8 (by decide)
    _ = Wv4 m ρ c (Proc.devRef .tc main_arg8) := Function.update_of_ne (StableHlo.devRef_ne_of_ne (by decide : main_arg8 ≠ main_v11)) _ _
    _ = Wv3 m ρ c (Proc.devRef .tc main_arg8) := StableHlo.after_of_writes_sub hostOps2 _ hostOps2_writes (by decide : main_arg8 ∉ hostOps2_W)
    _ = Wv2 m ρ c (Proc.devRef .tc main_arg8) := Wv3_of_ne m ρ c main_arg8 (by decide)
    _ = Wv1 m ρ c (Proc.devRef .tc main_arg8) := Wv2_of_ne m ρ c main_arg8 (by decide)
    _ = Wv0 m ρ c (Proc.devRef .tc main_arg8) := StableHlo.after_of_writes_sub hostOps0 _ hostOps0_writes (by decide : main_arg8 ∉ hostOps0_W)

theorem Wv6_main_arg9 (c : Dev nD) : Wv6 m ρ c (Proc.devRef .tc main_arg9) = Wv0 m ρ c (Proc.devRef .tc main_arg9) :=
  calc Wv6 m ρ c (Proc.devRef .tc main_arg9)
    _ = Wv5 m ρ c (Proc.devRef .tc main_arg9) := (Wv6_arr m ρ c 2).trans (((dat3 (Vv5 m ρ) c).arrAt_in 2 rfl _).trans (A_eq3 (Vv5 m ρ) c 2))
    _ = Wv4 m ρ c (Proc.devRef .tc main_arg9) := Function.update_of_ne (StableHlo.devRef_ne_of_ne (by decide : main_arg9 ≠ main_v11)) _ _
    _ = Wv3 m ρ c (Proc.devRef .tc main_arg9) := StableHlo.after_of_writes_sub hostOps2 _ hostOps2_writes (by decide : main_arg9 ∉ hostOps2_W)
    _ = Wv2 m ρ c (Proc.devRef .tc main_arg9) := Wv3_of_ne m ρ c main_arg9 (by decide)
    _ = Wv1 m ρ c (Proc.devRef .tc main_arg9) := Wv2_of_ne m ρ c main_arg9 (by decide)
    _ = Wv0 m ρ c (Proc.devRef .tc main_arg9) := StableHlo.after_of_writes_sub hostOps0 _ hostOps0_writes (by decide : main_arg9 ∉ hostOps0_W)

theorem Wv6_main_arg10 (c : Dev nD) : Wv6 m ρ c (Proc.devRef .tc main_arg10) = Wv0 m ρ c (Proc.devRef .tc main_arg10) :=
  calc Wv6 m ρ c (Proc.devRef .tc main_arg10)
    _ = Wv5 m ρ c (Proc.devRef .tc main_arg10) := Wv6_of_ne m ρ c main_arg10 (by decide)
    _ = Wv4 m ρ c (Proc.devRef .tc main_arg10) := Function.update_of_ne (StableHlo.devRef_ne_of_ne (by decide : main_arg10 ≠ main_v11)) _ _
    _ = Wv3 m ρ c (Proc.devRef .tc main_arg10) := StableHlo.after_of_writes_sub hostOps2 _ hostOps2_writes (by decide : main_arg10 ∉ hostOps2_W)
    _ = Wv2 m ρ c (Proc.devRef .tc main_arg10) := Wv3_of_ne m ρ c main_arg10 (by decide)
    _ = Wv1 m ρ c (Proc.devRef .tc main_arg10) := Wv2_of_ne m ρ c main_arg10 (by decide)
    _ = Wv0 m ρ c (Proc.devRef .tc main_arg10) := StableHlo.after_of_writes_sub hostOps0 _ hostOps0_writes (by decide : main_arg10 ∉ hostOps0_W)

theorem Wv6_main_arg11 (c : Dev nD) : Wv6 m ρ c (Proc.devRef .tc main_arg11) = Wv0 m ρ c (Proc.devRef .tc main_arg11) :=
  calc Wv6 m ρ c (Proc.devRef .tc main_arg11)
    _ = Wv5 m ρ c (Proc.devRef .tc main_arg11) := (Wv6_arr m ρ c 4).trans (((dat3 (Vv5 m ρ) c).arrAt_in 4 rfl _).trans (A_eq3 (Vv5 m ρ) c 4))
    _ = Wv4 m ρ c (Proc.devRef .tc main_arg11) := Function.update_of_ne (StableHlo.devRef_ne_of_ne (by decide : main_arg11 ≠ main_v11)) _ _
    _ = Wv3 m ρ c (Proc.devRef .tc main_arg11) := StableHlo.after_of_writes_sub hostOps2 _ hostOps2_writes (by decide : main_arg11 ∉ hostOps2_W)
    _ = Wv2 m ρ c (Proc.devRef .tc main_arg11) := Wv3_of_ne m ρ c main_arg11 (by decide)
    _ = Wv1 m ρ c (Proc.devRef .tc main_arg11) := Wv2_of_ne m ρ c main_arg11 (by decide)
    _ = Wv0 m ρ c (Proc.devRef .tc main_arg11) := StableHlo.after_of_writes_sub hostOps0 _ hostOps0_writes (by decide : main_arg11 ∉ hostOps0_W)

theorem Wv6_main_arg12 (c : Dev nD) : Wv6 m ρ c (Proc.devRef .tc main_arg12) = Wv0 m ρ c (Proc.devRef .tc main_arg12) :=
  calc Wv6 m ρ c (Proc.devRef .tc main_arg12)
    _ = Wv5 m ρ c (Proc.devRef .tc main_arg12) := Wv6_of_ne m ρ c main_arg12 (by decide)
    _ = Wv4 m ρ c (Proc.devRef .tc main_arg12) := Function.update_of_ne (StableHlo.devRef_ne_of_ne (by decide : main_arg12 ≠ main_v11)) _ _
    _ = Wv3 m ρ c (Proc.devRef .tc main_arg12) := StableHlo.after_of_writes_sub hostOps2 _ hostOps2_writes (by decide : main_arg12 ∉ hostOps2_W)
    _ = Wv2 m ρ c (Proc.devRef .tc main_arg12) := Wv3_of_ne m ρ c main_arg12 (by decide)
    _ = Wv1 m ρ c (Proc.devRef .tc main_arg12) := Wv2_of_ne m ρ c main_arg12 (by decide)
    _ = Wv0 m ρ c (Proc.devRef .tc main_arg12) := StableHlo.after_of_writes_sub hostOps0 _ hostOps0_writes (by decide : main_arg12 ∉ hostOps0_W)

theorem Wv6_main_arg13 (c : Dev nD) : Wv6 m ρ c (Proc.devRef .tc main_arg13) = Wv0 m ρ c (Proc.devRef .tc main_arg13) :=
  calc Wv6 m ρ c (Proc.devRef .tc main_arg13)
    _ = Wv5 m ρ c (Proc.devRef .tc main_arg13) := (Wv6_arr m ρ c 6).trans (((dat3 (Vv5 m ρ) c).arrAt_in 6 rfl _).trans (A_eq3 (Vv5 m ρ) c 6))
    _ = Wv4 m ρ c (Proc.devRef .tc main_arg13) := Function.update_of_ne (StableHlo.devRef_ne_of_ne (by decide : main_arg13 ≠ main_v11)) _ _
    _ = Wv3 m ρ c (Proc.devRef .tc main_arg13) := StableHlo.after_of_writes_sub hostOps2 _ hostOps2_writes (by decide : main_arg13 ∉ hostOps2_W)
    _ = Wv2 m ρ c (Proc.devRef .tc main_arg13) := Wv3_of_ne m ρ c main_arg13 (by decide)
    _ = Wv1 m ρ c (Proc.devRef .tc main_arg13) := Wv2_of_ne m ρ c main_arg13 (by decide)
    _ = Wv0 m ρ c (Proc.devRef .tc main_arg13) := StableHlo.after_of_writes_sub hostOps0 _ hostOps0_writes (by decide : main_arg13 ∉ hostOps0_W)

theorem Wv6_main_arg14 (c : Dev nD) : Wv6 m ρ c (Proc.devRef .tc main_arg14) = Wv0 m ρ c (Proc.devRef .tc main_arg14) :=
  calc Wv6 m ρ c (Proc.devRef .tc main_arg14)
    _ = Wv5 m ρ c (Proc.devRef .tc main_arg14) := Wv6_of_ne m ρ c main_arg14 (by decide)
    _ = Wv4 m ρ c (Proc.devRef .tc main_arg14) := Function.update_of_ne (StableHlo.devRef_ne_of_ne (by decide : main_arg14 ≠ main_v11)) _ _
    _ = Wv3 m ρ c (Proc.devRef .tc main_arg14) := StableHlo.after_of_writes_sub hostOps2 _ hostOps2_writes (by decide : main_arg14 ∉ hostOps2_W)
    _ = Wv2 m ρ c (Proc.devRef .tc main_arg14) := Wv3_of_ne m ρ c main_arg14 (by decide)
    _ = Wv1 m ρ c (Proc.devRef .tc main_arg14) := Wv2_of_ne m ρ c main_arg14 (by decide)
    _ = Wv0 m ρ c (Proc.devRef .tc main_arg14) := StableHlo.after_of_writes_sub hostOps0 _ hostOps0_writes (by decide : main_arg14 ∉ hostOps0_W)

theorem Wv6_main_arg15 (c : Dev nD) : Wv6 m ρ c (Proc.devRef .tc main_arg15) = Wv0 m ρ c (Proc.devRef .tc main_arg15) :=
  calc Wv6 m ρ c (Proc.devRef .tc main_arg15)
    _ = Wv5 m ρ c (Proc.devRef .tc main_arg15) := (Wv6_arr m ρ c 8).trans (((dat3 (Vv5 m ρ) c).arrAt_in 8 rfl _).trans (A_eq3 (Vv5 m ρ) c 8))
    _ = Wv4 m ρ c (Proc.devRef .tc main_arg15) := Function.update_of_ne (StableHlo.devRef_ne_of_ne (by decide : main_arg15 ≠ main_v11)) _ _
    _ = Wv3 m ρ c (Proc.devRef .tc main_arg15) := StableHlo.after_of_writes_sub hostOps2 _ hostOps2_writes (by decide : main_arg15 ∉ hostOps2_W)
    _ = Wv2 m ρ c (Proc.devRef .tc main_arg15) := Wv3_of_ne m ρ c main_arg15 (by decide)
    _ = Wv1 m ρ c (Proc.devRef .tc main_arg15) := Wv2_of_ne m ρ c main_arg15 (by decide)
    _ = Wv0 m ρ c (Proc.devRef .tc main_arg15) := StableHlo.after_of_writes_sub hostOps0 _ hostOps0_writes (by decide : main_arg15 ∉ hostOps0_W)

theorem Wv6_main_arg16 (c : Dev nD) : Wv6 m ρ c (Proc.devRef .tc main_arg16) = Wv0 m ρ c (Proc.devRef .tc main_arg16) :=
  calc Wv6 m ρ c (Proc.devRef .tc main_arg16)
    _ = Wv5 m ρ c (Proc.devRef .tc main_arg16) := Wv6_of_ne m ρ c main_arg16 (by decide)
    _ = Wv4 m ρ c (Proc.devRef .tc main_arg16) := Function.update_of_ne (StableHlo.devRef_ne_of_ne (by decide : main_arg16 ≠ main_v11)) _ _
    _ = Wv3 m ρ c (Proc.devRef .tc main_arg16) := StableHlo.after_of_writes_sub hostOps2 _ hostOps2_writes (by decide : main_arg16 ∉ hostOps2_W)
    _ = Wv2 m ρ c (Proc.devRef .tc main_arg16) := Wv3_of_ne m ρ c main_arg16 (by decide)
    _ = Wv1 m ρ c (Proc.devRef .tc main_arg16) := Wv2_of_ne m ρ c main_arg16 (by decide)
    _ = Wv0 m ρ c (Proc.devRef .tc main_arg16) := StableHlo.after_of_writes_sub hostOps0 _ hostOps0_writes (by decide : main_arg16 ∉ hostOps0_W)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vv1 m ρ) c
  | ⟨1, _⟩ => fun c => dat1 (Vv2 m ρ) c
  | ⟨2, _⟩ => fun c => dat2 (Vv4 m ρ) c
  | ⟨3, _⟩ => fun c => dat3 (Vv5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wv6 m ρ c) ∗ ∃ r, prngReg c r)

/-! ## The regions as segments -/

set_option backward.isDefEq.respectTransparency.types false in
/-- Region 0 as a segment: entered from every unscoped buffer at the contents before it, left with its arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vv1 m ρ) c).loose
  hwaits := Pipeline.hwaits_of_owed_zero _ _ _ _ L lv 0 fun _ _ => rfl
  pre c := iprop(StableHlo.held (c : Thread nD τ) (Pipeline.ucRefs τ sig) (Wv1 m ρ c) ∗ R c)
  post c := iprop(StableHlo.held (c : Thread nD τ) (Pipeline.ucRefs τ sig) (Wv2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vv1 m ρ c) (Vv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left with its arrays at what its write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv2 m ρ) c).loose
  hwaits := Pipeline.hwaits_of_owed_zero _ _ _ _ L lv 1 fun _ _ => rfl
  pre c := iprop(StableHlo.held (c : Thread nD τ) (Pipeline.ucRefs τ sig) (Wv2 m ρ c) ∗ R c)
  post c := iprop(StableHlo.held (c : Thread nD τ) (Pipeline.ucRefs τ sig) (Wv3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vv2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
      unfold Pipeline.ΦA
      iintro ⟨Hp, -, Hr⟩
      isplitl [Hr]; · iexact Hr
      iexact Hp).trans (hin1 (Vv2 m ρ) c)
  hout c := (hout1 (Vv2 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vv2 m ρ c) (Vv3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment. Two of its arrays are each read through two windows: the distinct buffers behind the windows'
    arrays are dealt among the windows at the entry and gathered again at the exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (Vv4 m ρ) c).loose
  hwaits := Pipeline.hwaits_of_owed_zero _ _ _ _ L lv 2 fun _ _ => rfl
  pre c := iprop(StableHlo.held (c : Thread nD τ) (Pipeline.ucRefs τ sig) (Wv4 m ρ c) ∗ R c)
  post c := iprop(StableHlo.held (c : Thread nD τ) (Pipeline.ucRefs τ sig) (Wv5 m ρ c) ∗ R c)
  X c := iprop(∃ r, prngReg c r)
  Y c := iprop(∃ r, prngReg c r)
  Z c := Pipeline.unscopedRest (Ix := Unit) (Name := ℕ) (U := UR sig nD τ) (Lvl := ℕ) spec2 c (Vv4 m ρ c)
  hentry c := by
    rw [Pipeline.ownSems0_none]
    have hsplit : (unscopedBufs c (Vv4 m ρ c) : sProp 𝕄)
        ⊢ iprop((pdats m ρ 2 c).arrays ((pdats m ρ 2 c).arrAt · 0) ∗ Pipeline.unscopedRest spec2 c (Vv4 m ρ c)) := by
      rw [Pipeline.unscopedBufs_split₀ cfgs 2 winFacts₀2.arr_unscoped c (Vv4 m ρ c)]
      exact sep_mono (arrays_split2 (Vv4 m ρ) c (Vv4 m ρ c) _ fun w => A_eq2 (Vv4 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
      unfold Pipeline.ΦA
      iintro ⟨Hp, -, Hr⟩
      isplitl [Hr]; · iexact Hr
      iexact Hp).trans (hin2 (Vv4 m ρ) c)
  hout c := (hout2 (Vv4 m ρ) c).trans (by
    rw [Pipeline.ownSems0_none]; unfold Pipeline.ΦA
    iintro ⟨Hr, Hp⟩
    isplitl [Hp]; · iexact Hp
    isplitr; · iempintro
    iexact Hr)
  hexit c := by
    have hjoin : iprop((pdats m ρ 2 c).arrays ((pdats m ρ 2 c).arrAt · cfg2.N) ∗ Pipeline.unscopedRest spec2 c (Vv4 m ρ c))
        ⊢ (unscopedBufs c (Vv5 m ρ c) : sProp 𝕄) := by
      rw [Pipeline.unscopedBufs_split₀ cfgs 2 winFacts₀2.arr_unscoped c (Vv5 m ρ c)]
      refine sep_mono (arrays_join2 (Vv4 m ρ) c (Vv5 m ρ c) _ (hF2 m ρ c)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at the contents before it, left with its arrays at what its write-backs leave. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vv5 m ρ) c).loose
  hwaits := Pipeline.hwaits_of_owed_zero _ _ _ _ L lv 3 fun _ _ => rfl
  pre c := iprop(StableHlo.held (c : Thread nD τ) (Pipeline.ucRefs τ sig) (Wv5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vv5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vv5 m ρ c) (Vv6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program as segments, and its run -/

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segsAll : List (Pipeline.Seg (pcfgs (F := F)) adm (pdats m ρ) () defs₀ 𝒱₀ L lv) :=
  [ .host (hseg hostOps0 hostOps0_sub hostOps0_fresh' (Wv0 m ρ)),
    .region (reg0 m ρ),
    .region (reg1 m ρ),
    .host (hseg hostOps2 hostOps2_sub hostOps2_fresh' (Wv3 m ρ)),
    .region (reg2 m ρ),
    .region (reg3 m ρ) ]
theorem main_run (c : Dev nD) : main (F := F) c = Pipeline.Seg.run (segsAll m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv6 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv6 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_arg0 (by decide))).trans (Wv6_main_arg0 m ρ c),
    (h c _ (mem_uc main_arg1 (by decide))).trans (Wv6_main_arg1 m ρ c),
    (h c _ (mem_uc main_arg2 (by decide))).trans (Wv6_main_arg2 m ρ c),
    (h c _ (mem_uc main_arg3 (by decide))).trans (Wv6_main_arg3 m ρ c),
    (h c _ (mem_uc main_arg4 (by decide))).trans (Wv6_main_arg4 m ρ c),
    (h c _ (mem_uc main_arg5 (by decide))).trans (Wv6_main_arg5 m ρ c),
    (h c _ (mem_uc main_arg6 (by decide))).trans (Wv6_main_arg6 m ρ c),
    (h c _ (mem_uc main_arg7 (by decide))).trans (Wv6_main_arg7 m ρ c),
    (h c _ (mem_uc main_arg8 (by decide))).trans (Wv6_main_arg8 m ρ c),
    (h c _ (mem_uc main_arg9 (by decide))).trans (Wv6_main_arg9 m ρ c),
    (h c _ (mem_uc main_arg10 (by decide))).trans (Wv6_main_arg10 m ρ c),
    (h c _ (mem_uc main_arg11 (by decide))).trans (Wv6_main_arg11 m ρ c),
    (h c _ (mem_uc main_arg12 (by decide))).trans (Wv6_main_arg12 m ρ c),
    (h c _ (mem_uc main_arg13 (by decide))).trans (Wv6_main_arg13 m ρ c),
    (h c _ (mem_uc main_arg14 (by decide))).trans (Wv6_main_arg14 m ρ c),
    (h c _ (mem_uc main_arg15 (by decide))).trans (Wv6_main_arg15 m ρ c),
    (h c _ (mem_uc main_arg16 (by decide))).trans (Wv6_main_arg16 m ρ c)⟩) (run_all m ρ)

end Cert.KernelIdeal.Run

end
-- ==== Proof.KIBlocks.lean ====
/-
  Where each window's block sits in its array: the printed index maps in closed form over the grid, a block's entry
  as the array's entry at the block's offset plus the entry's coordinates, and which indices of an output array each
  written-back block covers.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIRegion0
import proofs.«174617_j2465311228175_2_alg».proof.Proof.KIRegion1
import proofs.«174617_j2465311228175_2_alg».proof.Proof.KIRegion2
import proofs.«174617_j2465311228175_2_alg».proof.Proof.KIRegion3
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The index maps of region 0, decided over its grid. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem emb0_0 (t : Fin cfg0.N) (p : Fin 1024) (q : Fin 32) :
    ((cfg0.win 0).blk t).view.emb (ix2 p q) = ix2 ⟨t.val * 1024 + p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_0.index t (0 : Fin 2) * 1024 + 1 * p.val = t.val * 1024 + p.val; omega
  | ⟨1, _⟩ => show win0_0.index t (1 : Fin 2) * 32 + 1 * q.val = q.val; omega

theorem iblk0_0_apply (c : Dev nD) (t : Fin cfg0.N) (p : Fin 1024) (q : Fin 32) :
    iblk0 V c 0 t (ix2 p q) = V c main_arg0 (ix2 ⟨t.val * 1024 + p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩) := by
  unfold iblk0
  rw [View.read_apply, emb0_0 t p q]
  rfl

theorem emb0_1 (t : Fin cfg0.N) (p : Fin 64) (q : Fin 32) :
    ((cfg0.win 1).blk t).view.emb (ix2 p q) = ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_1.index t (0 : Fin 2) * 64 + 1 * p.val = p.val; omega
  | ⟨1, _⟩ => show win0_1.index t (1 : Fin 2) * 32 + 1 * q.val = q.val; omega

theorem iblk0_1_apply (c : Dev nD) (t : Fin cfg0.N) (p : Fin 64) (q : Fin 32) :
    iblk0 V c 1 t (ix2 p q) = V c main_arg3 (ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩) := by
  unfold iblk0
  rw [View.read_apply, emb0_1 t p q]
  rfl

theorem emb0_2 (t : Fin cfg0.N) (p : Fin 1) (q : Fin 64) :
    ((cfg0.win 2).blk t).view.emb (ix2 p q) = ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_2.index t (0 : Fin 2) * 1 + 1 * p.val = p.val; omega
  | ⟨1, _⟩ => show win0_2.index t (1 : Fin 2) * 64 + 1 * q.val = q.val; omega

theorem iblk0_2_apply (c : Dev nD) (t : Fin cfg0.N) (p : Fin 1) (q : Fin 64) :
    iblk0 V c 2 t (ix2 p q) = V c main_v0 (ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩) := by
  unfold iblk0
  rw [View.read_apply, emb0_2 t p q]
  rfl

theorem emb0_3 (t : Fin cfg0.N) (p : Fin 128) (q : Fin 64) :
    ((cfg0.win 3).blk t).view.emb (ix2 p q) = ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_3.index t (0 : Fin 2) * 128 + 1 * p.val = p.val; omega
  | ⟨1, _⟩ => show win0_3.index t (1 : Fin 2) * 64 + 1 * q.val = q.val; omega

theorem iblk0_3_apply (c : Dev nD) (t : Fin cfg0.N) (p : Fin 128) (q : Fin 64) :
    iblk0 V c 3 t (ix2 p q) = V c main_arg5 (ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩) := by
  unfold iblk0
  rw [View.read_apply, emb0_3 t p q]
  rfl

theorem emb0_4 (t : Fin cfg0.N) (p : Fin 1) (q : Fin 128) :
    ((cfg0.win 4).blk t).view.emb (ix2 p q) = ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_4.index t (0 : Fin 2) * 1 + 1 * p.val = p.val; omega
  | ⟨1, _⟩ => show win0_4.index t (1 : Fin 2) * 128 + 1 * q.val = q.val; omega

theorem iblk0_4_apply (c : Dev nD) (t : Fin cfg0.N) (p : Fin 1) (q : Fin 128) :
    iblk0 V c 4 t (ix2 p q) = V c main_v1 (ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩) := by
  unfold iblk0
  rw [View.read_apply, emb0_4 t p q]
  rfl

theorem emb0_5 (t : Fin cfg0.N) (p : Fin 128) (q : Fin 128) :
    ((cfg0.win 5).blk t).view.emb (ix2 p q) = ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_5.index t (0 : Fin 2) * 128 + 1 * p.val = p.val; omega
  | ⟨1, _⟩ => show win0_5.index t (1 : Fin 2) * 128 + 1 * q.val = q.val; omega

theorem iblk0_5_apply (c : Dev nD) (t : Fin cfg0.N) (p : Fin 128) (q : Fin 128) :
    iblk0 V c 5 t (ix2 p q) = V c main_arg7 (ix2 ⟨p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩) := by
  unfold iblk0
  rw [View.read_apply, emb0_5 t p q]
  rfl

theorem emb0_6 (t : Fin cfg0.N) (p : Fin 1024) (q : Fin 128) :
    ((cfg0.win 6).blk t).view.emb (ix2 p q) = ix2 ⟨t.val * 1024 + p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_6.index t (0 : Fin 2) * 1024 + 1 * p.val = t.val * 1024 + p.val; omega
  | ⟨1, _⟩ => show win0_6.index t (1 : Fin 2) * 128 + 1 * q.val = q.val; omega

theorem emb0_7 (t : Fin cfg0.N) (p : Fin 1024) (q : Fin 128) :
    ((cfg0.win 7).blk t).view.emb (ix2 p q) = ix2 ⟨t.val * 1024 + p.val, by have hN : t.val < 8 := lt_of_lt_of_eq t.isLt (show cfg0.N = 8 from N_0); have := p.isLt; have := q.isLt; omega⟩ ⟨q.val, by have hN : t.val < 8 := lt_of_lt_of_eq t.isLt (show cfg0.N = 8 from N_0); have := p.isLt; have := q.isLt; omega⟩ := by
  obtain ⟨e0_0, e0_1, e1_0, e1_1, e2_0, e2_1, e3_0, e3_1, e4_0, e4_1, e5_0, e5_1, e6_0, e6_1, e7_0, e7_1⟩ := idx0 t
  funext d; apply Fin.ext
  match d with
  | ⟨0, _⟩ => show win0_7.index t (0 : Fin 2) * 1024 + 1 * p.val = t.val * 1024 + p.val; omega
  | ⟨1, _⟩ => show win0_7.index t (1 : Fin 2) * 128 + 1 * q.val = q.val; omega

/-- The index maps of region 1, decided over its grid. -/
theorem idx1 : ∀ t : Fin cfg1.N, win1_0.index t (0 : Fin 2) = t.val / 8 ∧ win1_0.index t (1 : Fin 2) = t.val % 8
    ∧ win1_1.index t (0 : Fin 2) = t.val / 8 ∧ win1_1.index t (1 : Fin 2) = 0 :=
  (by decide +kernel : ∀ t : Fin grid1.N, _)

theorem emb1_0 (t : Fin cfg1.N) (p : Fin 1024) (q : Fin 1024) :
    ((cfg1.win 0).blk t).view.emb (ix2 p q) = ix2 ⟨t.val / 8 * 1024 + p.val, by have hN : t.val < 64 := lt_of_lt_of_eq t.isLt (show cfg1.N = 64 from N_1); have := p.isLt; have := q.isLt; omega⟩ ⟨t.val % 8 * 1024 + q.val, by have hN : t.val < 64 := lt_of_lt_of_eq t.isLt (show cfg1.N = 64 from N_1); have := p.isLt; have := q.isLt; omega⟩ := by
  obtain ⟨e0_0, e0_1, e1_0, e1_1⟩ := idx1 t
  funext d; apply Fin.ext
  match d with
  | ⟨0, _⟩ => show win1_0.index t (0 : Fin 2) * 1024 + 1 * p.val = t.val / 8 * 1024 + p.val; omega
  | ⟨1, _⟩ => show win1_0.index t (1 : Fin 2) * 1024 + 1 * q.val = t.val % 8 * 1024 + q.val; omega

theorem iblk1_0_apply (c : Dev nD) (t : Fin cfg1.N) (p : Fin 1024) (q : Fin 1024) :
    iblk1 V c 0 t (ix2 p q) = V c main_arg1 (ix2 ⟨t.val / 8 * 1024 + p.val, by have hN : t.val < 64 := lt_of_lt_of_eq t.isLt (show cfg1.N = 64 from N_1); have := p.isLt; have := q.isLt; omega⟩ ⟨t.val % 8 * 1024 + q.val, by have hN : t.val < 64 := lt_of_lt_of_eq t.isLt (show cfg1.N = 64 from N_1); have := p.isLt; have := q.isLt; omega⟩) := by
  unfold iblk1
  rw [View.read_apply, emb1_0 t p q]
  rfl

theorem emb1_1 (t : Fin cfg1.N) (p : Fin 1024) (q : Fin 1) :
    ((cfg1.win 1).blk t).view.emb (ix2 p q) = ix2 ⟨t.val / 8 * 1024 + p.val, by have hN : t.val < 64 := lt_of_lt_of_eq t.isLt (show cfg1.N = 64 from N_1); have := p.isLt; have := q.isLt; omega⟩ ⟨q.val, by have hN : t.val < 64 := lt_of_lt_of_eq t.isLt (show cfg1.N = 64 from N_1); have := p.isLt; have := q.isLt; omega⟩ := by
  obtain ⟨e0_0, e0_1, e1_0, e1_1⟩ := idx1 t
  funext d; apply Fin.ext
  match d with
  | ⟨0, _⟩ => show win1_1.index t (0 : Fin 2) * 1024 + 1 * p.val = t.val / 8 * 1024 + p.val; omega
  | ⟨1, _⟩ => show win1_1.index t (1 : Fin 2) * 1 + 1 * q.val = q.val; omega

/-- The index maps of region 2, decided over its grid. -/
theorem idx2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = t.val / 8 ∧ win2_3.index t (1 : Fin 2) = 0
    ∧ win2_4.index t (0 : Fin 2) = t.val / 8 ∧ win2_4.index t (1 : Fin 2) = 0
    ∧ win2_5.index t (0 : Fin 2) = 0 ∧ win2_5.index t (1 : Fin 2) = 0
    ∧ win2_6.index t (0 : Fin 2) = t.val / 8 ∧ win2_6.index t (1 : Fin 2) = 0 :=
  (by decide +kernel : ∀ t : Fin grid2.N, _)

theorem emb2_0 (t : Fin cfg2.N) (p : Fin 1024) (q : Fin 1024) :
    ((cfg2.win 0).blk t).view.emb (ix2 p q) = ix2 ⟨t.val / 8 * 1024 + p.val, by have hN : t.val < 64 := lt_of_lt_of_eq t.isLt (show cfg2.N = 64 from N_2); have := p.isLt; have := q.isLt; omega⟩ ⟨t.val % 8 * 1024 + q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_0.index t (0 : Fin 2) * 1024 + 1 * p.val = t.val / 8 * 1024 + p.val; omega
  | ⟨1, _⟩ => show win2_0.index t (1 : Fin 2) * 1024 + 1 * q.val = t.val % 8 * 1024 + q.val; omega

theorem iblk2_0_apply (c : Dev nD) (t : Fin cfg2.N) (p : Fin 1024) (q : Fin 1024) :
    iblk2 V c 0 t (ix2 p q) = V c main_arg1 (ix2 ⟨t.val / 8 * 1024 + p.val, by have hN : t.val < 64 := lt_of_lt_of_eq t.isLt (show cfg2.N = 64 from N_2); have := p.isLt; have := q.isLt; omega⟩ ⟨t.val % 8 * 1024 + q.val, by have hN : t.val < 64 := lt_of_lt_of_eq t.isLt (show cfg2.N = 64 from N_2); have := p.isLt; have := q.isLt; omega⟩) := by
  unfold iblk2
  rw [View.read_apply, emb2_0 t p q]
  rfl

theorem emb2_1 (t : Fin cfg2.N) (p : Fin 1024) (q : Fin 128) :
    ((cfg2.win 1).blk t).view.emb (ix2 p q) = ix2 ⟨t.val % 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_1.index t (0 : Fin 2) * 1024 + 1 * p.val = t.val % 8 * 1024 + p.val; omega
  | ⟨1, _⟩ => show win2_1.index t (1 : Fin 2) * 128 + 1 * q.val = q.val; omega

theorem iblk2_1_apply (c : Dev nD) (t : Fin cfg2.N) (p : Fin 1024) (q : Fin 128) :
    iblk2 V c 1 t (ix2 p q) = V c main_v8_1 (ix2 ⟨t.val % 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩) := by
  unfold iblk2
  rw [View.read_apply, emb2_1 t p q]
  rfl

theorem emb2_2 (t : Fin cfg2.N) (p : Fin 1024) (q : Fin 1) :
    ((cfg2.win 2).blk t).view.emb (ix2 p q) = ix2 ⟨t.val % 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_2.index t (0 : Fin 2) * 1024 + 1 * p.val = t.val % 8 * 1024 + p.val; omega
  | ⟨1, _⟩ => show win2_2.index t (1 : Fin 2) * 1 + 1 * q.val = q.val; omega

theorem iblk2_2_apply (c : Dev nD) (t : Fin cfg2.N) (p : Fin 1024) (q : Fin 1) :
    iblk2 V c 2 t (ix2 p q) = V c main_v10 (ix2 ⟨t.val % 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩) := by
  unfold iblk2
  rw [View.read_apply, emb2_2 t p q]
  rfl

theorem emb2_3 (t : Fin cfg2.N) (p : Fin 1024) (q : Fin 128) :
    ((cfg2.win 3).blk t).view.emb (ix2 p q) = ix2 ⟨t.val / 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_3.index t (0 : Fin 2) * 1024 + 1 * p.val = t.val / 8 * 1024 + p.val; omega
  | ⟨1, _⟩ => show win2_3.index t (1 : Fin 2) * 128 + 1 * q.val = q.val; omega

theorem iblk2_3_apply (c : Dev nD) (t : Fin cfg2.N) (p : Fin 1024) (q : Fin 128) :
    iblk2 V c 3 t (ix2 p q) = V c main_v8_1 (ix2 ⟨t.val / 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩) := by
  unfold iblk2
  rw [View.read_apply, emb2_3 t p q]
  rfl

theorem emb2_4 (t : Fin cfg2.N) (p : Fin 1024) (q : Fin 1) :
    ((cfg2.win 4).blk t).view.emb (ix2 p q) = ix2 ⟨t.val / 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_4.index t (0 : Fin 2) * 1024 + 1 * p.val = t.val / 8 * 1024 + p.val; omega
  | ⟨1, _⟩ => show win2_4.index t (1 : Fin 2) * 1 + 1 * q.val = q.val; omega

theorem iblk2_4_apply (c : Dev nD) (t : Fin cfg2.N) (p : Fin 1024) (q : Fin 1) :
    iblk2 V c 4 t (ix2 p q) = V c main_v10 (ix2 ⟨t.val / 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩) := by
  unfold iblk2
  rw [View.read_apply, emb2_4 t p q]
  rfl

theorem emb2_5 (t : Fin cfg2.N) (p : Fin 1) (q : Fin 128) :
    ((cfg2.win 5).blk t).view.emb (ix2 p q) = ix2 ⟨p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_5.index t (0 : Fin 2) * 1 + 1 * p.val = p.val; omega
  | ⟨1, _⟩ => show win2_5.index t (1 : Fin 2) * 128 + 1 * q.val = q.val; omega

theorem iblk2_5_apply (c : Dev nD) (t : Fin cfg2.N) (p : Fin 1) (q : Fin 128) :
    iblk2 V c 5 t (ix2 p q) = V c main_v2 (ix2 ⟨p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩) := by
  unfold iblk2
  rw [View.read_apply, emb2_5 t p q]
  rfl

theorem emb2_6 (t : Fin cfg2.N) (p : Fin 1024) (q : Fin 128) :
    ((cfg2.win 6).blk t).view.emb (ix2 p q) = ix2 ⟨t.val / 8 * 1024 + p.val, by have hN : t.val < 64 := lt_of_lt_of_eq t.isLt (show cfg2.N = 64 from N_2); have := p.isLt; have := q.isLt; omega⟩ ⟨q.val, by have hN : t.val < 64 := lt_of_lt_of_eq t.isLt (show cfg2.N = 64 from N_2); have := p.isLt; have := q.isLt; omega⟩ := by
  obtain ⟨e0_0, e0_1, e1_0, e1_1, e2_0, e2_1, e3_0, e3_1, e4_0, e4_1, e5_0, e5_1, e6_0, e6_1⟩ := idx2 t
  funext d; apply Fin.ext
  match d with
  | ⟨0, _⟩ => show win2_6.index t (0 : Fin 2) * 1024 + 1 * p.val = t.val / 8 * 1024 + p.val; omega
  | ⟨1, _⟩ => show win2_6.index t (1 : Fin 2) * 128 + 1 * q.val = q.val; omega

/-- The index maps of region 3, decided over its grid. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0
    ∧ win3_11.index t (0 : Fin 2) = t.val ∧ win3_11.index t (1 : Fin 2) = 0 :=
  (by decide +kernel : ∀ t : Fin grid3.N, _)

theorem emb3_0 (t : Fin cfg3.N) (p : Fin 1024) (q : Fin 128) :
    ((cfg3.win 0).blk t).view.emb (ix2 p q) = ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_0.index t (0 : Fin 2) * 1024 + 1 * p.val = t.val * 1024 + p.val; omega
  | ⟨1, _⟩ => show win3_0.index t (1 : Fin 2) * 128 + 1 * q.val = q.val; omega

theorem iblk3_0_apply (c : Dev nD) (t : Fin cfg3.N) (p : Fin 1024) (q : Fin 128) :
    iblk3 V c 0 t (ix2 p q) = V c main_v11 (ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_0 t p q]
  rfl

theorem emb3_1 (t : Fin cfg3.N) (p : Fin 1024) (q : Fin 128) :
    ((cfg3.win 1).blk t).view.emb (ix2 p q) = ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_1.index t (0 : Fin 2) * 1024 + 1 * p.val = t.val * 1024 + p.val; omega
  | ⟨1, _⟩ => show win3_1.index t (1 : Fin 2) * 128 + 1 * q.val = q.val; omega

theorem iblk3_1_apply (c : Dev nD) (t : Fin cfg3.N) (p : Fin 1024) (q : Fin 128) :
    iblk3 V c 1 t (ix2 p q) = V c main_v8_0 (ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_1 t p q]
  rfl

theorem emb3_2 (t : Fin cfg3.N) (p : Fin 128) (q : Fin 128) :
    ((cfg3.win 2).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_2.index t (0 : Fin 2) * 128 + 1 * p.val = p.val; omega
  | ⟨1, _⟩ => show win3_2.index t (1 : Fin 2) * 128 + 1 * q.val = q.val; omega

theorem iblk3_2_apply (c : Dev nD) (t : Fin cfg3.N) (p : Fin 128) (q : Fin 128) :
    iblk3 V c 2 t (ix2 p q) = V c main_arg9 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_2 t p q]
  rfl

theorem emb3_3 (t : Fin cfg3.N) (p : Fin 1) (q : Fin 128) :
    ((cfg3.win 3).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_3.index t (0 : Fin 2) * 1 + 1 * p.val = p.val; omega
  | ⟨1, _⟩ => show win3_3.index t (1 : Fin 2) * 128 + 1 * q.val = q.val; omega

theorem iblk3_3_apply (c : Dev nD) (t : Fin cfg3.N) (p : Fin 1) (q : Fin 128) :
    iblk3 V c 3 t (ix2 p q) = V c main_v3 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_3 t p q]
  rfl

theorem emb3_4 (t : Fin cfg3.N) (p : Fin 128) (q : Fin 256) :
    ((cfg3.win 4).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_4.index t (0 : Fin 2) * 128 + 1 * p.val = p.val; omega
  | ⟨1, _⟩ => show win3_4.index t (1 : Fin 2) * 256 + 1 * q.val = q.val; omega

theorem iblk3_4_apply (c : Dev nD) (t : Fin cfg3.N) (p : Fin 128) (q : Fin 256) :
    iblk3 V c 4 t (ix2 p q) = V c main_arg11 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_4 t p q]
  rfl

theorem emb3_5 (t : Fin cfg3.N) (p : Fin 1) (q : Fin 128) :
    ((cfg3.win 5).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_5.index t (0 : Fin 2) * 1 + 1 * p.val = p.val; omega
  | ⟨1, _⟩ => show win3_5.index t (1 : Fin 2) * 128 + 1 * q.val = q.val; omega

theorem iblk3_5_apply (c : Dev nD) (t : Fin cfg3.N) (p : Fin 1) (q : Fin 128) :
    iblk3 V c 5 t (ix2 p q) = V c main_v4 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_5 t p q]
  rfl

theorem emb3_6 (t : Fin cfg3.N) (p : Fin 64) (q : Fin 128) :
    ((cfg3.win 6).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_6.index t (0 : Fin 2) * 64 + 1 * p.val = p.val; omega
  | ⟨1, _⟩ => show win3_6.index t (1 : Fin 2) * 128 + 1 * q.val = q.val; omega

theorem iblk3_6_apply (c : Dev nD) (t : Fin cfg3.N) (p : Fin 64) (q : Fin 128) :
    iblk3 V c 6 t (ix2 p q) = V c main_arg13 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_6 t p q]
  rfl

theorem emb3_7 (t : Fin cfg3.N) (p : Fin 1) (q : Fin 64) :
    ((cfg3.win 7).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_7.index t (0 : Fin 2) * 1 + 1 * p.val = p.val; omega
  | ⟨1, _⟩ => show win3_7.index t (1 : Fin 2) * 64 + 1 * q.val = q.val; omega

theorem iblk3_7_apply (c : Dev nD) (t : Fin cfg3.N) (p : Fin 1) (q : Fin 64) :
    iblk3 V c 7 t (ix2 p q) = V c main_v5 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_7 t p q]
  rfl

theorem emb3_8 (t : Fin cfg3.N) (p : Fin 8) (q : Fin 64) :
    ((cfg3.win 8).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_8.index t (0 : Fin 2) * 8 + 1 * p.val = p.val; omega
  | ⟨1, _⟩ => show win3_8.index t (1 : Fin 2) * 64 + 1 * q.val = q.val; omega

theorem iblk3_8_apply (c : Dev nD) (t : Fin cfg3.N) (p : Fin 8) (q : Fin 64) :
    iblk3 V c 8 t (ix2 p q) = V c main_arg15 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_8 t p q]
  rfl

theorem emb3_9 (t : Fin cfg3.N) (p : Fin 1) (q : Fin 8) :
    ((cfg3.win 9).blk t).view.emb (ix2 p q) = ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_9.index t (0 : Fin 2) * 1 + 1 * p.val = p.val; omega
  | ⟨1, _⟩ => show win3_9.index t (1 : Fin 2) * 8 + 1 * q.val = q.val; omega

theorem iblk3_9_apply (c : Dev nD) (t : Fin cfg3.N) (p : Fin 1) (q : Fin 8) :
    iblk3 V c 9 t (ix2 p q) = V c main_v6 (ix2 ⟨p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_9 t p q]
  rfl

theorem emb3_10 (t : Fin cfg3.N) (p : Fin 1024) (q : Fin 1) :
    ((cfg3.win 10).blk t).view.emb (ix2 p q) = ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_10.index t (0 : Fin 2) * 1024 + 1 * p.val = t.val * 1024 + p.val; omega
  | ⟨1, _⟩ => show win3_10.index t (1 : Fin 2) * 1 + 1 * q.val = q.val; omega

theorem iblk3_10_apply (c : Dev nD) (t : Fin cfg3.N) (p : Fin 1024) (q : Fin 1) :
    iblk3 V c 10 t (ix2 p q) = V c main_v7 (ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩) := by
  unfold iblk3
  rw [View.read_apply, emb3_10 t p q]
  rfl

theorem emb3_11 (t : Fin cfg3.N) (p : Fin 1024) (q : Fin 8) :
    ((cfg3.win 11).blk t).view.emb (ix2 p q) = ix2 ⟨t.val * 1024 + p.val, by have hN : t.val < 8 := lt_of_lt_of_eq t.isLt (show cfg3.N = 8 from N_3); have := p.isLt; have := q.isLt; omega⟩ ⟨q.val, by have hN : t.val < 8 := lt_of_lt_of_eq t.isLt (show cfg3.N = 8 from N_3); have := p.isLt; have := q.isLt; omega⟩ := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 t
  funext d; apply Fin.ext
  match d with
  | ⟨0, _⟩ => show win3_11.index t (0 : Fin 2) * 1024 + 1 * p.val = t.val * 1024 + p.val; omega
  | ⟨1, _⟩ => show win3_11.index t (1 : Fin 2) * 8 + 1 * q.val = q.val; omega

theorem iblk0_1_whole (c : Dev nD) (t : Fin cfg0.N) : iblk0 V c 1 t = V c main_arg3 := by
  funext y
  obtain ⟨p, q, rfl⟩ : ∃ (p : Fin 64) (q : Fin 32), y = ix2 p q := ⟨y 0, y 1, eq_ix2 y⟩
  exact iblk0_1_apply V c t p q

theorem iblk0_2_whole (c : Dev nD) (t : Fin cfg0.N) : iblk0 V c 2 t = V c main_v0 := by
  funext y
  obtain ⟨p, q, rfl⟩ : ∃ (p : Fin 1) (q : Fin 64), y = ix2 p q := ⟨y 0, y 1, eq_ix2 y⟩
  exact iblk0_2_apply V c t p q

theorem iblk0_3_whole (c : Dev nD) (t : Fin cfg0.N) : iblk0 V c 3 t = V c main_arg5 := by
  funext y
  obtain ⟨p, q, rfl⟩ : ∃ (p : Fin 128) (q : Fin 64), y = ix2 p q := ⟨y 0, y 1, eq_ix2 y⟩
  exact iblk0_3_apply V c t p q

theorem iblk0_4_whole (c : Dev nD) (t : Fin cfg0.N) : iblk0 V c 4 t = V c main_v1 := by
  funext y
  obtain ⟨p, q, rfl⟩ : ∃ (p : Fin 1) (q : Fin 128), y = ix2 p q := ⟨y 0, y 1, eq_ix2 y⟩
  exact iblk0_4_apply V c t p q

theorem iblk0_5_whole (c : Dev nD) (t : Fin cfg0.N) : iblk0 V c 5 t = V c main_arg7 := by
  funext y
  obtain ⟨p, q, rfl⟩ : ∃ (p : Fin 128) (q : Fin 128), y = ix2 p q := ⟨y 0, y 1, eq_ix2 y⟩
  exact iblk0_5_apply V c t p q

theorem mem_blk0_6 (t : Fin cfg0.N) (i : (⟨2, ![8192, 128]⟩ : Shape).Idx) :
    i ∈ ((cfg0.win 6).blk t).view.set ↔ ∀ a : Fin 2, win0_6.index t a * (⟨2, ![1024, 128]⟩ : Shape).size a ≤ (i a).val ∧ (i a).val < win0_6.index t a * (⟨2, ![1024, 128]⟩ : Shape).size a + (⟨2, ![1024, 128]⟩ : Shape).size a := by
  show i ∈ ((View.whole main_v8_0).slice (win0_6.rect t)).set ↔ _
  rw [View.set_slice_whole, Rect.mem_set_unit]
  exact Iff.rfl

/-- Every entry of the output array lies in the block some point writes back. -/
theorem cover0_6' (i : (⟨2, ![8192, 128]⟩ : Shape).Idx) :
    ∃ t : Fin cfg0.N, (cfg0.win 6).flush t = true ∧ i ∈ ((cfg0.win 6).blk t).view.set := by
  have h0 : (i 0).val < 8192 := (i 0).isLt
  have h1 : (i 1).val < 128 := (i 1).isLt
  refine ⟨⟨(i 0).val / 1024, by rw [show cfg0.N = 8 from N_0]; omega⟩, flush0_6 _, ?_⟩
  rw [mem_blk0_6]
  obtain ⟨e0_0, e0_1, e1_0, e1_1, e2_0, e2_1, e3_0, e3_1, e4_0, e4_1, e5_0, e5_1, e6_0, e6_1, e7_0, e7_1⟩ := idx0 ⟨(i 0).val / 1024, by rw [show cfg0.N = 8 from N_0]; omega⟩
  intro a
  match a with
  | ⟨0, _⟩ =>
    show win0_6.index _ (0 : Fin 2) * 1024 ≤ (i 0).val ∧ (i 0).val < win0_6.index _ (0 : Fin 2) * 1024 + 1024
    rw [e6_0]; show ((i 0).val / 1024) * 1024 ≤ (i 0).val ∧ (i 0).val < ((i 0).val / 1024) * 1024 + 1024; omega
  | ⟨1, _⟩ =>
    show win0_6.index _ (1 : Fin 2) * 128 ≤ (i 1).val ∧ (i 1).val < win0_6.index _ (1 : Fin 2) * 128 + 128
    rw [e6_1]; omega

theorem mem_blk0_7 (t : Fin cfg0.N) (i : (⟨2, ![8192, 128]⟩ : Shape).Idx) :
    i ∈ ((cfg0.win 7).blk t).view.set ↔ ∀ a : Fin 2, win0_7.index t a * (⟨2, ![1024, 128]⟩ : Shape).size a ≤ (i a).val ∧ (i a).val < win0_7.index t a * (⟨2, ![1024, 128]⟩ : Shape).size a + (⟨2, ![1024, 128]⟩ : Shape).size a := by
  show i ∈ ((View.whole main_v8_1).slice (win0_7.rect t)).set ↔ _
  rw [View.set_slice_whole, Rect.mem_set_unit]
  exact Iff.rfl

/-- Every entry of the output array lies in the block some point writes back. -/
theorem cover0_7' (i : (⟨2, ![8192, 128]⟩ : Shape).Idx) :
    ∃ t : Fin cfg0.N, (cfg0.win 7).flush t = true ∧ i ∈ ((cfg0.win 7).blk t).view.set := by
  have h0 : (i 0).val < 8192 := (i 0).isLt
  have h1 : (i 1).val < 128 := (i 1).isLt
  refine ⟨⟨(i 0).val / 1024, by rw [show cfg0.N = 8 from N_0]; omega⟩, flush0_7 _, ?_⟩
  rw [mem_blk0_7]
  obtain ⟨e0_0, e0_1, e1_0, e1_1, e2_0, e2_1, e3_0, e3_1, e4_0, e4_1, e5_0, e5_1, e6_0, e6_1, e7_0, e7_1⟩ := idx0 ⟨(i 0).val / 1024, by rw [show cfg0.N = 8 from N_0]; omega⟩
  intro a
  match a with
  | ⟨0, _⟩ =>
    show win0_7.index _ (0 : Fin 2) * 1024 ≤ (i 0).val ∧ (i 0).val < win0_7.index _ (0 : Fin 2) * 1024 + 1024
    rw [e7_0]; show ((i 0).val / 1024) * 1024 ≤ (i 0).val ∧ (i 0).val < ((i 0).val / 1024) * 1024 + 1024; omega
  | ⟨1, _⟩ =>
    show win0_7.index _ (1 : Fin 2) * 128 ≤ (i 1).val ∧ (i 1).val < win0_7.index _ (1 : Fin 2) * 128 + 128
    rw [e7_1]; omega

theorem mem_blk1_1 (t : Fin cfg1.N) (i : (⟨2, ![8192, 1]⟩ : Shape).Idx) :
    i ∈ ((cfg1.win 1).blk t).view.set ↔ ∀ a : Fin 2, win1_1.index t a * (⟨2, ![1024, 1]⟩ : Shape).size a ≤ (i a).val ∧ (i a).val < win1_1.index t a * (⟨2, ![1024, 1]⟩ : Shape).size a + (⟨2, ![1024, 1]⟩ : Shape).size a := by
  show i ∈ ((View.whole main_v9).slice (win1_1.rect t)).set ↔ _
  rw [View.set_slice_whole, Rect.mem_set_unit]
  exact Iff.rfl

/-- Every entry of the output array lies in the block some point writes back. -/
theorem cover1_1' (i : (⟨2, ![8192, 1]⟩ : Shape).Idx) :
    ∃ t : Fin cfg1.N, (cfg1.win 1).flush t = true ∧ i ∈ ((cfg1.win 1).blk t).view.set := by
  have h0 : (i 0).val < 8192 := (i 0).isLt
  have h1 : (i 1).val < 1 := (i 1).isLt
  refine ⟨⟨8 * ((i 0).val / 1024) + 7, by rw [show cfg1.N = 64 from N_1]; omega⟩, (flush1_1 _).mpr (by show (8 * ((i 0).val / 1024) + 7) % 8 = 7; omega), ?_⟩
  rw [mem_blk1_1]
  obtain ⟨e0_0, e0_1, e1_0, e1_1⟩ := idx1 ⟨8 * ((i 0).val / 1024) + 7, by rw [show cfg1.N = 64 from N_1]; omega⟩
  intro a
  match a with
  | ⟨0, _⟩ =>
    show win1_1.index _ (0 : Fin 2) * 1024 ≤ (i 0).val ∧ (i 0).val < win1_1.index _ (0 : Fin 2) * 1024 + 1024
    rw [e1_0]; show (8 * ((i 0).val / 1024) + 7) / 8 * 1024 ≤ (i 0).val ∧ (i 0).val < (8 * ((i 0).val / 1024) + 7) / 8 * 1024 + 1024; omega
  | ⟨1, _⟩ =>
    show win1_1.index _ (1 : Fin 2) * 1 ≤ (i 1).val ∧ (i 1).val < win1_1.index _ (1 : Fin 2) * 1 + 1
    rw [e1_1]; omega

theorem iblk2_5_whole (c : Dev nD) (t : Fin cfg2.N) : iblk2 V c 5 t = V c main_v2 := by
  funext y
  obtain ⟨p, q, rfl⟩ : ∃ (p : Fin 1) (q : Fin 128), y = ix2 p q := ⟨y 0, y 1, eq_ix2 y⟩
  exact iblk2_5_apply V c t p q

theorem mem_blk2_6 (t : Fin cfg2.N) (i : (⟨2, ![8192, 128]⟩ : Shape).Idx) :
    i ∈ ((cfg2.win 6).blk t).view.set ↔ ∀ a : Fin 2, win2_6.index t a * (⟨2, ![1024, 128]⟩ : Shape).size a ≤ (i a).val ∧ (i a).val < win2_6.index t a * (⟨2, ![1024, 128]⟩ : Shape).size a + (⟨2, ![1024, 128]⟩ : Shape).size a := by
  show i ∈ ((View.whole main_v11).slice (win2_6.rect t)).set ↔ _
  rw [View.set_slice_whole, Rect.mem_set_unit]
  exact Iff.rfl

/-- Every entry of the output array lies in the block some point writes back. -/
theorem cover2_6' (i : (⟨2, ![8192, 128]⟩ : Shape).Idx) :
    ∃ t : Fin cfg2.N, (cfg2.win 6).flush t = true ∧ i ∈ ((cfg2.win 6).blk t).view.set := by
  have h0 : (i 0).val < 8192 := (i 0).isLt
  have h1 : (i 1).val < 128 := (i 1).isLt
  refine ⟨⟨8 * ((i 0).val / 1024) + 7, by rw [show cfg2.N = 64 from N_2]; omega⟩, (flush2_6 _).mpr (by show (8 * ((i 0).val / 1024) + 7) % 8 = 7; omega), ?_⟩
  rw [mem_blk2_6]
  obtain ⟨e0_0, e0_1, e1_0, e1_1, e2_0, e2_1, e3_0, e3_1, e4_0, e4_1, e5_0, e5_1, e6_0, e6_1⟩ := idx2 ⟨8 * ((i 0).val / 1024) + 7, by rw [show cfg2.N = 64 from N_2]; omega⟩
  intro a
  match a with
  | ⟨0, _⟩ =>
    show win2_6.index _ (0 : Fin 2) * 1024 ≤ (i 0).val ∧ (i 0).val < win2_6.index _ (0 : Fin 2) * 1024 + 1024
    rw [e6_0]; show (8 * ((i 0).val / 1024) + 7) / 8 * 1024 ≤ (i 0).val ∧ (i 0).val < (8 * ((i 0).val / 1024) + 7) / 8 * 1024 + 1024; omega
  | ⟨1, _⟩ =>
    show win2_6.index _ (1 : Fin 2) * 128 ≤ (i 1).val ∧ (i 1).val < win2_6.index _ (1 : Fin 2) * 128 + 128
    rw [e6_1]; omega

theorem iblk3_2_whole (c : Dev nD) (t : Fin cfg3.N) : iblk3 V c 2 t = V c main_arg9 := by
  funext y
  obtain ⟨p, q, rfl⟩ : ∃ (p : Fin 128) (q : Fin 128), y = ix2 p q := ⟨y 0, y 1, eq_ix2 y⟩
  exact iblk3_2_apply V c t p q

theorem iblk3_3_whole (c : Dev nD) (t : Fin cfg3.N) : iblk3 V c 3 t = V c main_v3 := by
  funext y
  obtain ⟨p, q, rfl⟩ : ∃ (p : Fin 1) (q : Fin 128), y = ix2 p q := ⟨y 0, y 1, eq_ix2 y⟩
  exact iblk3_3_apply V c t p q

theorem iblk3_4_whole (c : Dev nD) (t : Fin cfg3.N) : iblk3 V c 4 t = V c main_arg11 := by
  funext y
  obtain ⟨p, q, rfl⟩ : ∃ (p : Fin 128) (q : Fin 256), y = ix2 p q := ⟨y 0, y 1, eq_ix2 y⟩
  exact iblk3_4_apply V c t p q

theorem iblk3_5_whole (c : Dev nD) (t : Fin cfg3.N) : iblk3 V c 5 t = V c main_v4 := by
  funext y
  obtain ⟨p, q, rfl⟩ : ∃ (p : Fin 1) (q : Fin 128), y = ix2 p q := ⟨y 0, y 1, eq_ix2 y⟩
  exact iblk3_5_apply V c t p q

theorem iblk3_6_whole (c : Dev nD) (t : Fin cfg3.N) : iblk3 V c 6 t = V c main_arg13 := by
  funext y
  obtain ⟨p, q, rfl⟩ : ∃ (p : Fin 64) (q : Fin 128), y = ix2 p q := ⟨y 0, y 1, eq_ix2 y⟩
  exact iblk3_6_apply V c t p q

theorem iblk3_7_whole (c : Dev nD) (t : Fin cfg3.N) : iblk3 V c 7 t = V c main_v5 := by
  funext y
  obtain ⟨p, q, rfl⟩ : ∃ (p : Fin 1) (q : Fin 64), y = ix2 p q := ⟨y 0, y 1, eq_ix2 y⟩
  exact iblk3_7_apply V c t p q

theorem iblk3_8_whole (c : Dev nD) (t : Fin cfg3.N) : iblk3 V c 8 t = V c main_arg15 := by
  funext y
  obtain ⟨p, q, rfl⟩ : ∃ (p : Fin 8) (q : Fin 64), y = ix2 p q := ⟨y 0, y 1, eq_ix2 y⟩
  exact iblk3_8_apply V c t p q

theorem iblk3_9_whole (c : Dev nD) (t : Fin cfg3.N) : iblk3 V c 9 t = V c main_v6 := by
  funext y
  obtain ⟨p, q, rfl⟩ : ∃ (p : Fin 1) (q : Fin 8), y = ix2 p q := ⟨y 0, y 1, eq_ix2 y⟩
  exact iblk3_9_apply V c t p q

theorem mem_blk3_11 (t : Fin cfg3.N) (i : (⟨2, ![8192, 8]⟩ : Shape).Idx) :
    i ∈ ((cfg3.win 11).blk t).view.set ↔ ∀ a : Fin 2, win3_11.index t a * (⟨2, ![1024, 8]⟩ : Shape).size a ≤ (i a).val ∧ (i a).val < win3_11.index t a * (⟨2, ![1024, 8]⟩ : Shape).size a + (⟨2, ![1024, 8]⟩ : Shape).size a := by
  show i ∈ ((View.whole main_v12).slice (win3_11.rect t)).set ↔ _
  rw [View.set_slice_whole, Rect.mem_set_unit]
  exact Iff.rfl

/-- Every entry of the output array lies in the block some point writes back. -/
theorem cover3_11' (i : (⟨2, ![8192, 8]⟩ : Shape).Idx) :
    ∃ t : Fin cfg3.N, (cfg3.win 11).flush t = true ∧ i ∈ ((cfg3.win 11).blk t).view.set := by
  have h0 : (i 0).val < 8192 := (i 0).isLt
  have h1 : (i 1).val < 8 := (i 1).isLt
  refine ⟨⟨(i 0).val / 1024, by rw [show cfg3.N = 8 from N_3]; omega⟩, flush3_11 _, ?_⟩
  rw [mem_blk3_11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx3 ⟨(i 0).val / 1024, by rw [show cfg3.N = 8 from N_3]; omega⟩
  intro a
  match a with
  | ⟨0, _⟩ =>
    show win3_11.index _ (0 : Fin 2) * 1024 ≤ (i 0).val ∧ (i 0).val < win3_11.index _ (0 : Fin 2) * 1024 + 1024
    rw [e11_0]; show ((i 0).val / 1024) * 1024 ≤ (i 0).val ∧ (i 0).val < ((i 0).val / 1024) * 1024 + 1024; omega
  | ⟨1, _⟩ =>
    show win3_11.index _ (1 : Fin 2) * 8 ≤ (i 1).val ∧ (i 1).val < win3_11.index _ (1 : Fin 2) * 8 + 8
    rw [e11_1]; omega

end Cert.KernelIdeal.Run

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.SelfLoopLaw.lean ====
/-
  The two ways of adding the self loops to a normalised graph aggregation, on the extended reals.

  With `e` the indicator of the node `i` itself, the reference sums over the augmented adjacency row
  `a + e`, while the kernel sums over the plain row `a` and adds the node's own term afterwards:

    degree :      0 + ∑ⱼ (aⱼ + eⱼ)                    =  ((0 + ∑ⱼ aⱼ)) + 1
    aggregation : dᵢ · ∑ⱼ (aⱼ + eⱼ) · (dⱼ · mⱼ)       =  dᵢ · ∑ⱼ aⱼ · (dⱼ · mⱼ) + (dᵢ · dᵢ) · mᵢ

  The first is associativity and commutativity of the sum and holds for all extended reals. The second distributes
  a product over a sum twice, which the extended reals allow only away from the infinities: it is stated for real
  data.
-/
import proofs.«174617_j2465311228175_2_alg».proof.Proof.LibAggLinear

noncomputable section

namespace Cert.SelfLoop

open Cert.Lib.AggLinear

variable {ι : Type*} [Fintype ι] [DecidableEq ι]

/-- The indicator of `i` sums to one. -/
theorem sum_indicator (i : ι) : (∑ j : ι, (if j = i then (1 : EReal) else 0)) = 1 := by
  rw [Finset.sum_ite_eq' Finset.univ i (fun _ => (1 : EReal))]; simp

/-- The degree with the self loop inside the sum is the degree of the plain row plus one. -/
theorem degree_eq (a : ι → EReal) (i : ι) :
    (0 : EReal) + ∑ j : ι, (a j + (if j = i then (1 : EReal) else 0)) = ((0 : EReal) + ∑ j : ι, a j) + 1 := by
  rw [Finset.sum_add_distrib, sum_indicator, add_assoc]

/-- For real data, the aggregation over the augmented row is the aggregation over the plain row plus the node's own
    term. -/
theorem aggregate_eq (a : ι → EReal) (d m : ι → EReal) (i : ι) (ha : ∀ j, IsReal (a j)) (hd : ∀ j, IsReal (d j))
    (hm : ∀ j, IsReal (m j)) :
    d i * ∑ j : ι, (a j + (if j = i then (1 : EReal) else 0)) * (d j * m j)
      = d i * (∑ j : ι, a j * (d j * m j)) + (d i * d i) * m i := by
  choose a' ha' using ha
  choose d' hd' using hd
  choose m' hm' using hm
  have key : d' i * ∑ j : ι, (a' j + (if j = i then (1 : ℝ) else 0)) * (d' j * m' j)
      = d' i * (∑ j : ι, a' j * (d' j * m' j)) + (d' i * d' i) * m' i := by
    have : ∑ j : ι, (a' j + (if j = i then (1 : ℝ) else 0)) * (d' j * m' j)
        = (∑ j : ι, a' j * (d' j * m' j)) + d' i * m' i := by
      simp only [add_mul, Finset.sum_add_distrib, ite_mul, one_mul, zero_mul, Finset.sum_ite_eq', Finset.mem_univ, if_true]
    rw [this]; ring
  have e := congrArg (fun x : ℝ => (x : EReal)) key
  simp only [EReal.coe_add, EReal.coe_mul, coe_sum] at e
  have hind : ∀ j : ι, (((if j = i then (1 : ℝ) else 0) : ℝ) : EReal) = (if j = i then (1 : EReal) else 0) := fun j => by
    split <;> simp
  simp only [hind] at e
  simpa only [ha', hd', hm'] using e

end Cert.SelfLoop

end
-- ==== Proof.GcnSpec.lean ====
/-
  The network, row by row, on the extended reals.

  Every stage but the graph aggregation acts on each node's row by itself: a linear layer `r ↦ r·Wᵀ + b`, the
  rectification, the join of two rows. They are stated here on one row (a function of the column), so that a
  block of rows and the whole array are the same function of the same row.

  The aggregation couples the rows. The kernel accumulates it over eight blocks of 1024 columns from a zero
  accumulator, and adds the node's own term at the end; the reference sums once over all 8192 columns of the
  adjacency with the identity added. `blocks_sum` turns the running sum into the one sum; `Cert.SelfLoop` joins the
  two treatments of the self loop, for real data.
-/
import Idealize.ShloMosaic.Lib.ValueIdx
import Idealize.ShloMosaic.PureOps.Ideal.Laws
import proofs.«174617_j2465311228175_2_alg».proof.Proof.LibAggLinear
import proofs.«174617_j2465311228175_2_alg».proof.Proof.SelfLoopLaw

noncomputable section

namespace Cert.Gcn

open Idealize.ShloMosaic Idealize.ShloMosaic.ValueIdx Cert.Lib.AggLinear

/-- A rank-2 array of extended reals. -/
abbrev Mat (a b : ℕ) := (⟨2, ![a, b]⟩ : Shape).Idx → EReal

/-- Row `p` of an array. -/
abbrev row {a b : ℕ} (X : Mat a b) (p : Fin a) : Fin b → EReal := fun q => X (ix2 p q)

variable {k o : ℕ}

/-- A linear layer on one row: `r·Wᵀ + b`. -/
def rlin (r : Fin k → EReal) (w : Mat o k) (b : Mat 1 o) : Fin o → EReal :=
  fun c => (∑ q : Fin k, r q * w (ix2 c q)) + b (ix2 (0 : Fin 1) c)
/-- A projection of one row: `r·Wᵀ`. -/
def rproj (r : Fin k → EReal) (w : Mat o k) : Fin o → EReal := fun c => ∑ q : Fin k, r q * w (ix2 c q)
/-- The rectification of one row. -/
def rrelu (r : Fin o → EReal) : Fin o → EReal := fun c => max (r c) 0
/-- Two rows of 128 joined into one of 256. -/
def rcat (u v : Fin 128 → EReal) : Fin 256 → EReal :=
  fun c => if h : c.val < 128 then u ⟨c.val, h⟩ else v ⟨c.val - 128, by have := c.isLt; omega⟩

/-- The encoder on one node's features: two rectified linear layers. -/
def encRow (r : Fin 32 → EReal) (w1 : Mat 64 32) (b1 : Mat 1 64) (w2 : Mat 128 64) (b2 : Mat 1 128) : Fin 128 → EReal :=
  rrelu (rlin (rrelu (rlin r w1 b1)) w2 b2)

/-- The decoder and the policy head on one node: from its aggregated row `g` and its encoded row `h`. -/
def headRow (g h : Fin 128 → EReal) (wd : Mat 128 128) (bd : Mat 1 128) (wp1 : Mat 128 256) (bp1 : Mat 1 128)
    (wp2 : Mat 64 128) (bp2 : Mat 1 64) (wo : Mat 8 64) (bo : Mat 1 8) (mk : EReal) : Fin 8 → EReal :=
  fun c => rlin (rrelu (rlin (rrelu (rlin (rcat (rrelu (rlin g wd bd)) h) wp1 bp1)) wp2 bp2)) wo bo c * mk

/-! ## Real data stays real -/

theorem isReal_rlin {r : Fin k → EReal} {w : Mat o k} {b : Mat 1 o} (hr : ∀ q, IsReal (r q)) (hw : ∀ j, IsReal (w j))
    (hb : ∀ j, IsReal (b j)) (c : Fin o) : IsReal (rlin r w b c) :=
  (IsReal.sum _ _ fun q _ => (hr q).mul (hw _)).add (hb _)
theorem isReal_rproj {r : Fin k → EReal} {w : Mat o k} (hr : ∀ q, IsReal (r q)) (hw : ∀ j, IsReal (w j)) (c : Fin o) :
    IsReal (rproj r w c) := IsReal.sum _ _ fun q _ => (hr q).mul (hw _)
theorem isReal_rrelu {r : Fin o → EReal} (hr : ∀ q, IsReal (r q)) (c : Fin o) : IsReal (rrelu r c) :=
  (hr c).max isReal_zero
theorem isReal_encRow {r : Fin 32 → EReal} {w1 : Mat 64 32} {b1 : Mat 1 64} {w2 : Mat 128 64} {b2 : Mat 1 128}
    (hr : ∀ q, IsReal (r q)) (hw1 : ∀ j, IsReal (w1 j)) (hb1 : ∀ j, IsReal (b1 j)) (hw2 : ∀ j, IsReal (w2 j))
    (hb2 : ∀ j, IsReal (b2 j)) (c : Fin 128) : IsReal (encRow r w1 b1 w2 b2 c) :=
  isReal_rrelu (isReal_rlin (isReal_rrelu (isReal_rlin hr hw1 hb1)) hw2 hb2) c

/-! ## The whole arrays, 8192 nodes -/

/-- The encoded features of every node. -/
def encAll (X : Mat 8192 32) (w1 : Mat 64 32) (b1 : Mat 1 64) (w2 : Mat 128 64) (b2 : Mat 1 128) : Mat 8192 128 :=
  fun j => encRow (row X (j 0)) w1 b1 w2 b2 (j 1)
/-- The messages of every node: its encoded row projected. -/
def msgAll (H : Mat 8192 128) (wg : Mat 128 128) : Mat 8192 128 := fun j => rproj (row H (j 0)) wg (j 1)
/-- The degrees as the kernel takes them: the row sums of the adjacency from a zero accumulator, plus one. -/
def degK (A : Mat 8192 8192) : Mat 8192 1 := fun j => ((0 : EReal) + ∑ jj : Fin 8192, A (ix2 (j 0) jj)) + 1
/-- The aggregation as the kernel takes it: the adjacency against the scaled messages from a zero accumulator, scaled
    by the node's own factor, plus the node's own term, plus the bias, rectified. -/
def aggK (A : Mat 8192 8192) (D : Mat 8192 1) (Mg : Mat 8192 128) (bg : Mat 1 128) : Mat 8192 128 :=
  fun j => max ((D (ix2 (j 0) (0 : Fin 1)) * ((0 : EReal) + ∑ jj : Fin 8192, A (ix2 (j 0) jj) * (D (ix2 jj (0 : Fin 1)) * Mg (ix2 jj (j 1))))
      + (D (ix2 (j 0) (0 : Fin 1)) * D (ix2 (j 0) (0 : Fin 1))) * Mg j) + bg (ix2 (0 : Fin 1) (j 1))) 0
/-- The decoder and the policy head of every node, masked. -/
def headAll (G H : Mat 8192 128) (wd : Mat 128 128) (bd : Mat 1 128) (wp1 : Mat 128 256) (bp1 : Mat 1 128)
    (wp2 : Mat 64 128) (bp2 : Mat 1 64) (wo : Mat 8 64) (bo : Mat 1 8) (mk : Mat 8192 1) : Mat 8192 8 :=
  fun j => headRow (row G (j 0)) (row H (j 0)) wd bd wp1 bp1 wp2 bp2 wo bo (mk (ix2 (j 0) (0 : Fin 1))) (j 1)

/-- A vector as the one row of a `[1, o]` array. -/
def asRow {o : ℕ} (b : (⟨1, ![o]⟩ : Shape).Idx → EReal) : Mat 1 o := fun j => b (ix1 (j 1))
/-- A vector as the one column of an `[n, 1]` array. -/
def asCol {n : ℕ} (d : (⟨1, ![n]⟩ : Shape).Idx → EReal) : Mat n 1 := fun j => d (ix1 (j 0))

/-- The degrees as the reference takes them: the row sums of the adjacency with the identity added, from zero. -/
def degRow (A : Mat 8192 8192) (p : Fin 8192) : EReal :=
  (0 : EReal) + ∑ jj : Fin 8192, (A (ix2 p jj) + (if jj = p then (1 : EReal) else 0))
def degR (A : Mat 8192 8192) : (⟨1, ![8192]⟩ : Shape).Idx → EReal := fun i => degRow A (i 0)
/-- The aggregation as the reference takes it: the adjacency with the identity added against the scaled messages, scaled
    by the node's own factor, plus the bias, rectified. -/
def aggRow (A : Mat 8192 8192) (d : (⟨1, ![8192]⟩ : Shape).Idx → EReal) (Mg : Mat 8192 128) (bg : (⟨1, ![128]⟩ : Shape).Idx → EReal)
    (p : Fin 8192) (c : Fin 128) : EReal :=
  max (d (ix1 p) * (∑ jj : Fin 8192, (A (ix2 p jj) + (if jj = p then (1 : EReal) else 0)) * (d (ix1 jj) * Mg (ix2 jj c))) + bg (ix1 c)) 0
def aggR (A : Mat 8192 8192) (d : (⟨1, ![8192]⟩ : Shape).Idx → EReal) (Mg : Mat 8192 128) (bg : (⟨1, ![128]⟩ : Shape).Idx → EReal) : Mat 8192 128 :=
  fun j => aggRow A d Mg bg (j 0) (j 1)

/-- The kernel's degree is the reference's. -/
theorem degK_eq_degR (A : Mat 8192 8192) (i : Fin 8192) : degK A (ix2 i (0 : Fin 1)) = degR A (ix1 i) := by
  unfold degK degR degRow
  exact (Cert.SelfLoop.degree_eq (fun jj => A (ix2 i jj)) i).symm

/-- The inverse square root of a positive real is a real. -/
theorem isReal_rsqrt {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact isReal_coe _

/-- For a real adjacency, real messages and positive degrees, the kernel's aggregation is the reference's. -/
theorem aggK_eq_aggR (A : Mat 8192 8192) (Mg : Mat 8192 128) (bg : (⟨1, ![128]⟩ : Shape).Idx → EReal)
    (hA : ∀ j, IsReal (A j)) (hM : ∀ j, IsReal (Mg j)) (hpos : ∀ i : Fin 8192, 0 < degR A (ix1 i)) :
    aggK A (fun j => Ideal.rsqrt (degK A j)) Mg (asRow bg) = aggR A (fun i => Ideal.rsqrt (degR A i)) Mg bg := by
  have hdeg : ∀ i : Fin 8192, IsReal (degR A (ix1 i)) := fun i => by
    unfold degR degRow
    exact isReal_zero.add (IsReal.sum _ _ fun jj _ => (hA _).add (by split <;> [exact isReal_one; exact isReal_zero]))
  have hd : ∀ i : Fin 8192, IsReal (Ideal.rsqrt (degR A (ix1 i))) := fun i => isReal_rsqrt (hdeg i) (hpos i)
  funext j
  obtain ⟨p, c, rfl⟩ : ∃ (p : Fin 8192) (c : Fin 128), j = ix2 p c := ⟨j 0, j 1, eq_ix2 j⟩
  unfold aggK aggR aggRow
  refine congrArg (fun x => max (x + bg (ix1 c)) 0) ?_
  show Ideal.rsqrt (degK A (ix2 p (0 : Fin 1))) * ((0 : EReal) + ∑ jj : Fin 8192, A (ix2 p jj) * (Ideal.rsqrt (degK A (ix2 jj (0 : Fin 1))) * Mg (ix2 jj c)))
      + (Ideal.rsqrt (degK A (ix2 p (0 : Fin 1))) * Ideal.rsqrt (degK A (ix2 p (0 : Fin 1)))) * Mg (ix2 p c)
    = Ideal.rsqrt (degR A (ix1 p)) * ∑ jj : Fin 8192, (A (ix2 p jj) + (if jj = p then (1 : EReal) else 0)) * (Ideal.rsqrt (degR A (ix1 jj)) * Mg (ix2 jj c))
  simp only [degK_eq_degR, zero_add]
  exact (Cert.SelfLoop.aggregate_eq (fun jj => A (ix2 p jj)) (fun jj => Ideal.rsqrt (degR A (ix1 jj))) (fun jj => Mg (ix2 jj c)) p
    (fun jj => hA _) hd (fun jj => hM _)).symm

/-- The whole network as the kernel computes it. -/
def netK (X : Mat 8192 32) (A : Mat 8192 8192) (mk : (⟨1, ![8192]⟩ : Shape).Idx → EReal) (w1 : Mat 64 32) (b1 : (⟨1, ![64]⟩ : Shape).Idx → EReal)
    (w2 : Mat 128 64) (b2 : (⟨1, ![128]⟩ : Shape).Idx → EReal) (wg : Mat 128 128) (bg : (⟨1, ![128]⟩ : Shape).Idx → EReal)
    (wd : Mat 128 128) (bd : (⟨1, ![128]⟩ : Shape).Idx → EReal) (wp1 : Mat 128 256) (bp1 : (⟨1, ![128]⟩ : Shape).Idx → EReal)
    (wp2 : Mat 64 128) (bp2 : (⟨1, ![64]⟩ : Shape).Idx → EReal) (wo : Mat 8 64) (bo : (⟨1, ![8]⟩ : Shape).Idx → EReal) : Mat 8192 8 :=
  headAll (aggK A (fun j => Ideal.rsqrt (degK A j)) (msgAll (encAll X w1 (asRow b1) w2 (asRow b2)) wg) (asRow bg))
    (encAll X w1 (asRow b1) w2 (asRow b2)) wd (asRow bd) wp1 (asRow bp1) wp2 (asRow bp2) wo (asRow bo) (asCol mk)

/-- The whole network as the reference computes it. -/
def netR (X : Mat 8192 32) (A : Mat 8192 8192) (mk : (⟨1, ![8192]⟩ : Shape).Idx → EReal) (w1 : Mat 64 32) (b1 : (⟨1, ![64]⟩ : Shape).Idx → EReal)
    (w2 : Mat 128 64) (b2 : (⟨1, ![128]⟩ : Shape).Idx → EReal) (wg : Mat 128 128) (bg : (⟨1, ![128]⟩ : Shape).Idx → EReal)
    (wd : Mat 128 128) (bd : (⟨1, ![128]⟩ : Shape).Idx → EReal) (wp1 : Mat 128 256) (bp1 : (⟨1, ![128]⟩ : Shape).Idx → EReal)
    (wp2 : Mat 64 128) (bp2 : (⟨1, ![64]⟩ : Shape).Idx → EReal) (wo : Mat 8 64) (bo : (⟨1, ![8]⟩ : Shape).Idx → EReal) : Mat 8192 8 :=
  headAll (aggR A (fun i => Ideal.rsqrt (degR A i)) (msgAll (encAll X w1 (asRow b1) w2 (asRow b2)) wg) bg)
    (encAll X w1 (asRow b1) w2 (asRow b2)) wd (asRow bd) wp1 (asRow bp1) wp2 (asRow bp2) wo (asRow bo) (asCol mk)

/-- For real features, adjacency and encoder and message weights, and positive degrees, the two are one function. -/
theorem netK_eq_netR (X : Mat 8192 32) (A : Mat 8192 8192) (mk : (⟨1, ![8192]⟩ : Shape).Idx → EReal) (w1 : Mat 64 32) (b1 : (⟨1, ![64]⟩ : Shape).Idx → EReal)
    (w2 : Mat 128 64) (b2 : (⟨1, ![128]⟩ : Shape).Idx → EReal) (wg : Mat 128 128) (bg : (⟨1, ![128]⟩ : Shape).Idx → EReal)
    (wd : Mat 128 128) (bd : (⟨1, ![128]⟩ : Shape).Idx → EReal) (wp1 : Mat 128 256) (bp1 : (⟨1, ![128]⟩ : Shape).Idx → EReal)
    (wp2 : Mat 64 128) (bp2 : (⟨1, ![64]⟩ : Shape).Idx → EReal) (wo : Mat 8 64) (bo : (⟨1, ![8]⟩ : Shape).Idx → EReal)
    (hX : ∀ j, IsReal (X j)) (hA : ∀ j, IsReal (A j)) (hw1 : ∀ j, IsReal (w1 j)) (hb1 : ∀ j, IsReal (b1 j)) (hw2 : ∀ j, IsReal (w2 j))
    (hb2 : ∀ j, IsReal (b2 j)) (hwg : ∀ j, IsReal (wg j)) (hpos : ∀ i : Fin 8192, 0 < degR A (ix1 i)) :
    netK X A mk w1 b1 w2 b2 wg bg wd bd wp1 bp1 wp2 bp2 wo bo = netR X A mk w1 b1 w2 b2 wg bg wd bd wp1 bp1 wp2 bp2 wo bo := by
  unfold netK netR
  rw [aggK_eq_aggR A (msgAll (encAll X w1 (asRow b1) w2 (asRow b2)) wg) bg hA (fun j => isReal_rproj (fun q => isReal_encRow (fun q' => hX _) hw1 (fun j' => hb1 _) hw2 (fun j' => hb2 _) q) hwg _) hpos]

end Cert.Gcn

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KIPay.lean ====
/-
  The bodies' arithmetic at the exact instance, entry by entry: each stored value as the row-wise stages of the
  blocks the body loaded. A change of float format is the identity there, a matrix product into a zero accumulator is
  the plain sum of products, and a sum along a row is the row's sum.
-/
import proofs.«174617_j2465311228175_2_alg».proof.Proof.Gen.KernelIdeal.Skeleton
import proofs.«174617_j2465311228175_2_alg».proof.Proof.GcnSpec
import proofs.«174617_j2465311228175_2_alg».proof.Proof.LibPlainDot
import proofs.«174617_j2465311228175_2_alg».proof.Proof.LibKeepdimsColumn
import Idealize.ShloMosaic.Lib.ValueLayout
import Idealize.ShloMosaic.Lib.Pipeline.Value

set_option maxRecDepth 16384

noncomputable section

namespace Cert.KernelIdeal.Pay

open Idealize.ShloMosaic Idealize.ShloMosaic.ValueIdx Cert.KernelIdeal Cert.KernelIdeal.Gen Cert.Gcn Cert.Lib.PlainDot Cert.Gcn.Lib

/-- A block times the transpose of a weight table, into a zero accumulator, at an entry: the row's projection. -/
theorem mmT_apply {n k o : ℕ} (d : DotDims ⟨2, ![n, k]⟩ ⟨2, ![k, o]⟩ ⟨2, ![n, o]⟩) (hd : d = DotDims.plain n k o)
    (l : FVec Ideal ⟨2, ![n, k]⟩ .f32) (w : FVec Ideal ⟨2, ![o, k]⟩ .f32) (hb : FTy.bf16.bits < FTy.f32.bits)
    (ht : (⟨2, ![o, k]⟩ : Shape).Transposes [1, 0] ⟨2, ![k, o]⟩) (p : Fin n) (c : Fin o) :
    matmul d none (truncf .bf16 l hb) (transpose ⟨2, ![k, o]⟩ [1, 0] (truncf .bf16 w hb) ht) (constant (F := Ideal) ⟨2, ![n, o]⟩ .f32 0x00000000#32) (ix2 p c)
      = rproj (row l p) w c := by
  refine (congrFun (matmul_zero_eq d hd none (truncf .bf16 l hb) (transpose ⟨2, ![k, o]⟩ [1, 0] (truncf .bf16 w hb) ht)) (ix2 p c)).trans ?_
  show ∑ q : Fin k, truncf .bf16 l hb (ix2 p q) * transpose ⟨2, ![k, o]⟩ [1, 0] (truncf .bf16 w hb) ht (ix2 q c) = ∑ q : Fin k, l (ix2 p q) * w (ix2 c q)
  refine Finset.sum_congr rfl fun q _ => ?_
  rw [transpose_ix2_apply]; rfl

/-- A rectified linear layer of a block, at an entry. -/
theorem layer_apply {n k o : ℕ} (d : DotDims ⟨2, ![n, k]⟩ ⟨2, ![k, o]⟩ ⟨2, ![n, o]⟩) (hd : d = DotDims.plain n k o)
    (l : FVec Ideal ⟨2, ![n, k]⟩ .f32) (w : FVec Ideal ⟨2, ![o, k]⟩ .f32) (b : FVec Ideal ⟨2, ![1, o]⟩ .f32) (hb : FTy.bf16.bits < FTy.f32.bits)
    (ht : (⟨2, ![o, k]⟩ : Shape).Transposes [1, 0] ⟨2, ![k, o]⟩) (hsc : (⟨2, ![1, o]⟩ : Shape).ShapeCasts ⟨2, ![1, o]⟩)
    (hbc : (⟨2, ![1, o]⟩ : Shape).Broadcasts ⟨2, ![n, o]⟩) (p : Fin n) (c : Fin o) :
    maximumf (addf (matmul d none (truncf .bf16 l hb) (transpose ⟨2, ![k, o]⟩ [1, 0] (truncf .bf16 w hb) ht) (constant (F := Ideal) ⟨2, ![n, o]⟩ .f32 0x00000000#32))
        (broadcastTo ⟨2, ![n, o]⟩ (shapeCast ⟨2, ![1, o]⟩ b hsc) hbc)) (broadcast ⟨2, ![n, o]⟩ (Scalar.ofBits (F := Ideal) .f32 0x00000000#32)) (ix2 p c)
      = rrelu (rlin (row l p) w b) c := by
  rw [maximumf_apply, addf_apply, mmT_apply d hd l w hb ht p c, broadcastTo_1b_ab_apply, shapeCast_self, broadcast_apply]
  show max (_ + _) (Ideal.ofBits .f32 0x00000000#32) = _
  rw [Ideal.ofBits_zero_f32]
  rfl

/-- The encoder's stored value: the two rectified layers of each row of the block. -/
theorem pay0_1 (x0 : Vec Ideal S1024x32 .f32) (x1 : Vec Ideal S64x32 .f32) (x2 : Vec Ideal S1x64 .f32) (x3 : Vec Ideal S128x64 .f32)
    (x4 : Vec Ideal S1x128 .f32) (p : Fin 1024) (c : Fin 128) :
    k0_pay1 x0 x1 x2 x3 x4 (ix2 p c) = encRow (row x0 p) x1 x2 x3 x4 c := by
  unfold k0_pay1
  (try dsimp only)
  refine (layer_apply _ rfl _ x3 x4 _ _ _ _ p c).trans ?_
  unfold encRow
  refine congrArg (fun r => rrelu (rlin r x3 x4) c) ?_
  funext q
  exact layer_apply _ rfl x0 x1 x2 _ _ _ _ p q

/-- The message projection's stored value: the encoded row times the transpose of the message table. -/
theorem pay0_2 (x0 : Vec Ideal S1024x32 .f32) (x1 : Vec Ideal S64x32 .f32) (x2 : Vec Ideal S1x64 .f32) (x3 : Vec Ideal S128x64 .f32)
    (x4 : Vec Ideal S1x128 .f32) (x5 : Vec Ideal S128x128 .f32) (p : Fin 1024) (c : Fin 128) :
    k0_pay2 x0 x1 x2 x3 x4 x5 (ix2 p c) = rproj (encRow (row x0 p) x1 x2 x3 x4) x5 c := by
  unfold k0_pay2
  (try dsimp only)
  refine (mmT_apply _ rfl (k0_pay1 x0 x1 x2 x3 x4) x5 _ _ p c).trans ?_
  refine congrArg (fun r => rproj r x5 c) ?_
  funext q
  exact pay0_1 x0 x1 x2 x3 x4 p q

/-- The pattern of 1.0 is the real one. -/
theorem ofBits_one : Ideal.ofBits .f32 0x3F800000#32 = 1 := by
  have h : Ideal.ofBits .f32 0x3F800000#32 = ((1 : ℝ) : EReal) := by
    simp [Ideal.ofBits, Ideal.ieee, -EReal.coe_mul] <;> norm_num
  rw [h]; rfl

/-! ## The degree region -/

/-- The accumulator's reset value: zero. -/
theorem pay1_1 (y : S1024x1.Idx) : k1_pay1 (F := Ideal) y = 0 := by
  unfold k1_pay1
  (try dsimp only)
  rw [shapeCast_self, broadcast_apply]
  exact Ideal.ofBits_zero_f32

/-- The accumulator's step: what it held plus the sum of the block's row. -/
theorem pay1_2 (v3 : Vec Ideal S1024x1 .f32) (v4 : Vec Ideal S1024x1024 .f32) (p : Fin 1024) (u : Fin 1) :
    k1_pay2 v3 v4 (ix2 p u) = v3 (ix2 p u) + ∑ q : Fin 1024, v4 (ix2 p q) := by
  unfold k1_pay2
  (try dsimp only)
  rw [shapeCast_self, addf_apply, shapeCast_a_a1_apply, rowsum_apply]

/-- The output's value: the accumulator plus one. -/
theorem pay1_3 (v14 : Vec Ideal S1024x1 .f32) (y : S1024x1.Idx) : k1_pay3 v14 y = v14 y + 1 := by
  unfold k1_pay3
  (try dsimp only)
  rw [addf_apply, broadcast_apply]
  exact congrArg (v14 y + ·) ofBits_one

/-! ## The aggregation region -/

theorem pay2_1 (y : S1024x128.Idx) : k2_pay1 (F := Ideal) y = 0 := by
  unfold k2_pay1
  (try dsimp only)
  rw [shapeCast_self, broadcast_apply]
  exact Ideal.ofBits_zero_f32

/-- The accumulator's step: what it held plus the adjacency block's row against the scaled messages' column. -/
theorem pay2_2 (v3 : Vec Ideal S1024x1024 .f32) (v5 : Vec Ideal S1024x1 .f32) (v7 : Vec Ideal S1024x128 .f32) (v12 : Vec Ideal S1024x128 .f32)
    (p : Fin 1024) (c : Fin 128) :
    k2_pay2 v3 v5 v7 v12 (ix2 p c) = v12 (ix2 p c) + ∑ q : Fin 1024, v3 (ix2 p q) * (v5 (ix2 q (0 : Fin 1)) * v7 (ix2 q c)) := by
  unfold k2_pay2
  (try dsimp only)
  rw [shapeCast_self, addf_apply]
  refine congrArg (v12 (ix2 p c) + ·) ?_
  refine (congrFun (matmul_zero_eq _ rfl none _ _) (ix2 p c)).trans ?_
  show ∑ q : Fin 1024, _ * _ = _
  refine Finset.sum_congr rfl fun q _ => ?_
  rw [truncf_apply, truncf_apply, mulf_apply, broadcastTo_a1_ab_apply, shapeCast_self, shapeCast_self]

/-- The output's value: the row's scale times the accumulator, plus the node's own term, plus the bias, rectified. -/
theorem pay2_3 (v21 : Vec Ideal S1024x1 .f32) (v24 : Vec Ideal S1024x128 .f32) (v28 : Vec Ideal S1024x128 .f32) (v32 : Vec Ideal S1x128 .f32)
    (p : Fin 1024) (c : Fin 128) :
    k2_pay3 v21 v24 v28 v32 (ix2 p c)
      = max ((v21 (ix2 p (0 : Fin 1)) * v28 (ix2 p c) + (v21 (ix2 p (0 : Fin 1)) * v21 (ix2 p (0 : Fin 1))) * v24 (ix2 p c)) + v32 (ix2 (0 : Fin 1) c)) 0 := by
  unfold k2_pay3
  (try dsimp only)
  rw [maximumf_apply, addf_apply, addf_apply, mulf_apply, mulf_apply, broadcastTo_a1_ab_apply, broadcastTo_a1_ab_apply,
    broadcastTo_1b_ab_apply, shapeCast_self, shapeCast_self, shapeCast_self, mulf_apply, broadcast_apply]
  show max _ (Ideal.ofBits .f32 0x00000000#32) = _
  rw [Ideal.ofBits_zero_f32]

/-! ## The decoder and policy head region -/

/-- Two blocks of 128 columns joined, at an entry: the two rows joined. -/
theorem cat_apply {n : ℕ} (a b : (⟨2, ![n, 128]⟩ : Shape).Idx → EReal)
    (h : Shape.Concatenates [⟨2, ![n, 128]⟩, ⟨2, ![n, 128]⟩] ⟨2, ![n, 256]⟩ (1 : Fin 2)) (p : Fin n) (e : Fin 256) :
    concatenate ⟨2, ![n, 256]⟩ 1 [⟨⟨2, ![n, 128]⟩, a⟩, ⟨⟨2, ![n, 128]⟩, b⟩] h (ix2 p e) = rcat (row a p) (row b p) e := by
  unfold rcat
  split
  · next hlt =>
    exact concatenate_pair_apply_left 1 a b h (ix2 p e) rfl (ix2 p ⟨e.val, hlt⟩) (fun d => match d with | ⟨0, _⟩ => rfl | ⟨1, _⟩ => rfl)
  · next hge =>
    exact concatenate_pair_apply_right 1 a b h (ix2 p e) rfl rfl (ix2 p ⟨e.val - 128, by have := e.isLt; omega⟩)
      (fun d hd => match d, hd with | ⟨0, _⟩, _ => rfl | ⟨1, _⟩, hd => absurd rfl hd)
      (by show (e.val - 128) + 128 = e.val; omega)

/-- A linear layer of a block without the rectification, at an entry. -/
theorem linear_apply {n k o : ℕ} (d : DotDims ⟨2, ![n, k]⟩ ⟨2, ![k, o]⟩ ⟨2, ![n, o]⟩) (hd : d = DotDims.plain n k o)
    (l : FVec Ideal ⟨2, ![n, k]⟩ .f32) (w : FVec Ideal ⟨2, ![o, k]⟩ .f32) (b : FVec Ideal ⟨2, ![1, o]⟩ .f32) (hb : FTy.bf16.bits < FTy.f32.bits)
    (ht : (⟨2, ![o, k]⟩ : Shape).Transposes [1, 0] ⟨2, ![k, o]⟩) (hsc : (⟨2, ![1, o]⟩ : Shape).ShapeCasts ⟨2, ![1, o]⟩)
    (hbc : (⟨2, ![1, o]⟩ : Shape).Broadcasts ⟨2, ![n, o]⟩) (p : Fin n) (c : Fin o) :
    addf (matmul d none (truncf .bf16 l hb) (transpose ⟨2, ![k, o]⟩ [1, 0] (truncf .bf16 w hb) ht) (constant (F := Ideal) ⟨2, ![n, o]⟩ .f32 0x00000000#32))
        (broadcastTo ⟨2, ![n, o]⟩ (shapeCast ⟨2, ![1, o]⟩ b hsc) hbc) (ix2 p c)
      = rlin (row l p) w b c := by
  rw [addf_apply, mmT_apply d hd l w hb ht p c, broadcastTo_1b_ab_apply, shapeCast_self]
  rfl

/-- The head's value before the last rectification: three layers over the decoded row joined with the encoded row. -/
theorem pay3_2 (v0 : Vec Ideal S1024x128 .f32) (v3 : Vec Ideal S128x128 .f32) (v7 : Vec Ideal S1x128 .f32) (v13 : Vec Ideal S1024x128 .f32)
    (v17 : Vec Ideal S128x256 .f32) (v21 : Vec Ideal S1x128 .f32) (v27 : Vec Ideal S64x128 .f32) (v32 : Vec Ideal S1x64 .f32) (p : Fin 1024) (e : Fin 64) :
    k3_pay2 v0 v3 v7 v13 v17 v21 v27 v32 (ix2 p e)
      = rlin (rrelu (rlin (rcat (rrelu (rlin (row v0 p) v3 v7)) (row v13 p)) v17 v21)) v27 v32 e := by
  unfold k3_pay2
  (try dsimp only)
  refine (linear_apply _ rfl _ v27 v32 _ _ _ _ p e).trans ?_
  refine congrArg (fun r => rlin r v27 v32 e) ?_
  funext q
  refine (layer_apply _ rfl _ v17 v21 _ _ _ _ p q).trans ?_
  refine congrArg (fun r => rrelu (rlin r v17 v21) q) ?_
  funext e'
  refine (cat_apply _ _ _ p e').trans ?_
  refine congrArg₂ (fun r r' => rcat r r' e') ?_ ?_
  · funext q'
    refine (layer_apply _ rfl _ v3 v7 _ _ _ _ p q').trans ?_
    rw [shapeCast_self]
  · funext q'
    show shapeCast S1024x128 v13 _ (ix2 p q') = v13 (ix2 p q')
    rw [shapeCast_self]

/-- The head's stored value. -/
theorem pay3_1 (v0 : Vec Ideal S1024x128 .f32) (v3 : Vec Ideal S128x128 .f32) (v7 : Vec Ideal S1x128 .f32) (v13 : Vec Ideal S1024x128 .f32)
    (v17 : Vec Ideal S128x256 .f32) (v21 : Vec Ideal S1x128 .f32) (v27 : Vec Ideal S64x128 .f32) (v32 : Vec Ideal S1x64 .f32)
    (v38 : Vec Ideal S8x64 .f32) (v43 : Vec Ideal S1x8 .f32) (v47 : Vec Ideal S1024x1 .f32) (p : Fin 1024) (c : Fin 8) :
    k3_pay1 (k3_pay2 v0 v3 v7 v13 v17 v21 v27 v32) (k3_pay3 (F := Ideal)) v38 v43 v47 (ix2 p c)
      = headRow (row v0 p) (row v13 p) v3 v7 v17 v21 v27 v32 v38 v43 (v47 (ix2 p (0 : Fin 1))) c := by
  unfold k3_pay1
  (try dsimp only)
  rw [mulf_apply, broadcastTo_a1_ab_apply, shapeCast_self v47]
  unfold headRow
  refine congrArg (· * v47 (ix2 p (0 : Fin 1))) ?_
  refine (linear_apply _ rfl _ v38 v43 _ _ _ _ p c).trans ?_
  refine congrArg (fun r => rlin r v38 v43 c) ?_
  funext q
  show max (k3_pay2 v0 v3 v7 v13 v17 v21 v27 v32 (ix2 p q)) (k3_pay3 (F := Ideal) (ix2 p q)) = _
  rw [pay3_2]
  unfold k3_pay3 rrelu
  (try dsimp only)
  rw [broadcast_apply]
  show max _ (Ideal.ofBits .f32 0x00000000#32) = _
  rw [Ideal.ofBits_zero_f32]

end Cert.KernelIdeal.Pay

end
-- ==== Proof.KIPieces.lean ====
/-
  What each case of the two accumulating bodies leaves in the accumulator and in the output's staging buffer, as the
  body's payloads of the blocks it was handed: the stores found by running the body, read back.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIRegion1
import proofs.«174617_j2465311228175_2_alg».proof.Proof.KIRegion2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout1_A_0_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x1024 .f32) :
    sout1_A_0 c i arg2 harg2 arg3 harg3 arg4 harg4 hc0 hc1 x0 = k1_pay2 (k1_pay1 (F := F)) x0 := by
  unfold sout1_A_0
  rw [View.read_writes_eq_canon _ _ _ (scover1_A_0 c i arg2 harg2 arg3 harg3 arg4 harg4 hc0 hc1 x0)]
  unfold kernelRun1_A
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, View.ld_unit_zero (S := S1024x1024) hz2, View.ld_unit_zero (S := S1024x1) hz2, View.ld_unit_zero (S := S1024x128) hz2, View.ld_unit_zero (S := S1x128) hz2]

theorem sout1_B_0_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x1024 .f32) (xs0 : Vec F S1024x1 .f32) :
    sout1_B_0 c i arg2 harg2 arg3 harg3 arg4 harg4 hc0 hc1 x0 xs0 = k1_pay2 xs0 x0 := by
  unfold sout1_B_0
  rw [View.read_writes_eq_canon _ _ _ (scover1_B_0 c i arg2 harg2 arg3 harg3 arg4 harg4 hc0 hc1 x0 xs0)]
  unfold kernelRun1_B
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, View.ld_unit_zero (S := S1024x1024) hz2, View.ld_unit_zero (S := S1024x1) hz2, View.ld_unit_zero (S := S1024x128) hz2, View.ld_unit_zero (S := S1x128) hz2]

theorem sout1_C_0_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) :
    sout1_C_0 c i arg2 harg2 arg3 harg3 arg4 harg4 hc0 hc1 x0 xs0 = k1_pay2 xs0 x0 := by
  unfold sout1_C_0
  rw [View.read_writes_eq_canon _ _ _ (scover1_C_0 c i arg2 harg2 arg3 harg3 arg4 harg4 hc0 hc1 x0 xs0)]
  unfold kernelRun1_C
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, View.ld_unit_zero (S := S1024x1024) hz2, View.ld_unit_zero (S := S1024x1) hz2, View.ld_unit_zero (S := S1024x128) hz2, View.ld_unit_zero (S := S1x128) hz2]

theorem out1_C_1_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x1024 .f32) (xs0 : Vec F S1024x1 .f32) :
    out1_C_1 c i arg2 harg2 arg3 harg3 arg4 harg4 hc0 hc1 x0 xs0 = k1_pay3 (k1_pay2 xs0 x0) := by
  unfold out1_C_1
  rw [View.read_writes_eq_canon _ _ _ (cover1_C_1 c i arg2 harg2 arg3 harg3 arg4 harg4 hc0 hc1 x0 xs0)]
  unfold kernelRun1_C
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, View.ld_unit_zero (S := S1024x1024) hz2, View.ld_unit_zero (S := S1024x1) hz2, View.ld_unit_zero (S := S1024x128) hz2, View.ld_unit_zero (S := S1x128) hz2]

theorem sout2_A_0_eq (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) :
    sout2_A_0 c i arg2 harg2 arg3 harg3 arg4 harg4 arg5 harg5 arg6 harg6 arg7 harg7 arg8 harg8 arg9 harg9 hc0 hc1 x0 x1 x2 x3 x4 x5 = k2_pay2 x0 x2 x1 (k2_pay1 (F := F)) := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, harg5.read_unread, harg6.read_unread, harg7.read_unread, harg8.read_unread, harg9.read_unread, View.ld_unit_zero (S := S1024x1024) hz2, View.ld_unit_zero (S := S1024x1) hz2, View.ld_unit_zero (S := S1024x128) hz2, View.ld_unit_zero (S := S1x128) hz2]

theorem sout2_B_0_eq (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    sout2_B_0 c i arg2 harg2 arg3 harg3 arg4 harg4 arg5 harg5 arg6 harg6 arg7 harg7 arg8 harg8 arg9 harg9 hc0 hc1 x0 x1 x2 x3 x4 x5 xs0 = k2_pay2 x0 x2 x1 xs0 := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 x4 x5 xs0)]
  unfold kernelRun2_B
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, harg5.read_unread, harg6.read_unread, harg7.read_unread, harg8.read_unread, harg9.read_unread, View.ld_unit_zero (S := S1024x1024) hz2, View.ld_unit_zero (S := S1024x1) hz2, View.ld_unit_zero (S := S1024x128) hz2, View.ld_unit_zero (S := S1x128) hz2]

theorem sout2_C_0_eq (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    sout2_C_0 c i arg2 harg2 arg3 harg3 arg4 harg4 arg5 harg5 arg6 harg6 arg7 harg7 arg8 harg8 arg9 harg9 hc0 hc1 x0 x1 x2 x3 x4 x5 xs0 = k2_pay2 x0 x2 x1 xs0 := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, harg5.read_unread, harg6.read_unread, harg7.read_unread, harg8.read_unread, harg9.read_unread, View.ld_unit_zero (S := S1024x1024) hz2, View.ld_unit_zero (S := S1024x1) hz2, View.ld_unit_zero (S := S1024x128) hz2, View.ld_unit_zero (S := S1x128) hz2]

theorem out2_C_6_eq (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .f32) (x2 : Vec F S1024x1 .f32) (x3 : Vec F S1024x128 .f32) (x4 : Vec F S1024x1 .f32) (x5 : Vec F S1x128 .f32) (xs0 : Vec F S1024x128 .f32) :
    out2_C_6 c i arg2 harg2 arg3 harg3 arg4 harg4 arg5 harg5 arg6 harg6 arg7 harg7 arg8 harg8 arg9 harg9 hc0 hc1 x0 x1 x2 x3 x4 x5 xs0 = k2_pay3 x4 x3 (k2_pay2 x0 x2 x1 xs0) x5 := by
  unfold out2_C_6
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_cons_unit_zero hz2]
  simp only [View.readCov_unit_zero (S := S1024x1) _ hz2, View.readCov_unit_zero (S := S1024x128) _ hz2, View.readAt_eq_ld, harg2.read_unread, harg3.read_unread, harg4.read_unread, harg5.read_unread, harg6.read_unread, harg7.read_unread, harg8.read_unread, harg9.read_unread, View.ld_unit_zero (S := S1024x1024) hz2, View.ld_unit_zero (S := S1024x1) hz2, View.ld_unit_zero (S := S1024x128) hz2, View.ld_unit_zero (S := S1x128) hz2]

end Cert.KernelIdeal.Run

end
-- ==== Proof.KIValue0.lean ====
/-
  What the encoder region leaves in its two output arrays: every node's encoded row, and its message row.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIBlocks
import proofs.«174617_j2465311228175_2_alg».proof.Proof.KIPay
import proofs.«174617_j2465311228175_2_alg».proof.Proof.KIPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Gcn Cert.KernelIdeal.Pay

variable (V : (c : Dev nD) → (b : Ref sig .tc) → Buf (Elt Ideal) ((c : Thread nD τ).loc b))

/-- What point `t` writes back into the encoded features is block `t` of every node's encoded row. -/
theorem flushed0_6 (c : Dev nD) (t : Fin cfg0.N) :
    (dat0 V c).flushed 6 t = ((cfg0.win 6).blk t).view.read (Elt Ideal)
      (encAll (V c main_arg0) (V c main_arg3) (V c main_v0) (V c main_arg5) (V c main_v1)) := by
  show (cfg0.win 6).cut (grid0.coords t) ((dat0 V c).after 6 t) = _
  rw [after0_6]
  unfold out0_6
  rw [View.canon_unit_zero hz2]
  simp only [View.ld_unit_zero (S := S1024x32) hz2, View.ld_unit_zero (S := S64x32) hz2, View.ld_unit_zero (S := S1x64) hz2,
    View.ld_unit_zero (S := S128x64) hz2, View.ld_unit_zero (S := S1x128) hz2]
  funext y
  obtain ⟨p, q, rfl⟩ : ∃ (p : Fin 1024) (q : Fin 128), y = ix2 p q := ⟨y 0, y 1, eq_ix2 y⟩
  rw [View.read_apply, emb0_6 t p q]
  refine (pay0_1 _ _ _ _ _ p q).trans ?_
  have e0 : row (iblk0 V c 0 t) p = row (V c main_arg0) ⟨t.val * 1024 + p.val, by have hN : t.val < 8 := lt_of_lt_of_eq t.isLt (show cfg0.N = 8 from N_0); have := p.isLt; omega⟩ :=
    funext fun q' => iblk0_0_apply V c t p q'
  rw [e0, iblk0_1_whole, iblk0_2_whole, iblk0_3_whole, iblk0_4_whole]
  rfl

theorem final0_6 (c : Dev nD) :
    (dat0 V c).arrAt 6 cfg0.N = encAll (V c main_arg0) (V c main_arg3) (V c main_v0) (V c main_arg5) (V c main_v1) :=
  (dat0 V c).arrAt_eq_of_cover 6 _ (fun t _ => flushed0_6 V c t) cover0_6'

/-- What point `t` writes back into the messages is block `t` of every node's message row. -/
theorem flushed0_7 (c : Dev nD) (t : Fin cfg0.N) :
    (dat0 V c).flushed 7 t = ((cfg0.win 7).blk t).view.read (Elt Ideal)
      (msgAll (encAll (V c main_arg0) (V c main_arg3) (V c main_v0) (V c main_arg5) (V c main_v1)) (V c main_arg7)) := by
  show (cfg0.win 7).cut (grid0.coords t) ((dat0 V c).after 7 t) = _
  rw [after0_7]
  unfold out0_7
  rw [View.canon_unit_zero hz2]
  simp only [View.ld_unit_zero (S := S1024x32) hz2, View.ld_unit_zero (S := S64x32) hz2, View.ld_unit_zero (S := S1x64) hz2,
    View.ld_unit_zero (S := S128x64) hz2, View.ld_unit_zero (S := S1x128) hz2, View.ld_unit_zero (S := S128x128) hz2]
  funext y
  obtain ⟨p, q, rfl⟩ : ∃ (p : Fin 1024) (q : Fin 128), y = ix2 p q := ⟨y 0, y 1, eq_ix2 y⟩
  rw [View.read_apply, emb0_7 t p q]
  refine (pay0_2 _ _ _ _ _ _ p q).trans ?_
  have e0 : row (iblk0 V c 0 t) p = row (V c main_arg0) ⟨t.val * 1024 + p.val, by have hN : t.val < 8 := lt_of_lt_of_eq t.isLt (show cfg0.N = 8 from N_0); have := p.isLt; omega⟩ :=
    funext fun q' => iblk0_0_apply V c t p q'
  rw [e0, iblk0_1_whole, iblk0_2_whole, iblk0_3_whole, iblk0_4_whole, iblk0_5_whole]
  rfl

theorem final0_7 (c : Dev nD) :
    (dat0 V c).arrAt 7 cfg0.N = msgAll (encAll (V c main_arg0) (V c main_arg3) (V c main_v0) (V c main_arg5) (V c main_v1)) (V c main_arg7) :=
  (dat0 V c).arrAt_eq_of_cover 7 _ (fun t _ => flushed0_7 V c t) cover0_7'

end Cert.KernelIdeal.Run

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.KIValue1.lean ====
/-
  What the degree region leaves in its output array: every node's adjacency row summed, plus one.

  Along a row block the accumulator is reset at the first of the eight steps and stepped at each later one, so at step
  `j` it holds zero plus the sums of the row over the column blocks `0 … j`; the eight column blocks are the whole row.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIBlocks
import proofs.«174617_j2465311228175_2_alg».proof.Proof.KIPay
import proofs.«174617_j2465311228175_2_alg».proof.Proof.KIPieces
import proofs.«174617_j2465311228175_2_alg».proof.Proof.LibIdxSums
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option maxHeartbeats 8000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Gcn Cert.KernelIdeal.Pay

variable (V : (c : Dev nD) → (b : Ref sig .tc) → Buf (Elt Ideal) ((c : Thread nD τ).loc b))

/-- The accumulator after the body at position `n`. -/
abbrev scr1 (c : Dev nD) (n : ℕ) (h : n < cfg1.N) : Vec Ideal S1024x1 .f32 := (outsAt1 V c n h).2

theorem scr1_reset (c : Dev nD) (n : ℕ) (h : n < cfg1.N) (hn : n % 8 = 0) :
    scr1 V c n h = k1_pay2 (k1_pay1 (F := Ideal)) (iblk1 V c 0 ⟨n, h⟩) := by
  have h7 : ¬n % 8 = 7 := by omega
  have e := outsAt1_A V c ⟨n, h⟩ hn h7
  show (outsAt1 V c (⟨n, h⟩ : Fin cfg1.N).val (⟨n, h⟩ : Fin cfg1.N).isLt).2 = _
  rw [e]
  exact sout1_A_0_eq c (grid1.coords (⟨n, h⟩ : Fin cfg1.N)) (ms1_0 (⟨n, h⟩ : Fin cfg1.N)) (hs1_0 (⟨n, h⟩ : Fin cfg1.N)) (ms1_1 (⟨n, h⟩ : Fin cfg1.N)) (hs1_1 (⟨n, h⟩ : Fin cfg1.N)) scM1_0 (Memref.isWhole_whole _) ((hcond1_0 (⟨n, h⟩ : Fin cfg1.N)).mpr hn) (fun hh => h7 ((hcond1_1 (⟨n, h⟩ : Fin cfg1.N)).mp hh)) (iblk1 V c 0 (⟨n, h⟩ : Fin cfg1.N))

theorem scr1_step (c : Dev nD) (n : ℕ) (h : n + 1 < cfg1.N) (hn : ¬(n + 1) % 8 = 0) :
    scr1 V c (n + 1) h = k1_pay2 (scr1 V c n (Nat.lt_of_succ_lt h)) (iblk1 V c 0 ⟨n + 1, h⟩) := by
  by_cases h1 : (n + 1) % 8 = 7
  · have e := outsAt1_C V c ⟨n + 1, h⟩ hn h1
    show (outsAt1 V c (⟨n + 1, h⟩ : Fin cfg1.N).val (⟨n + 1, h⟩ : Fin cfg1.N).isLt).2 = _
    rw [e]
    exact sout1_C_0_eq c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) scM1_0 (Memref.isWhole_whole _) (fun hh => hn ((hcond1_0 (⟨n + 1, h⟩ : Fin cfg1.N)).mp hh)) ((hcond1_1 (⟨n + 1, h⟩ : Fin cfg1.N)).mpr h1) (iblk1 V c 0 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2
  · have e := outsAt1_B V c ⟨n + 1, h⟩ hn h1
    show (outsAt1 V c (⟨n + 1, h⟩ : Fin cfg1.N).val (⟨n + 1, h⟩ : Fin cfg1.N).isLt).2 = _
    rw [e]
    exact sout1_B_0_eq c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) scM1_0 (Memref.isWhole_whole _) (fun hh => hn ((hcond1_0 (⟨n + 1, h⟩ : Fin cfg1.N)).mp hh)) (fun hh => h1 ((hcond1_1 (⟨n + 1, h⟩ : Fin cfg1.N)).mp hh)) (iblk1 V c 0 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2

/-- The addend of position `n`: the sum of the row of the adjacency block that position reads. -/
def add1 (c : Dev nD) (n : ℕ) (y : S1024x1.Idx) : EReal :=
  if h : n < cfg1.N then ∑ q : Fin 1024, iblk1 V c 0 ⟨n, h⟩ (ix2 (y 0) q) else 0

/-- The accumulator at any position: zero plus the addends of its row block's positions so far. -/
theorem scr1_eq (c : Dev nD) (n : ℕ) (h : n < cfg1.N) (y : S1024x1.Idx) :
    scr1 V c n h y = (0 : EReal) + ∑ s ∈ Finset.range (n % 8 + 1), add1 V c (8 * (n / 8) + s) y := by
  have hN : cfg1.N = 64 := N_1
  have h' : 8 * (n / 8) + n % 8 < cfg1.N := by omega
  rw [Pipeline.eq_accAt_of_mod (scr1 V c) 8
    (fun n h => k1_pay2 (k1_pay1 (F := Ideal)) (iblk1 V c 0 ⟨n, h⟩))
    (fun n h acc => k1_pay2 acc (iblk1 V c 0 ⟨n, h⟩))
    (fun n h hn => scr1_reset V c n h hn) (fun n h hn => scr1_step V c n h hn) (by omega) n h h']
  refine Pipeline.accAt_add_apply _ _ (fun _ => (0 : EReal)) (add1 V c) (8 * (n / 8)) 7 ?_ ?_ (n % 8) (by omega) h' y
  · intro hb i
    obtain ⟨p, u, rfl⟩ : ∃ (p : Fin 1024) (u : Fin 1), i = ix2 p u := ⟨i 0, i 1, eq_ix2 i⟩
    rw [pay1_2, pay1_1]
    unfold add1
    rw [dif_pos hb]
  · intro m hm acc i _ _
    obtain ⟨p, u, rfl⟩ : ∃ (p : Fin 1024) (u : Fin 1), i = ix2 p u := ⟨i 0, i 1, eq_ix2 i⟩
    rw [pay1_2]
    unfold add1
    rw [dif_pos hm]

/-- The eight addends of a row block are the whole adjacency row. -/
theorem add1_total (c : Dev nD) (A : Mat 8192 8192) (hA : A = V c main_arg1) (I : ℕ) (hI : I < 8) (p : Fin 1024) (u : Fin 1) :
    ∑ s ∈ Finset.range 8, add1 V c (8 * I + s) (ix2 p u)
      = ∑ jj : Fin 8192, A (ix2 ⟨I * 1024 + p.val, by have := p.isLt; omega⟩ jj) := by
  subst hA
  have hN : cfg1.N = 64 := N_1
  rw [Finset.sum_range, Cert.LibIdxSums.sum_fin_blocks 8 1024]
  refine Finset.sum_congr rfl fun s _ => ?_
  unfold add1
  rw [dif_pos (by have := s.isLt; omega : 8 * I + s.val < cfg1.N)]
  refine Finset.sum_congr rfl fun q _ => ?_
  rw [iblk1_0_apply]
  refine congrArg (V c main_arg1) ?_
  funext d; apply Fin.ext
  match d with
  | ⟨0, _⟩ => show (8 * I + s.val) / 8 * 1024 + p.val = I * 1024 + p.val; have := s.isLt; omega
  | ⟨1, _⟩ => show (8 * I + s.val) % 8 * 1024 + q.val = s.val * 1024 + q.val; have := s.isLt; omega

/-- What a point at the last step of a row block writes back is that row block of the degrees. -/
theorem flushed1_1 (c : Dev nD) (t : Fin cfg1.N) (hf : (cfg1.win 1).flush t = true) :
    (dat1 V c).flushed 1 t = ((cfg1.win 1).blk t).view.read (Elt Ideal) (degK (V c main_arg1)) := by
  have hN : cfg1.N = 64 := N_1
  have ht : t.val % 8 = 7 := (flush1_1 t).mp hf
  have htl := t.isLt
  show (cfg1.win 1).cut (grid1.coords t) ((dat1 V c).after 1 t) = _
  have h0 : ¬t.val % 8 = 0 := by omega
  rw [after1_1, outsAt1_C V c t h0 ht]
  rw [show (out1_C_1 c (grid1.coords t) (ms1_0 t) (hs1_0 t) (ms1_1 t) (hs1_1 t) scM1_0 (Memref.isWhole_whole _) (fun hh => h0 ((hcond1_0 t).mp hh)) ((hcond1_1 t).mpr ht) (iblk1 V c 0 t) (outsAt1 V c (t.val - 1) (Nat.lt_of_le_of_lt (Nat.sub_le _ _) t.isLt)).2,
      sout1_C_0 c (grid1.coords t) (ms1_0 t) (hs1_0 t) (ms1_1 t) (hs1_1 t) scM1_0 (Memref.isWhole_whole _) (fun hh => h0 ((hcond1_0 t).mp hh)) ((hcond1_1 t).mpr ht) (iblk1 V c 0 t) (outsAt1 V c (t.val - 1) (Nat.lt_of_le_of_lt (Nat.sub_le _ _) t.isLt)).2).1
    = out1_C_1 c (grid1.coords t) (ms1_0 t) (hs1_0 t) (ms1_1 t) (hs1_1 t) scM1_0 (Memref.isWhole_whole _) (fun hh => h0 ((hcond1_0 t).mp hh)) ((hcond1_1 t).mpr ht) (iblk1 V c 0 t) (outsAt1 V c (t.val - 1) (Nat.lt_of_le_of_lt (Nat.sub_le _ _) t.isLt)).2 from rfl,
    out1_C_1_eq c (grid1.coords t) (ms1_0 t) (hs1_0 t) (ms1_1 t) (hs1_1 t) scM1_0 (Memref.isWhole_whole _) (fun hh => h0 ((hcond1_0 t).mp hh)) ((hcond1_1 t).mpr ht) (iblk1 V c 0 t) (outsAt1 V c (t.val - 1) (Nat.lt_of_le_of_lt (Nat.sub_le _ _) t.isLt)).2]
  funext y
  obtain ⟨p, u, rfl⟩ : ∃ (p : Fin 1024) (u : Fin 1), y = ix2 p u := ⟨y 0, y 1, eq_ix2 y⟩
  rw [View.read_apply, emb1_1 t p u]
  refine (pay1_3 _ (ix2 p u)).trans ?_
  have hscr : k1_pay2 ((outsAt1 V c (t.val - 1) (Nat.lt_of_le_of_lt (Nat.sub_le _ _) t.isLt)).2) (iblk1 V c 0 t) = scr1 V c t.val t.isLt := by
    have e := outsAt1_C V c t h0 ht
    show _ = (outsAt1 V c t.val t.isLt).2
    rw [e]
    exact (sout1_C_0_eq c (grid1.coords t) (ms1_0 t) (hs1_0 t) (ms1_1 t) (hs1_1 t) scM1_0 (Memref.isWhole_whole _) (fun hh => h0 ((hcond1_0 t).mp hh)) ((hcond1_1 t).mpr ht) (iblk1 V c 0 t) (outsAt1 V c (t.val - 1) (Nat.lt_of_le_of_lt (Nat.sub_le _ _) t.isLt)).2).symm
  refine (congrArg (· + 1) ((congrFun hscr (ix2 p u)).trans (scr1_eq V c t.val t.isLt (ix2 p u)))).trans ?_
  rw [show t.val % 8 + 1 = 8 from by omega, add1_total V c (V c main_arg1) rfl (t.val / 8) (by omega) p u]
  rfl

theorem final1_1 (c : Dev nD) : (dat1 V c).arrAt 1 cfg1.N = degK (V c main_arg1) :=
  (dat1 V c).arrAt_eq_of_cover 1 _ (fun t hf => flushed1_1 V c t hf) cover1_1'

end Cert.KernelIdeal.Run

end
-- ==== Proof.KIValue2.lean ====
/-
  What the aggregation region leaves in its output array: for every node, its scale times the adjacency row against the
  scaled messages, plus the node's own term, plus the bias, rectified.

  Along a row block the accumulator is reset at the first of the eight steps and stepped at each later one, so at the
  last step it holds zero plus the eight column blocks' contributions, which together are the whole row's.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIBlocks
import proofs.«174617_j2465311228175_2_alg».proof.Proof.KIPay
import proofs.«174617_j2465311228175_2_alg».proof.Proof.KIPieces
import proofs.«174617_j2465311228175_2_alg».proof.Proof.LibIdxSums
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option maxHeartbeats 8000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Gcn Cert.KernelIdeal.Pay

variable (V : (c : Dev nD) → (b : Ref sig .tc) → Buf (Elt Ideal) ((c : Thread nD τ).loc b))

/-- The accumulator after the body at position `n`. -/
abbrev scr2 (c : Dev nD) (n : ℕ) (h : n < cfg2.N) : Vec Ideal S1024x128 .f32 := (outsAt2 V c n h).2

theorem scr2_reset (c : Dev nD) (n : ℕ) (h : n < cfg2.N) (hn : n % 8 = 0) :
    scr2 V c n h = k2_pay2 (iblk2 V c 0 ⟨n, h⟩) (iblk2 V c 2 ⟨n, h⟩) (iblk2 V c 1 ⟨n, h⟩) (k2_pay1 (F := Ideal)) := by
  have h7 : ¬n % 8 = 7 := by omega
  have e := outsAt2_A V c ⟨n, h⟩ hn h7
  show (outsAt2 V c (⟨n, h⟩ : Fin cfg2.N).val (⟨n, h⟩ : Fin cfg2.N).isLt).2 = _
  rw [e]
  exact sout2_A_0_eq c (grid2.coords (⟨n, h⟩ : Fin cfg2.N)) (ms2_0 (⟨n, h⟩ : Fin cfg2.N)) (hs2_0 (⟨n, h⟩ : Fin cfg2.N)) (ms2_1 (⟨n, h⟩ : Fin cfg2.N)) (hs2_1 (⟨n, h⟩ : Fin cfg2.N)) (ms2_2 (⟨n, h⟩ : Fin cfg2.N)) (hs2_2 (⟨n, h⟩ : Fin cfg2.N)) (ms2_3 (⟨n, h⟩ : Fin cfg2.N)) (hs2_3 (⟨n, h⟩ : Fin cfg2.N)) (ms2_4 (⟨n, h⟩ : Fin cfg2.N)) (hs2_4 (⟨n, h⟩ : Fin cfg2.N)) (ms2_5 (⟨n, h⟩ : Fin cfg2.N)) (hs2_5 (⟨n, h⟩ : Fin cfg2.N)) (ms2_6 (⟨n, h⟩ : Fin cfg2.N)) (hs2_6 (⟨n, h⟩ : Fin cfg2.N)) scM2_0 (Memref.isWhole_whole _) ((hcond2_0 (⟨n, h⟩ : Fin cfg2.N)).mpr hn) (fun hh => h7 ((hcond2_1 (⟨n, h⟩ : Fin cfg2.N)).mp hh)) (iblk2 V c 0 (⟨n, h⟩ : Fin cfg2.N)) (iblk2 V c 1 (⟨n, h⟩ : Fin cfg2.N)) (iblk2 V c 2 (⟨n, h⟩ : Fin cfg2.N)) (iblk2 V c 3 (⟨n, h⟩ : Fin cfg2.N)) (iblk2 V c 4 (⟨n, h⟩ : Fin cfg2.N)) (iblk2 V c 5 (⟨n, h⟩ : Fin cfg2.N))

theorem scr2_step (c : Dev nD) (n : ℕ) (h : n + 1 < cfg2.N) (hn : ¬(n + 1) % 8 = 0) :
    scr2 V c (n + 1) h = k2_pay2 (iblk2 V c 0 ⟨n + 1, h⟩) (iblk2 V c 2 ⟨n + 1, h⟩) (iblk2 V c 1 ⟨n + 1, h⟩) (scr2 V c n (Nat.lt_of_succ_lt h)) := by
  by_cases h1 : (n + 1) % 8 = 7
  · have e := outsAt2_C V c ⟨n + 1, h⟩ hn h1
    show (outsAt2 V c (⟨n + 1, h⟩ : Fin cfg2.N).val (⟨n + 1, h⟩ : Fin cfg2.N).isLt).2 = _
    rw [e]
    exact sout2_C_0_eq c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) scM2_0 (Memref.isWhole_whole _) (fun hh => hn ((hcond2_0 (⟨n + 1, h⟩ : Fin cfg2.N)).mp hh)) ((hcond2_1 (⟨n + 1, h⟩ : Fin cfg2.N)).mpr h1) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (iblk2 V c 5 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2
  · have e := outsAt2_B V c ⟨n + 1, h⟩ hn h1
    show (outsAt2 V c (⟨n + 1, h⟩ : Fin cfg2.N).val (⟨n + 1, h⟩ : Fin cfg2.N).isLt).2 = _
    rw [e]
    exact sout2_B_0_eq c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) scM2_0 (Memref.isWhole_whole _) (fun hh => hn ((hcond2_0 (⟨n + 1, h⟩ : Fin cfg2.N)).mp hh)) (fun hh => h1 ((hcond2_1 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (iblk2 V c 5 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2

/-- The addend of position `n`: the row of the adjacency block it reads against the scaled messages of that column block. -/
def add2 (c : Dev nD) (n : ℕ) (y : S1024x128.Idx) : EReal :=
  if h : n < cfg2.N then
    let a : Vec Ideal S1024x1024 .f32 := iblk2 V c 0 ⟨n, h⟩
    let d : Vec Ideal S1024x1 .f32 := iblk2 V c 2 ⟨n, h⟩
    let mg : Vec Ideal S1024x128 .f32 := iblk2 V c 1 ⟨n, h⟩
    ∑ q : Fin 1024, a (ix2 (y 0) q) * (d (ix2 q (0 : Fin 1)) * mg (ix2 q (y 1)))
  else 0

theorem scr2_eq (c : Dev nD) (n : ℕ) (h : n < cfg2.N) (y : S1024x128.Idx) :
    scr2 V c n h y = (0 : EReal) + ∑ s ∈ Finset.range (n % 8 + 1), add2 V c (8 * (n / 8) + s) y := by
  have hN : cfg2.N = 64 := N_2
  have h' : 8 * (n / 8) + n % 8 < cfg2.N := by omega
  rw [Pipeline.eq_accAt_of_mod (scr2 V c) 8
    (fun n h => k2_pay2 (iblk2 V c 0 ⟨n, h⟩) (iblk2 V c 2 ⟨n, h⟩) (iblk2 V c 1 ⟨n, h⟩) (k2_pay1 (F := Ideal)))
    (fun n h acc => k2_pay2 (iblk2 V c 0 ⟨n, h⟩) (iblk2 V c 2 ⟨n, h⟩) (iblk2 V c 1 ⟨n, h⟩) acc)
    (fun n h hn => scr2_reset V c n h hn) (fun n h hn => scr2_step V c n h hn) (by omega) n h h']
  refine Pipeline.accAt_add_apply _ _ (fun _ => (0 : EReal)) (add2 V c) (8 * (n / 8)) 7 ?_ ?_ (n % 8) (by omega) h' y
  · intro hb i
    obtain ⟨p, cc, rfl⟩ : ∃ (p : Fin 1024) (cc : Fin 128), i = ix2 p cc := ⟨i 0, i 1, eq_ix2 i⟩
    rw [pay2_2, pay2_1]
    unfold add2
    rw [dif_pos hb]
  · intro m hm acc i _ _
    obtain ⟨p, cc, rfl⟩ : ∃ (p : Fin 1024) (cc : Fin 128), i = ix2 p cc := ⟨i 0, i 1, eq_ix2 i⟩
    rw [pay2_2]
    unfold add2
    rw [dif_pos hm]

/-- The eight addends of a row block are the whole adjacency row against the scaled messages. -/
theorem add2_total (c : Dev nD) (A : Mat 8192 8192) (hA : A = V c main_arg1) (D : Mat 8192 1) (hD : D = V c main_v10)
    (Mg : Mat 8192 128) (hM : Mg = V c main_v8_1) (I : ℕ) (hI : I < 8) (p : Fin 1024) (cc : Fin 128) :
    ∑ s ∈ Finset.range 8, add2 V c (8 * I + s) (ix2 p cc)
      = ∑ jj : Fin 8192, A (ix2 ⟨I * 1024 + p.val, by have := p.isLt; omega⟩ jj) * (D (ix2 jj (0 : Fin 1)) * Mg (ix2 jj cc)) := by
  subst hA hD hM
  have hN : cfg2.N = 64 := N_2
  rw [Finset.sum_range, Cert.LibIdxSums.sum_fin_blocks 8 1024]
  refine Finset.sum_congr rfl fun s _ => ?_
  unfold add2
  rw [dif_pos (by have := s.isLt; omega : 8 * I + s.val < cfg2.N)]
  dsimp only
  refine Finset.sum_congr rfl fun q _ => ?_
  rw [iblk2_0_apply, iblk2_2_apply, iblk2_1_apply]
  have hs := s.isLt
  refine congrArg₂ (· * ·) (congrArg (V c main_arg1) ?_) (congrArg₂ (· * ·) (congrArg (V c main_v10) ?_) (congrArg (V c main_v8_1) ?_))
  · funext d; apply Fin.ext
    match d with
    | ⟨0, _⟩ => show (8 * I + s.val) / 8 * 1024 + p.val = I * 1024 + p.val; omega
    | ⟨1, _⟩ => show (8 * I + s.val) % 8 * 1024 + q.val = s.val * 1024 + q.val; omega
  · funext d; apply Fin.ext
    match d with
    | ⟨0, _⟩ => show (8 * I + s.val) % 8 * 1024 + q.val = s.val * 1024 + q.val; omega
    | ⟨1, _⟩ => rfl
  · funext d; apply Fin.ext
    match d with
    | ⟨0, _⟩ => show (8 * I + s.val) % 8 * 1024 + q.val = s.val * 1024 + q.val; omega
    | ⟨1, _⟩ => rfl

/-- What a point at the last step of a row block writes back is that row block of the aggregation. -/
theorem flushed2_6 (c : Dev nD) (t : Fin cfg2.N) (hf : (cfg2.win 6).flush t = true) :
    (dat2 V c).flushed 6 t = ((cfg2.win 6).blk t).view.read (Elt Ideal)
      (aggK (V c main_arg1) (V c main_v10) (V c main_v8_1) (V c main_v2)) := by
  have hN : cfg2.N = 64 := N_2
  have ht : t.val % 8 = 7 := (flush2_6 t).mp hf
  have htl := t.isLt
  show (cfg2.win 6).cut (grid2.coords t) ((dat2 V c).after 6 t) = _
  have h0 : ¬t.val % 8 = 0 := by omega
  rw [after2_6, outsAt2_C V c t h0 ht]
  rw [show (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr ht) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr ht) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).1
    = out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr ht) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2 from rfl,
    out2_C_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr ht) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2]
  funext y
  obtain ⟨p, cc, rfl⟩ : ∃ (p : Fin 1024) (cc : Fin 128), y = ix2 p cc := ⟨y 0, y 1, eq_ix2 y⟩
  rw [View.read_apply, emb2_6 t p cc]
  refine (pay2_3 _ _ _ _ p cc).trans ?_
  have hscr : k2_pay2 (iblk2 V c 0 t) (iblk2 V c 2 t) (iblk2 V c 1 t) ((outsAt2 V c (t.val - 1) (Nat.lt_of_le_of_lt (Nat.sub_le _ _) t.isLt)).2) = scr2 V c t.val t.isLt := by
    have e := outsAt2_C V c t h0 ht
    show _ = (outsAt2 V c t.val t.isLt).2
    rw [e]
    exact (sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr ht) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).symm
  have hacc := (congrFun hscr (ix2 p cc)).trans (scr2_eq V c t.val t.isLt (ix2 p cc))
  rw [show t.val % 8 + 1 = 8 from by omega, add2_total V c (V c main_arg1) rfl (V c main_v10) rfl (V c main_v8_1) rfl (t.val / 8) (by omega) p cc] at hacc
  rw [hacc, iblk2_4_apply, iblk2_3_apply, iblk2_5_whole]
  rfl

theorem final2_6 (c : Dev nD) :
    (dat2 V c).arrAt 6 cfg2.N = aggK (V c main_arg1) (V c main_v10) (V c main_v8_1) (V c main_v2) :=
  (dat2 V c).arrAt_eq_of_cover 6 _ (fun t hf => flushed2_6 V c t hf) cover2_6'

end Cert.KernelIdeal.Run

end
-- ==== Proof.KIValue3.lean ====
/-
  What the decoder and policy head region leaves in its output array: every node's head row, masked.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIBlocks
import proofs.«174617_j2465311228175_2_alg».proof.Proof.KIPay
import proofs.«174617_j2465311228175_2_alg».proof.Proof.KIPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Gcn Cert.KernelIdeal.Pay

variable (V : (c : Dev nD) → (b : Ref sig .tc) → Buf (Elt Ideal) ((c : Thread nD τ).loc b))

theorem flushed3_11 (c : Dev nD) (t : Fin cfg3.N) :
    (dat3 V c).flushed 11 t = ((cfg3.win 11).blk t).view.read (Elt Ideal)
      (headAll (V c main_v11) (V c main_v8_0) (V c main_arg9) (V c main_v3) (V c main_arg11) (V c main_v4) (V c main_arg13) (V c main_v5)
        (V c main_arg15) (V c main_v6) (V c main_v7)) := by
  show (cfg3.win 11).cut (grid3.coords t) ((dat3 V c).after 11 t) = _
  rw [after3_11]
  unfold out3_11
  rw [View.canon_unit_zero hz2]
  simp only [View.ld_unit_zero (S := S1024x128) hz2, View.ld_unit_zero (S := S128x128) hz2, View.ld_unit_zero (S := S1x128) hz2,
    View.ld_unit_zero (S := S128x256) hz2, View.ld_unit_zero (S := S64x128) hz2, View.ld_unit_zero (S := S1x64) hz2,
    View.ld_unit_zero (S := S8x64) hz2, View.ld_unit_zero (S := S1x8) hz2, View.ld_unit_zero (S := S1024x1) hz2]
  funext y
  obtain ⟨p, q, rfl⟩ : ∃ (p : Fin 1024) (q : Fin 8), y = ix2 p q := ⟨y 0, y 1, eq_ix2 y⟩
  rw [View.read_apply, emb3_11 t p q]
  refine (pay3_1 _ _ _ _ _ _ _ _ _ _ _ p q).trans ?_
  have hb : t.val * 1024 + p.val < 8192 := by have hN : t.val < 8 := lt_of_lt_of_eq t.isLt (show cfg3.N = 8 from N_3); have := p.isLt; omega
  have e0 : row (iblk3 V c 0 t) p = row (V c main_v11) ⟨t.val * 1024 + p.val, hb⟩ := funext fun q' => iblk3_0_apply V c t p q'
  have e1 : row (iblk3 V c 1 t) p = row (V c main_v8_0) ⟨t.val * 1024 + p.val, hb⟩ := funext fun q' => iblk3_1_apply V c t p q'
  rw [e0, e1, iblk3_2_whole, iblk3_3_whole, iblk3_4_whole, iblk3_5_whole, iblk3_6_whole, iblk3_7_whole, iblk3_8_whole, iblk3_9_whole,
    iblk3_10_apply]
  rfl

theorem final3_11 (c : Dev nD) :
    (dat3 V c).arrAt 11 cfg3.N = headAll (V c main_v11) (V c main_v8_0) (V c main_arg9) (V c main_v3) (V c main_arg11) (V c main_v4)
      (V c main_arg13) (V c main_v5) (V c main_arg15) (V c main_v6) (V c main_v7) :=
  (dat3 V c).arrAt_eq_of_cover 11 _ (fun t _ => flushed3_11 V c t) cover3_11'

end Cert.KernelIdeal.Run

end
-- ==== Proof.KIFinal.lean ====
/-
  The kernel's result: the four regions' output arrays composed through the program, as the network of the arguments.
-/
import proofs.«174617_j2465311228175_2_alg».proof.Proof.Gen.KernelIdeal.Launch
import proofs.«174617_j2465311228175_2_alg».proof.Proof.Gen.KernelIdeal.Skeleton
import proofs.«174617_j2465311228175_2_alg».proof.Proof.Gen.KernelIdeal.Points
import proofs.«174617_j2465311228175_2_alg».proof.Proof.KIRun
import proofs.«174617_j2465311228175_2_alg».proof.Proof.KIValue0
import proofs.«174617_j2465311228175_2_alg».proof.Proof.KIValue1
import proofs.«174617_j2465311228175_2_alg».proof.Proof.KIValue2
import proofs.«174617_j2465311228175_2_alg».proof.Proof.KIValue3
import proofs.«174617_j2465311228175_2_alg».proof.Proof.LibKeepdimsColumn
import Idealize.ShloMosaic.Lib.StableHlo.Run
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Gcn Idealize.ShloMosaic.StableHlo Cert.Gcn.Lib

variable (m : (ℓ : Loc nD τ sig) → Buf (Elt Ideal) ℓ) (ρ : Dev nD → PrngReg)

/-! ## A vector recast as a row or as a column -/

theorem shapeCast_row {o : ℕ} (b : (⟨1, ![o]⟩ : Shape).Idx → EReal) (h : (⟨1, ![o]⟩ : Shape).ShapeCasts ⟨2, ![1, o]⟩) :
    shapeCast ⟨2, ![1, o]⟩ b h = asRow b := by
  funext j
  obtain ⟨u, q, rfl⟩ : ∃ (u : Fin 1) (q : Fin o), j = ix2 u q := ⟨j 0, j 1, eq_ix2 j⟩
  exact shapeCast_a_1a_apply b h u q

theorem shapeCast_col {n : ℕ} (d : (⟨1, ![n]⟩ : Shape).Idx → EReal) (h : (⟨1, ![n]⟩ : Shape).ShapeCasts ⟨2, ![n, 1]⟩) :
    shapeCast ⟨2, ![n, 1]⟩ d h = asCol d := by
  funext j
  obtain ⟨p, u, rfl⟩ : ∃ (p : Fin n) (u : Fin 1), j = ix2 p u := ⟨j 0, j 1, eq_ix2 j⟩
  exact shapeCast_a_a1_apply d h p u

/-! ## What the host operations write -/

theorem W1_main_v0 (c : Dev nD) : (Wv1 m ρ c (Proc.devRef .tc main_v0) : Mat 1 64) = asRow (m ((c : Thread nD τ).loc main_arg4)) := by
  refine Eq.trans (?_ : _ = shapeCast S1x64 (m ((c : Thread nD τ).loc main_arg4)) shapeCasts_S64_S1x64) (shapeCast_row _ _)
  show StableHlo.after hostOps0 (Wv0 m ρ c) (Proc.devRef .tc main_v0) = _
  after_results
  rfl

theorem W1_main_v1 (c : Dev nD) : (Wv1 m ρ c (Proc.devRef .tc main_v1) : Mat 1 128) = asRow (m ((c : Thread nD τ).loc main_arg6)) := by
  refine Eq.trans (?_ : _ = shapeCast S1x128 (m ((c : Thread nD τ).loc main_arg6)) shapeCasts_S128_S1x128) (shapeCast_row _ _)
  show StableHlo.after hostOps0 (Wv0 m ρ c) (Proc.devRef .tc main_v1) = _
  after_results
  rfl

theorem W1_main_v2 (c : Dev nD) : (Wv1 m ρ c (Proc.devRef .tc main_v2) : Mat 1 128) = asRow (m ((c : Thread nD τ).loc main_arg8)) := by
  refine Eq.trans (?_ : _ = shapeCast S1x128 (m ((c : Thread nD τ).loc main_arg8)) shapeCasts_S128_S1x128) (shapeCast_row _ _)
  show StableHlo.after hostOps0 (Wv0 m ρ c) (Proc.devRef .tc main_v2) = _
  after_results
  rfl

theorem W1_main_v3 (c : Dev nD) : (Wv1 m ρ c (Proc.devRef .tc main_v3) : Mat 1 128) = asRow (m ((c : Thread nD τ).loc main_arg10)) := by
  refine Eq.trans (?_ : _ = shapeCast S1x128 (m ((c : Thread nD τ).loc main_arg10)) shapeCasts_S128_S1x128) (shapeCast_row _ _)
  show StableHlo.after hostOps0 (Wv0 m ρ c) (Proc.devRef .tc main_v3) = _
  after_results
  rfl

theorem W1_main_v4 (c : Dev nD) : (Wv1 m ρ c (Proc.devRef .tc main_v4) : Mat 1 128) = asRow (m ((c : Thread nD τ).loc main_arg12)) := by
  refine Eq.trans (?_ : _ = shapeCast S1x128 (m ((c : Thread nD τ).loc main_arg12)) shapeCasts_S128_S1x128) (shapeCast_row _ _)
  show StableHlo.after hostOps0 (Wv0 m ρ c) (Proc.devRef .tc main_v4) = _
  after_results
  rfl

theorem W1_main_v5 (c : Dev nD) : (Wv1 m ρ c (Proc.devRef .tc main_v5) : Mat 1 64) = asRow (m ((c : Thread nD τ).loc main_arg14)) := by
  refine Eq.trans (?_ : _ = shapeCast S1x64 (m ((c : Thread nD τ).loc main_arg14)) shapeCasts_S64_S1x64) (shapeCast_row _ _)
  show StableHlo.after hostOps0 (Wv0 m ρ c) (Proc.devRef .tc main_v5) = _
  after_results
  rfl

theorem W1_main_v6 (c : Dev nD) : (Wv1 m ρ c (Proc.devRef .tc main_v6) : Mat 1 8) = asRow (m ((c : Thread nD τ).loc main_arg16)) := by
  refine Eq.trans (?_ : _ = shapeCast S1x8 (m ((c : Thread nD τ).loc main_arg16)) shapeCasts_S8_S1x8) (shapeCast_row _ _)
  show StableHlo.after hostOps0 (Wv0 m ρ c) (Proc.devRef .tc main_v6) = _
  after_results
  rfl

theorem W1_main_v7 (c : Dev nD) : (Wv1 m ρ c (Proc.devRef .tc main_v7) : Mat 8192 1) = asCol (m ((c : Thread nD τ).loc main_arg2)) := by
  refine Eq.trans (?_ : _ = shapeCast S8192x1 (m ((c : Thread nD τ).loc main_arg2)) shapeCasts_S8192_S8192x1) (shapeCast_col _ _)
  show StableHlo.after hostOps0 (Wv0 m ρ c) (Proc.devRef .tc main_v7) = _
  after_results
  rfl

theorem W4_v10 (c : Dev nD) : (Wv4 m ρ c (Proc.devRef .tc main_v10) : Mat 8192 1) = fun j => Ideal.rsqrt ((Wv3 m ρ c (Proc.devRef .tc main_v9) : Mat 8192 1) j) := by
  show StableHlo.after hostOps2 (Wv3 m ρ c) (Proc.devRef .tc main_v10) = _
  after_results
  rfl

/-! ## Buffers a stretch of the program leaves alone -/

theorem K5_v8_0 (c : Dev nD) : Wv5 m ρ c (Proc.devRef .tc main_v8_0) = Wv2 m ρ c (Proc.devRef .tc main_v8_0) :=
  calc Wv5 m ρ c (Proc.devRef .tc main_v8_0)
    _ = Wv4 m ρ c (Proc.devRef .tc main_v8_0) := Function.update_of_ne (StableHlo.devRef_ne_of_ne (by decide : main_v8_0 ≠ main_v11)) _ _
    _ = Wv3 m ρ c (Proc.devRef .tc main_v8_0) := StableHlo.after_of_writes_sub hostOps2 _ hostOps2_writes (by decide : main_v8_0 ∉ hostOps2_W)
    _ = Wv2 m ρ c (Proc.devRef .tc main_v8_0) := Wv3_of_ne m ρ c main_v8_0 (by decide)

theorem K5_arg9 (c : Dev nD) : Wv5 m ρ c (Proc.devRef .tc main_arg9) = Wv0 m ρ c (Proc.devRef .tc main_arg9) :=
  calc Wv5 m ρ c (Proc.devRef .tc main_arg9)
    _ = Wv4 m ρ c (Proc.devRef .tc main_arg9) := Function.update_of_ne (StableHlo.devRef_ne_of_ne (by decide : main_arg9 ≠ main_v11)) _ _
    _ = Wv3 m ρ c (Proc.devRef .tc main_arg9) := StableHlo.after_of_writes_sub hostOps2 _ hostOps2_writes (by decide : main_arg9 ∉ hostOps2_W)
    _ = Wv2 m ρ c (Proc.devRef .tc main_arg9) := Wv3_of_ne m ρ c main_arg9 (by decide)
    _ = Wv1 m ρ c (Proc.devRef .tc main_arg9) := Wv2_of_ne m ρ c main_arg9 (by decide)
    _ = Wv0 m ρ c (Proc.devRef .tc main_arg9) := StableHlo.after_of_writes_sub hostOps0 _ hostOps0_writes (by decide : main_arg9 ∉ hostOps0_W)

theorem K5_arg11 (c : Dev nD) : Wv5 m ρ c (Proc.devRef .tc main_arg11) = Wv0 m ρ c (Proc.devRef .tc main_arg11) :=
  calc Wv5 m ρ c (Proc.devRef .tc main_arg11)
    _ = Wv4 m ρ c (Proc.devRef .tc main_arg11) := Function.update_of_ne (StableHlo.devRef_ne_of_ne (by decide : main_arg11 ≠ main_v11)) _ _
    _ = Wv3 m ρ c (Proc.devRef .tc main_arg11) := StableHlo.after_of_writes_sub hostOps2 _ hostOps2_writes (by decide : main_arg11 ∉ hostOps2_W)
    _ = Wv2 m ρ c (Proc.devRef .tc main_arg11) := Wv3_of_ne m ρ c main_arg11 (by decide)
    _ = Wv1 m ρ c (Proc.devRef .tc main_arg11) := Wv2_of_ne m ρ c main_arg11 (by decide)
    _ = Wv0 m ρ c (Proc.devRef .tc main_arg11) := StableHlo.after_of_writes_sub hostOps0 _ hostOps0_writes (by decide : main_arg11 ∉ hostOps0_W)

theorem K5_arg13 (c : Dev nD) : Wv5 m ρ c (Proc.devRef .tc main_arg13) = Wv0 m ρ c (Proc.devRef .tc main_arg13) :=
  calc Wv5 m ρ c (Proc.devRef .tc main_arg13)
    _ = Wv4 m ρ c (Proc.devRef .tc main_arg13) := Function.update_of_ne (StableHlo.devRef_ne_of_ne (by decide : main_arg13 ≠ main_v11)) _ _
    _ = Wv3 m ρ c (Proc.devRef .tc main_arg13) := StableHlo.after_of_writes_sub hostOps2 _ hostOps2_writes (by decide : main_arg13 ∉ hostOps2_W)
    _ = Wv2 m ρ c (Proc.devRef .tc main_arg13) := Wv3_of_ne m ρ c main_arg13 (by decide)
    _ = Wv1 m ρ c (Proc.devRef .tc main_arg13) := Wv2_of_ne m ρ c main_arg13 (by decide)
    _ = Wv0 m ρ c (Proc.devRef .tc main_arg13) := StableHlo.after_of_writes_sub hostOps0 _ hostOps0_writes (by decide : main_arg13 ∉ hostOps0_W)

theorem K5_arg15 (c : Dev nD) : Wv5 m ρ c (Proc.devRef .tc main_arg15) = Wv0 m ρ c (Proc.devRef .tc main_arg15) :=
  calc Wv5 m ρ c (Proc.devRef .tc main_arg15)
    _ = Wv4 m ρ c (Proc.devRef .tc main_arg15) := Function.update_of_ne (StableHlo.devRef_ne_of_ne (by decide : main_arg15 ≠ main_v11)) _ _
    _ = Wv3 m ρ c (Proc.devRef .tc main_arg15) := StableHlo.after_of_writes_sub hostOps2 _ hostOps2_writes (by decide : main_arg15 ∉ hostOps2_W)
    _ = Wv2 m ρ c (Proc.devRef .tc main_arg15) := Wv3_of_ne m ρ c main_arg15 (by decide)
    _ = Wv1 m ρ c (Proc.devRef .tc main_arg15) := Wv2_of_ne m ρ c main_arg15 (by decide)
    _ = Wv0 m ρ c (Proc.devRef .tc main_arg15) := StableHlo.after_of_writes_sub hostOps0 _ hostOps0_writes (by decide : main_arg15 ∉ hostOps0_W)

theorem K5_v3 (c : Dev nD) : Wv5 m ρ c (Proc.devRef .tc main_v3) = Wv1 m ρ c (Proc.devRef .tc main_v3) :=
  calc Wv5 m ρ c (Proc.devRef .tc main_v3)
    _ = Wv4 m ρ c (Proc.devRef .tc main_v3) := Function.update_of_ne (StableHlo.devRef_ne_of_ne (by decide : main_v3 ≠ main_v11)) _ _
    _ = Wv3 m ρ c (Proc.devRef .tc main_v3) := StableHlo.after_of_writes_sub hostOps2 _ hostOps2_writes (by decide : main_v3 ∉ hostOps2_W)
    _ = Wv2 m ρ c (Proc.devRef .tc main_v3) := Wv3_of_ne m ρ c main_v3 (by decide)
    _ = Wv1 m ρ c (Proc.devRef .tc main_v3) := Wv2_of_ne m ρ c main_v3 (by decide)

theorem K5_v4 (c : Dev nD) : Wv5 m ρ c (Proc.devRef .tc main_v4) = Wv1 m ρ c (Proc.devRef .tc main_v4) :=
  calc Wv5 m ρ c (Proc.devRef .tc main_v4)
    _ = Wv4 m ρ c (Proc.devRef .tc main_v4) := Function.update_of_ne (StableHlo.devRef_ne_of_ne (by decide : main_v4 ≠ main_v11)) _ _
    _ = Wv3 m ρ c (Proc.devRef .tc main_v4) := StableHlo.after_of_writes_sub hostOps2 _ hostOps2_writes (by decide : main_v4 ∉ hostOps2_W)
    _ = Wv2 m ρ c (Proc.devRef .tc main_v4) := Wv3_of_ne m ρ c main_v4 (by decide)
    _ = Wv1 m ρ c (Proc.devRef .tc main_v4) := Wv2_of_ne m ρ c main_v4 (by decide)

theorem K5_v5 (c : Dev nD) : Wv5 m ρ c (Proc.devRef .tc main_v5) = Wv1 m ρ c (Proc.devRef .tc main_v5) :=
  calc Wv5 m ρ c (Proc.devRef .tc main_v5)
    _ = Wv4 m ρ c (Proc.devRef .tc main_v5) := Function.update_of_ne (StableHlo.devRef_ne_of_ne (by decide : main_v5 ≠ main_v11)) _ _
    _ = Wv3 m ρ c (Proc.devRef .tc main_v5) := StableHlo.after_of_writes_sub hostOps2 _ hostOps2_writes (by decide : main_v5 ∉ hostOps2_W)
    _ = Wv2 m ρ c (Proc.devRef .tc main_v5) := Wv3_of_ne m ρ c main_v5 (by decide)
    _ = Wv1 m ρ c (Proc.devRef .tc main_v5) := Wv2_of_ne m ρ c main_v5 (by decide)

theorem K5_v6 (c : Dev nD) : Wv5 m ρ c (Proc.devRef .tc main_v6) = Wv1 m ρ c (Proc.devRef .tc main_v6) :=
  calc Wv5 m ρ c (Proc.devRef .tc main_v6)
    _ = Wv4 m ρ c (Proc.devRef .tc main_v6) := Function.update_of_ne (StableHlo.devRef_ne_of_ne (by decide : main_v6 ≠ main_v11)) _ _
    _ = Wv3 m ρ c (Proc.devRef .tc main_v6) := StableHlo.after_of_writes_sub hostOps2 _ hostOps2_writes (by decide : main_v6 ∉ hostOps2_W)
    _ = Wv2 m ρ c (Proc.devRef .tc main_v6) := Wv3_of_ne m ρ c main_v6 (by decide)
    _ = Wv1 m ρ c (Proc.devRef .tc main_v6) := Wv2_of_ne m ρ c main_v6 (by decide)

theorem K5_v7 (c : Dev nD) : Wv5 m ρ c (Proc.devRef .tc main_v7) = Wv1 m ρ c (Proc.devRef .tc main_v7) :=
  calc Wv5 m ρ c (Proc.devRef .tc main_v7)
    _ = Wv4 m ρ c (Proc.devRef .tc main_v7) := Function.update_of_ne (StableHlo.devRef_ne_of_ne (by decide : main_v7 ≠ main_v11)) _ _
    _ = Wv3 m ρ c (Proc.devRef .tc main_v7) := StableHlo.after_of_writes_sub hostOps2 _ hostOps2_writes (by decide : main_v7 ∉ hostOps2_W)
    _ = Wv2 m ρ c (Proc.devRef .tc main_v7) := Wv3_of_ne m ρ c main_v7 (by decide)
    _ = Wv1 m ρ c (Proc.devRef .tc main_v7) := Wv2_of_ne m ρ c main_v7 (by decide)

theorem K4_arg1 (c : Dev nD) : Wv4 m ρ c (Proc.devRef .tc main_arg1) = Wv0 m ρ c (Proc.devRef .tc main_arg1) :=
  calc Wv4 m ρ c (Proc.devRef .tc main_arg1)
    _ = Wv3 m ρ c (Proc.devRef .tc main_arg1) := StableHlo.after_of_writes_sub hostOps2 _ hostOps2_writes (by decide : main_arg1 ∉ hostOps2_W)
    _ = Wv2 m ρ c (Proc.devRef .tc main_arg1) := (Wv3_arr m ρ c 0).trans (((dat1 (Vv2 m ρ) c).arrAt_in 0 rfl _).trans (A_eq1 (Vv2 m ρ) c 0))
    _ = Wv1 m ρ c (Proc.devRef .tc main_arg1) := Wv2_of_ne m ρ c main_arg1 (by decide)
    _ = Wv0 m ρ c (Proc.devRef .tc main_arg1) := StableHlo.after_of_writes_sub hostOps0 _ hostOps0_writes (by decide : main_arg1 ∉ hostOps0_W)

theorem K4_v8_1 (c : Dev nD) : Wv4 m ρ c (Proc.devRef .tc main_v8_1) = Wv2 m ρ c (Proc.devRef .tc main_v8_1) :=
  calc Wv4 m ρ c (Proc.devRef .tc main_v8_1)
    _ = Wv3 m ρ c (Proc.devRef .tc main_v8_1) := StableHlo.after_of_writes_sub hostOps2 _ hostOps2_writes (by decide : main_v8_1 ∉ hostOps2_W)
    _ = Wv2 m ρ c (Proc.devRef .tc main_v8_1) := Wv3_of_ne m ρ c main_v8_1 (by decide)

theorem K4_v2 (c : Dev nD) : Wv4 m ρ c (Proc.devRef .tc main_v2) = Wv1 m ρ c (Proc.devRef .tc main_v2) :=
  calc Wv4 m ρ c (Proc.devRef .tc main_v2)
    _ = Wv3 m ρ c (Proc.devRef .tc main_v2) := StableHlo.after_of_writes_sub hostOps2 _ hostOps2_writes (by decide : main_v2 ∉ hostOps2_W)
    _ = Wv2 m ρ c (Proc.devRef .tc main_v2) := Wv3_of_ne m ρ c main_v2 (by decide)
    _ = Wv1 m ρ c (Proc.devRef .tc main_v2) := Wv2_of_ne m ρ c main_v2 (by decide)

theorem K2_arg1 (c : Dev nD) : Wv2 m ρ c (Proc.devRef .tc main_arg1) = Wv0 m ρ c (Proc.devRef .tc main_arg1) :=
  calc Wv2 m ρ c (Proc.devRef .tc main_arg1)
    _ = Wv1 m ρ c (Proc.devRef .tc main_arg1) := Wv2_of_ne m ρ c main_arg1 (by decide)
    _ = Wv0 m ρ c (Proc.devRef .tc main_arg1) := StableHlo.after_of_writes_sub hostOps0 _ hostOps0_writes (by decide : main_arg1 ∉ hostOps0_W)

theorem K1_arg0 (c : Dev nD) : Wv1 m ρ c (Proc.devRef .tc main_arg0) = Wv0 m ρ c (Proc.devRef .tc main_arg0) :=
  calc Wv1 m ρ c (Proc.devRef .tc main_arg0)
    _ = Wv0 m ρ c (Proc.devRef .tc main_arg0) := StableHlo.after_of_writes_sub hostOps0 _ hostOps0_writes (by decide : main_arg0 ∉ hostOps0_W)

theorem K1_arg3 (c : Dev nD) : Wv1 m ρ c (Proc.devRef .tc main_arg3) = Wv0 m ρ c (Proc.devRef .tc main_arg3) :=
  calc Wv1 m ρ c (Proc.devRef .tc main_arg3)
    _ = Wv0 m ρ c (Proc.devRef .tc main_arg3) := StableHlo.after_of_writes_sub hostOps0 _ hostOps0_writes (by decide : main_arg3 ∉ hostOps0_W)

theorem K1_arg5 (c : Dev nD) : Wv1 m ρ c (Proc.devRef .tc main_arg5) = Wv0 m ρ c (Proc.devRef .tc main_arg5) :=
  calc Wv1 m ρ c (Proc.devRef .tc main_arg5)
    _ = Wv0 m ρ c (Proc.devRef .tc main_arg5) := StableHlo.after_of_writes_sub hostOps0 _ hostOps0_writes (by decide : main_arg5 ∉ hostOps0_W)

theorem K1_arg7 (c : Dev nD) : Wv1 m ρ c (Proc.devRef .tc main_arg7) = Wv0 m ρ c (Proc.devRef .tc main_arg7) :=
  calc Wv1 m ρ c (Proc.devRef .tc main_arg7)
    _ = Wv0 m ρ c (Proc.devRef .tc main_arg7) := StableHlo.after_of_writes_sub hostOps0 _ hostOps0_writes (by decide : main_arg7 ∉ hostOps0_W)

/-! ## The regions' outputs, composed -/

/-- The encoded features, as the program holds them after the first region. -/
theorem enc_value (c : Dev nD) : (Wv2 m ρ c (Proc.devRef .tc main_v8_0) : Mat 8192 128)
    = encAll (m ((c : Thread nD τ).loc main_arg0)) (m ((c : Thread nD τ).loc main_arg3)) (asRow (m ((c : Thread nD τ).loc main_arg4)))
        (m ((c : Thread nD τ).loc main_arg5)) (asRow (m ((c : Thread nD τ).loc main_arg6))) := by
  refine ((Wv2_arr m ρ c 6).trans (final0_6 (Vv1 m ρ) c)).trans ?_
  show encAll (Wv1 m ρ c (Proc.devRef .tc main_arg0)) (Wv1 m ρ c (Proc.devRef .tc main_arg3)) (Wv1 m ρ c (Proc.devRef .tc main_v0))
      (Wv1 m ρ c (Proc.devRef .tc main_arg5)) (Wv1 m ρ c (Proc.devRef .tc main_v1)) = _
  rw [K1_arg0, K1_arg3, K1_arg5, W1_main_v0, W1_main_v1]

/-- The messages. -/
theorem msg_value (c : Dev nD) : (Wv2 m ρ c (Proc.devRef .tc main_v8_1) : Mat 8192 128)
    = msgAll (encAll (m ((c : Thread nD τ).loc main_arg0)) (m ((c : Thread nD τ).loc main_arg3)) (asRow (m ((c : Thread nD τ).loc main_arg4)))
        (m ((c : Thread nD τ).loc main_arg5)) (asRow (m ((c : Thread nD τ).loc main_arg6)))) (m ((c : Thread nD τ).loc main_arg7)) := by
  refine ((Wv2_arr m ρ c 7).trans (final0_7 (Vv1 m ρ) c)).trans ?_
  show msgAll (encAll (Wv1 m ρ c (Proc.devRef .tc main_arg0)) (Wv1 m ρ c (Proc.devRef .tc main_arg3)) (Wv1 m ρ c (Proc.devRef .tc main_v0))
      (Wv1 m ρ c (Proc.devRef .tc main_arg5)) (Wv1 m ρ c (Proc.devRef .tc main_v1))) (Wv1 m ρ c (Proc.devRef .tc main_arg7)) = _
  rw [K1_arg0, K1_arg3, K1_arg5, K1_arg7, W1_main_v0, W1_main_v1]

/-- The inverse square roots of the degrees. -/
theorem dinv_value (c : Dev nD) : (Wv4 m ρ c (Proc.devRef .tc main_v10) : Mat 8192 1)
    = fun j => Ideal.rsqrt (degK (m ((c : Thread nD τ).loc main_arg1)) j) := by
  rw [W4_v10]
  have e : (Wv3 m ρ c (Proc.devRef .tc main_v9) : Mat 8192 1) = degK (m ((c : Thread nD τ).loc main_arg1)) := by
    refine ((Wv3_arr m ρ c 1).trans (final1_1 (Vv2 m ρ) c)).trans ?_
    show degK (Wv2 m ρ c (Proc.devRef .tc main_arg1)) = _
    rw [K2_arg1]
  rw [e]
  rfl

/-- The aggregation. -/
theorem agg_value (c : Dev nD) : (Wv5 m ρ c (Proc.devRef .tc main_v11) : Mat 8192 128)
    = aggK (m ((c : Thread nD τ).loc main_arg1)) (fun j => Ideal.rsqrt (degK (m ((c : Thread nD τ).loc main_arg1)) j))
        (msgAll (encAll (m ((c : Thread nD τ).loc main_arg0)) (m ((c : Thread nD τ).loc main_arg3)) (asRow (m ((c : Thread nD τ).loc main_arg4)))
          (m ((c : Thread nD τ).loc main_arg5)) (asRow (m ((c : Thread nD τ).loc main_arg6)))) (m ((c : Thread nD τ).loc main_arg7)))
        (asRow (m ((c : Thread nD τ).loc main_arg8))) := by
  refine ((Wv5_out m ρ c).trans (final2_6 (Vv4 m ρ) c)).trans ?_
  show aggK (Wv4 m ρ c (Proc.devRef .tc main_arg1)) (Wv4 m ρ c (Proc.devRef .tc main_v10)) (Wv4 m ρ c (Proc.devRef .tc main_v8_1))
      (Wv4 m ρ c (Proc.devRef .tc main_v2)) = _
  rw [K4_arg1, dinv_value, K4_v8_1, msg_value, K4_v2, W1_main_v2]

/-- THE KERNEL'S RESULT: the network of the arguments, as the kernel computes it. -/
theorem kernel_value (c : Dev nD) : (Wv6 m ρ c (Proc.devRef .tc main_v12) : Mat 8192 8)
    = netK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) := by
  refine ((Wv6_arr m ρ c 11).trans (final3_11 (Vv5 m ρ) c)).trans ?_
  show headAll (Wv5 m ρ c (Proc.devRef .tc main_v11)) (Wv5 m ρ c (Proc.devRef .tc main_v8_0)) (Wv5 m ρ c (Proc.devRef .tc main_arg9))
      (Wv5 m ρ c (Proc.devRef .tc main_v3)) (Wv5 m ρ c (Proc.devRef .tc main_arg11)) (Wv5 m ρ c (Proc.devRef .tc main_v4))
      (Wv5 m ρ c (Proc.devRef .tc main_arg13)) (Wv5 m ρ c (Proc.devRef .tc main_v5)) (Wv5 m ρ c (Proc.devRef .tc main_arg15))
      (Wv5 m ρ c (Proc.devRef .tc main_v6)) (Wv5 m ρ c (Proc.devRef .tc main_v7)) = _
  rw [agg_value, K5_v8_0, enc_value, K5_arg9, K5_arg11, K5_arg13, K5_arg15, K5_v3, K5_v4, K5_v5, K5_v6, K5_v7,
    W1_main_v3, W1_main_v4, W1_main_v5, W1_main_v6, W1_main_v7]
  rfl

end Cert.KernelIdeal.Run

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.RefG.lean ====
/-
  The reference, stage by stage, as the row-wise network: its host operations at the exact instance read at an entry.
  A `dot_general` against a transposed weight table is the row's projection, the two `broadcast_in_dim`s of a bias are
  the bias row, the comparison of the two iotas is the identity matrix, and the reduction along a row is the row's sum.
-/
import proofs.«174617_j2465311228175_2_alg».proof.Proof.Gen.ReferenceIdeal.Read
import proofs.«174617_j2465311228175_2_alg».proof.Proof.GcnSpec
import proofs.«174617_j2465311228175_2_alg».proof.Proof.LibPlainDot
import proofs.«174617_j2465311228175_2_alg».proof.Proof.LibBcastChain
import Idealize.ShloMosaic.Lib.ValueLayout
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Gcn
open Cert.Lib.PlainDot Cert.Lib.BcastChain

/-- A `dot_general` of rows against the transpose of a weight table, at an entry: the row's projection. -/
theorem dgT_apply {n k o : ℕ} (d : DotDims ⟨2, ![n, k]⟩ ⟨2, ![k, o]⟩ ⟨2, ![n, o]⟩) (hd : d = DotDims.plain n k o)
    (x : FVec Ideal ⟨2, ![n, k]⟩ .f32) (w : FVec Ideal ⟨2, ![o, k]⟩ .f32)
    (ht : (⟨2, ![o, k]⟩ : Shape).Transposes [1, 0] ⟨2, ![k, o]⟩) (p : Fin n) (c : Fin o) :
    Host.dotGeneral d none x (transpose ⟨2, ![k, o]⟩ [1, 0] w ht) (ix2 p c) = rproj (row x p) w c := by
  refine (congrFun (dotGeneral_eq d hd none _ x (transpose ⟨2, ![k, o]⟩ [1, 0] w ht)) (ix2 p c)).trans ?_
  show ∑ q : Fin k, x (ix2 p q) * transpose ⟨2, ![k, o]⟩ [1, 0] w ht (ix2 q c) = ∑ q : Fin k, x (ix2 p q) * w (ix2 c q)
  refine Finset.sum_congr rfl fun q _ => ?_
  rw [transpose_ix2_apply]

/-- A linear layer of the reference, at an entry. -/
theorem refLinear_apply {n k o : ℕ} (d : DotDims ⟨2, ![n, k]⟩ ⟨2, ![k, o]⟩ ⟨2, ![n, o]⟩) (hd : d = DotDims.plain n k o)
    (x : FVec Ideal ⟨2, ![n, k]⟩ .f32) (w : FVec Ideal ⟨2, ![o, k]⟩ .f32) (b : FVec Ideal ⟨1, ![o]⟩ .f32)
    (ht : (⟨2, ![o, k]⟩ : Shape).Transposes [1, 0] ⟨2, ![k, o]⟩)
    (h3 : (⟨1, ![o]⟩ : Shape).BroadcastsInDim ⟨2, ![1, o]⟩ ![1]) (h4 : (⟨2, ![1, o]⟩ : Shape).BroadcastsInDim ⟨2, ![n, o]⟩ ![0, 1])
    (p : Fin n) (c : Fin o) :
    addf (Host.dotGeneral d none x (transpose ⟨2, ![k, o]⟩ [1, 0] w ht))
        (broadcastInDim ⟨2, ![n, o]⟩ ![0, 1] h4 (broadcastInDim ⟨2, ![1, o]⟩ ![1] h3 b)) (ix2 p c)
      = rlin (row x p) w (asRow b) c := by
  rw [addf_apply, dgT_apply d hd x w ht p c, overRows_apply]
  rfl

/-- A rectified linear layer of the reference, at an entry. -/
theorem refLayer_apply {n k o : ℕ} (d : DotDims ⟨2, ![n, k]⟩ ⟨2, ![k, o]⟩ ⟨2, ![n, o]⟩) (hd : d = DotDims.plain n k o)
    (x : FVec Ideal ⟨2, ![n, k]⟩ .f32) (w : FVec Ideal ⟨2, ![o, k]⟩ .f32) (b : FVec Ideal ⟨1, ![o]⟩ .f32)
    (ht : (⟨2, ![o, k]⟩ : Shape).Transposes [1, 0] ⟨2, ![k, o]⟩)
    (h3 : (⟨1, ![o]⟩ : Shape).BroadcastsInDim ⟨2, ![1, o]⟩ ![1]) (h4 : (⟨2, ![1, o]⟩ : Shape).BroadcastsInDim ⟨2, ![n, o]⟩ ![0, 1])
    (h0 : (⟨0, ![]⟩ : Shape).BroadcastsInDim ⟨2, ![n, o]⟩ ![]) (p : Fin n) (c : Fin o) :
    maximumf (addf (Host.dotGeneral d none x (transpose ⟨2, ![k, o]⟩ [1, 0] w ht))
        (broadcastInDim ⟨2, ![n, o]⟩ ![0, 1] h4 (broadcastInDim ⟨2, ![1, o]⟩ ![1] h3 b)))
        (broadcastInDim ⟨2, ![n, o]⟩ ![] h0 (constant (F := Ideal) ⟨0, ![]⟩ .f32 0x00000000#32)) (ix2 p c)
      = rrelu (rlin (row x p) w (asRow b)) c := by
  rw [maximumf_apply, refLinear_apply d hd x w b ht h3 h4 p c, overAll_apply, constant_apply, Ideal.ofBits_zero_f32]
  rfl

/-- Two arrays of 128 columns joined, at an entry: the two rows joined. -/
theorem cat_apply {n : ℕ} (a b : (⟨2, ![n, 128]⟩ : Shape).Idx → EReal)
    (h : Shape.Concatenates [⟨2, ![n, 128]⟩, ⟨2, ![n, 128]⟩] ⟨2, ![n, 256]⟩ (1 : Fin 2)) (p : Fin n) (e : Fin 256) :
    concatenate ⟨2, ![n, 256]⟩ 1 [⟨⟨2, ![n, 128]⟩, a⟩, ⟨⟨2, ![n, 128]⟩, b⟩] h (ix2 p e) = rcat (row a p) (row b p) e := by
  unfold rcat
  split
  · next hlt =>
    exact concatenate_pair_apply_left 1 a b h (ix2 p e) rfl (ix2 p ⟨e.val, hlt⟩) (fun d => match d with | ⟨0, _⟩ => rfl | ⟨1, _⟩ => rfl)
  · next hge =>
    exact concatenate_pair_apply_right 1 a b h (ix2 p e) rfl rfl (ix2 p ⟨e.val - 128, by have := e.isLt; omega⟩)
      (fun d hd => match d, hd with | ⟨0, _⟩, _ => rfl | ⟨1, _⟩, hd => absurd rfl hd)
      (by show (e.val - 128) + 128 = e.val; omega)

/-! ## The stages -/

variable (x0 : (⟨S8192x32, .f32⟩ : BufTy).Contents (Elt Ideal)) (x1 : (⟨S8192x8192, .f32⟩ : BufTy).Contents (Elt Ideal))
  (x2 : (⟨S8192, .f32⟩ : BufTy).Contents (Elt Ideal)) (x3 : (⟨S64x32, .f32⟩ : BufTy).Contents (Elt Ideal))
  (x4 : (⟨S64, .f32⟩ : BufTy).Contents (Elt Ideal)) (x5 : (⟨S128x64, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x256, .f32⟩ : BufTy).Contents (Elt Ideal))
  (x12 : (⟨S128, .f32⟩ : BufTy).Contents (Elt Ideal)) (x13 : (⟨S64x128, .f32⟩ : BufTy).Contents (Elt Ideal))
  (x14 : (⟨S64, .f32⟩ : BufTy).Contents (Elt Ideal)) (x15 : (⟨S8x64, .f32⟩ : BufTy).Contents (Elt Ideal))
  (x16 : (⟨S8, .f32⟩ : BufTy).Contents (Elt Ideal))

/-- The encoder: every node's encoded row. -/
theorem ref_enc (p : Fin 8192) (c : Fin 128) :
    val_main_v11 (F := Ideal) x0 x3 x4 x5 x6 (ix2 p c) = encRow (row x0 p) x3 (asRow x4) x5 (asRow x6) c := by
  refine (refLayer_apply _ rfl (val_main_v5 (F := Ideal) x0 x3 x4) x5 x6 _ _ _ _ p c).trans ?_
  unfold encRow
  refine congrArg (fun r => rrelu (rlin r x5 (asRow x6)) c) ?_
  funext q
  exact refLayer_apply _ rfl x0 x3 x4 _ _ _ _ p q

theorem ref_enc_all : (val_main_v11 (F := Ideal) x0 x3 x4 x5 x6 : Mat 8192 128) = encAll x0 x3 (asRow x4) x5 (asRow x6) := by
  funext j
  obtain ⟨p, c, rfl⟩ : ∃ (p : Fin 8192) (c : Fin 128), j = ix2 p c := ⟨j 0, j 1, eq_ix2 j⟩
  exact ref_enc x0 x3 x4 x5 x6 p c

/-- The messages: every node's encoded row projected. -/
theorem ref_msg_all : (val_main_v22 (F := Ideal) x0 x3 x4 x5 x6 x7 : Mat 8192 128) = msgAll (encAll x0 x3 (asRow x4) x5 (asRow x6)) x7 := by
  funext j
  obtain ⟨p, c, rfl⟩ : ∃ (p : Fin 8192) (c : Fin 128), j = ix2 p c := ⟨j 0, j 1, eq_ix2 j⟩
  refine (dgT_apply _ rfl (val_main_v11 (F := Ideal) x0 x3 x4 x5 x6) x7 _ p c).trans ?_
  rw [ref_enc_all]
  rfl

/-- The comparison of the two iotas, converted: the identity matrix. -/
theorem ref_eye (i j : Fin 8192) : val_main_v17 (F := Ideal) (ix2 i j) = if j = i then (1 : EReal) else 0 := by
  show (((IntOp.cmpi .eq (IntOp.addi (BitVec.ofNat 32 i.val) (val_main_v14 (F := Ideal) (ix2 i j))) (BitVec.ofNat 32 j.val)).toNat : ℝ) : EReal) = _
  rw [val_main_v14_apply]
  show (((IntOp.cmpi .eq (IntOp.addi (BitVec.ofNat 32 i.val) 0#32) (BitVec.ofNat 32 j.val)).toNat : ℝ) : EReal) = _
  have hi := i.isLt
  have hj := j.isLt
  by_cases h : j = i
  · subst h
    rw [if_pos rfl]
    have : IntOp.cmpi .eq (IntOp.addi (BitVec.ofNat 32 j.val) 0#32) (BitVec.ofNat 32 j.val) = 1#1 := by
      unfold IntOp.cmpi IntOp.addi
      rw [BitVec.add_zero]
      simp
    rw [this]; simp
  · rw [if_neg h]
    have hne : j.val ≠ i.val := fun e => h (Fin.ext e)
    have : IntOp.cmpi .eq (IntOp.addi (BitVec.ofNat 32 i.val) 0#32) (BitVec.ofNat 32 j.val) = 0#1 := by
      unfold IntOp.cmpi IntOp.addi
      rw [BitVec.add_zero]
      have : ¬(BitVec.ofNat 32 i.val = BitVec.ofNat 32 j.val) := by
        intro e
        have := congrArg BitVec.toNat e
        simp only [BitVec.toNat_ofNat] at this
        omega
      have hb : (BitVec.ofNat 32 i.val == BitVec.ofNat 32 j.val) = false := by simpa using this
      rw [hb]; rfl
    rw [this]; simp

/-- The degrees: the row sums of the adjacency with the identity added. -/
theorem ref_deg (i : Fin 8192) : val_main_v19 (F := Ideal) x1 (ix1 i) = degR x1 (ix1 i) := by
  rw [val_main_v19_apply]
  unfold degR degRow
  refine congrArg₂ (· + ·) Ideal.ofBits_zero_f32 (Finset.sum_congr rfl fun k _ => ?_)
  show x1 (idx_main_v19 (ix1 i) k) + val_main_v17 (F := Ideal) (idx_main_v19 (ix1 i) k) = _
  have e : idx_main_v19 (ix1 i) k = ix2 i k := funext fun a => Fin.ext (by match a with | ⟨0, _⟩ => rfl | ⟨1, _⟩ => rfl)
  rw [e, ref_eye]

theorem ref_dinv (i : Fin 8192) : val_main_v20 (F := Ideal) x1 (ix1 i) = Ideal.rsqrt (degR x1 (ix1 i)) := by
  show Ideal.rsqrt (val_main_v19 (F := Ideal) x1 (ix1 i)) = _
  rw [ref_deg]

/-- The aggregation. -/
theorem ref_agg_all : (val_main_v33 (F := Ideal) x0 x1 x3 x4 x5 x6 x7 x8 : Mat 8192 128)
    = aggR x1 (fun i => Ideal.rsqrt (degR x1 i)) (msgAll (encAll x0 x3 (asRow x4) x5 (asRow x6)) x7) x8 := by
  funext j
  obtain ⟨p, c, rfl⟩ : ∃ (p : Fin 8192) (c : Fin 128), j = ix2 p c := ⟨j 0, j 1, eq_ix2 j⟩
  show max ((broadcastInDim S8192x128 ![0, 1] bcast_S8192x1_S8192x128_0_1 (broadcastInDim S8192x1 ![0] bcast_S8192_S8192x1_0 (val_main_v20 (F := Ideal) x1)) (ix2 p c)
        * Host.dotGeneral (F := Ideal) dot_S8192x8192_S8192x128_S8192x128_1_0_0_1_n_n none (val_main_v18 (F := Ideal) x1) (val_main_v26 (F := Ideal) x0 x1 x3 x4 x5 x6 x7) (ix2 p c))
      + broadcastInDim S8192x128 ![0, 1] bcast_S1x128_S8192x128_0_1 (broadcastInDim S1x128 ![1] bcast_S128_S1x128_1 x8) (ix2 p c))
      (broadcastInDim S8192x128 ![] bcast_S_S8192x128 (constant (F := Ideal) S_ .f32 0x00000000#32) (ix2 p c)) = _
  rw [overCols_apply, overRows_apply, overAll_apply, constant_apply, Ideal.ofBits_zero_f32, ref_dinv]
  unfold aggR aggRow
  refine congrArg (fun z => max (Ideal.rsqrt (degR x1 (ix1 p)) * z + x8 (ix1 c)) 0) ?_
  refine (congrFun (dotGeneral_eq _ rfl none _ (val_main_v18 (F := Ideal) x1) (val_main_v26 (F := Ideal) x0 x1 x3 x4 x5 x6 x7)) (ix2 p c)).trans ?_
  show ∑ q : Fin 8192, val_main_v18 (F := Ideal) x1 (ix2 p q) * val_main_v26 (F := Ideal) x0 x1 x3 x4 x5 x6 x7 (ix2 q c) = _
  refine Finset.sum_congr rfl fun q _ => ?_
  refine congrArg₂ (· * ·) ?_ ?_
  · show x1 (ix2 p q) + val_main_v17 (F := Ideal) (ix2 p q) = _
    rw [ref_eye]
  · show broadcastInDim S8192x128 ![0, 1] bcast_S8192x1_S8192x128_0_1 (broadcastInDim S8192x1 ![0] bcast_S8192_S8192x1_0 (val_main_v20 (F := Ideal) x1)) (ix2 q c)
        * val_main_v22 (F := Ideal) x0 x3 x4 x5 x6 x7 (ix2 q c) = _
    rw [overCols_apply, ref_dinv, ref_msg_all]

/-- The whole reference: the network as the reference computes it. -/
theorem ref_value : (val_main_v60 (F := Ideal) x0 x1 x2 x3 x4 x5 x6 x7 x8 x9 x10 x11 x12 x13 x14 x15 x16 : Mat 8192 8)
    = netR x0 x1 x2 x3 x4 x5 x6 x7 x8 x9 x10 x11 x12 x13 x14 x15 x16 := by
  funext j
  obtain ⟨p, c, rfl⟩ : ∃ (p : Fin 8192) (c : Fin 8), j = ix2 p c := ⟨j 0, j 1, eq_ix2 j⟩
  show val_main_v57 (F := Ideal) x0 x1 x3 x4 x5 x6 x7 x8 x9 x10 x11 x12 x13 x14 x15 x16 (ix2 p c)
      * broadcastInDim S8192x8 ![0, 1] bcast_S8192x1_S8192x8_0_1 (broadcastInDim S8192x1 ![0] bcast_S8192_S8192x1_0 x2) (ix2 p c) = _
  rw [overCols_apply]
  unfold netR headAll headRow
  refine congrArg (· * x2 (ix1 p)) ?_
  refine (refLinear_apply _ rfl (val_main_v52 (F := Ideal) x0 x1 x3 x4 x5 x6 x7 x8 x9 x10 x11 x12 x13 x14) x15 x16 _ _ _ p c).trans ?_
  refine congrArg (fun r => rlin r x15 (asRow x16) c) ?_
  funext q
  refine (refLayer_apply _ rfl (val_main_v46 (F := Ideal) x0 x1 x3 x4 x5 x6 x7 x8 x9 x10 x11 x12) x13 x14 _ _ _ _ p q).trans ?_
  refine congrArg (fun r => rrelu (rlin r x13 (asRow x14)) q) ?_
  funext q'
  refine (refLayer_apply _ rfl (val_main_v40 (F := Ideal) x0 x1 x3 x4 x5 x6 x7 x8 x9 x10) x11 x12 _ _ _ _ p q').trans ?_
  refine congrArg (fun r => rrelu (rlin r x11 (asRow x12)) q') ?_
  funext e
  refine (cat_apply _ _ _ p e).trans ?_
  refine congrArg₂ (fun r r' => rcat r r' e) ?_ ?_
  · funext e'
    refine (refLayer_apply _ rfl (val_main_v33 (F := Ideal) x0 x1 x3 x4 x5 x6 x7 x8) x9 x10 _ _ _ _ p e').trans ?_
    rw [ref_agg_all]
  · funext e'
    show val_main_v11 (F := Ideal) x0 x3 x4 x5 x6 (ix2 p e') = _
    rw [ref_enc_all]

end Cert.ReferenceIdeal.RefValue

end
-- ==== Proof.PreDecode.lean ====
/-
  What the precondition says of the arguments: every entry of the features, the adjacency and the encoder and message
  weights and biases is a real number, and every node's degree with its self loop counted is positive.

  The precondition is a conjunction of `all`-reductions: each of the first seventeen says that an array's entries
  are below +∞ in absolute value, which on the extended reals is being a real; the last says that the row sums of the
  adjacency with the identity added are above zero.
-/
import proofs.«174617_j2465311228175_2_alg».proof.Pre_finite_inputs
import proofs.«174617_j2465311228175_2_alg».proof.Proof.GcnSpec
import proofs.«174617_j2465311228175_2_alg».proof.Proof.LibBcastChain
import Idealize.ShloMosaic.Lib.ReduceAll
import Idealize.ShloMosaic.Lib.Affine
import Idealize.ShloMosaic.PureOps.Ideal.Laws

set_option maxRecDepth 16384
set_option maxHeartbeats 4000000

noncomputable section

namespace Cert.PreDecode

open Idealize.ShloMosaic Idealize.ShloMosaic.ValueIdx Cert.Pre_finite_inputs Cert.Gcn Cert.Lib.AggLinear Cert.Lib.BcastChain

instance : Subsingleton S_.Idx := ⟨fun a b => funext fun d => d.elim0⟩

/-- The pattern of +∞. -/
theorem ofBits_inf : Ideal.ofBits .f32 0x7F800000#32 = ⊤ := by
  simp [Ideal.ofBits, Ideal.ieee]

/-- An extended real below +∞ in absolute value is a real. -/
theorem isReal_of_abs_lt (x : EReal) (h : Ideal.cmp .olt (max x (-x)) (Ideal.ofBits .f32 0x7F800000#32) = 1#1) : IsReal x := by
  rw [ofBits_inf] at h
  unfold Ideal.cmp at h
  have hlt : max x (-x) < ⊤ := by
    by_contra hn
    simp [hn] at h
  induction x using EReal.rec with
  | bot => simp at hlt
  | coe r => exact isReal_coe r
  | top => simp at hlt

/-- One `all` conjunct: every entry of the array is real. -/
theorem all_real {s : Shape} (x : FVec Ideal s .f32) (hb : (⟨0, ![]⟩ : Shape).BroadcastsInDim s ![]) (axes : List (Fin s.rank)) (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1)
    (j : s.Idx) : IsReal (x j) := by
  have h := Host.reduce_andi_all _ _ hr hu ix0 e j
  refine isReal_of_abs_lt (x j) ?_
  rw [cmpf_apply, overAll_apply, constant_apply] at h
  exact h

/-- The comparison of the two iotas, converted: the identity matrix. -/
theorem eye_apply (h0 : (⟨0, ![]⟩ : Shape).BroadcastsInDim S8192x8192 ![]) (i j : Fin 8192) :
    uitofp (F := Ideal) .f32 (cmpi .eq (addi (iotaInDim S8192x8192 32 0) (broadcastInDim S8192x8192 ![] h0 (constantI S_ 32 0#32)))
      (iotaInDim S8192x8192 32 1)) (ix2 i j) = if j = i then (1 : EReal) else 0 := by
  show (((IntOp.cmpi .eq (IntOp.addi (BitVec.ofNat 32 i.val) (broadcastInDim S8192x8192 ![] h0 (constantI S_ 32 0#32) (ix2 i j))) (BitVec.ofNat 32 j.val)).toNat : ℝ) : EReal) = _
  rw [overAll_apply]
  show (((IntOp.cmpi .eq (IntOp.addi (BitVec.ofNat 32 i.val) 0#32) (BitVec.ofNat 32 j.val)).toNat : ℝ) : EReal) = _
  have hi := i.isLt
  have hj := j.isLt
  unfold IntOp.cmpi IntOp.addi
  rw [BitVec.add_zero]
  by_cases h : j = i
  · subst h
    rw [if_pos rfl]
    simp
  · rw [if_neg h]
    have hne : j.val ≠ i.val := fun e => h (Fin.ext e)
    have : ¬(BitVec.ofNat 32 i.val = BitVec.ofNat 32 j.val) := by
      intro e
      have := congrArg BitVec.toNat e
      simp only [BitVec.toNat_ofNat] at this
      omega
    have hb : (BitVec.ofNat 32 i.val == BitVec.ofNat 32 j.val) = false := by simpa using this
    rw [hb]; simp

/-- The precondition's row sums are the reference's degrees. -/
theorem deg_eq (x1 : FVec Ideal S8192x8192 .f32) (h0 : (⟨0, ![]⟩ : Shape).BroadcastsInDim S8192x8192 ![])
    (hr : S8192x8192.ReducesTo [1] S8192) (hu : 0 < S_.numel) (i : Fin 8192) :
    Host.reduceAdd (F := Ideal) (addf x1 (uitofp .f32 (cmpi .eq (addi (iotaInDim S8192x8192 32 0) (broadcastInDim S8192x8192 ![] h0 (constantI S_ 32 0#32)))
      (iotaInDim S8192x8192 32 1)))) (constant S_ .f32 0x00000000#32) hr hu (ix1 i) = degR x1 (ix1 i) := by
  simp only [Host.reduceAdd, Ideal.hostReduceAdd_def]
  rw [Ideal.hostReduceAdd_single hr (by decide)]
  unfold degR degRow
  refine congrArg₂ (· + ·) Ideal.ofBits_zero_f32 (Finset.sum_congr rfl fun k _ => ?_)
  have e : (Shape.Reduces.lift (by decide : S8192x8192.Reduces [1] S8192) (ix1 i) k) = ix2 i k :=
    funext fun a => Fin.ext (by match a with | ⟨0, _⟩ => rfl | ⟨1, _⟩ => rfl)
  rw [e]
  exact congrArg (x1 (ix2 i k) + ·) (eye_apply h0 i k)

/-- WHAT THE PRECONDITION GIVES: the data the two programs' equality needs is real, and the degrees are positive. -/
theorem decode [Cert.Pre_finite_inputs.Facts] (x0 : FVec Ideal S8192x32 .f32) (x1 : FVec Ideal S8192x8192 .f32) (x2 : FVec Ideal S8192 .f32) (x3 : FVec Ideal S64x32 .f32)
    (x4 : FVec Ideal S64 .f32) (x5 : FVec Ideal S128x64 .f32) (x6 : FVec Ideal S128 .f32) (x7 : FVec Ideal S128x128 .f32)
    (x8 : FVec Ideal S128 .f32) (x9 : FVec Ideal S128x128 .f32) (x10 : FVec Ideal S128 .f32) (x11 : FVec Ideal S128x256 .f32)
    (x12 : FVec Ideal S128 .f32) (x13 : FVec Ideal S64x128 .f32) (x14 : FVec Ideal S64 .f32) (x15 : FVec Ideal S8x64 .f32)
    (x16 : FVec Ideal S8 .f32)
    (h : fn (F := Ideal) x0 x1 x2 x3 x4 x5 x6 x7 x8 x9 x10 x11 x12 x13 x14 x15 x16 = fun _ => 1#1) :
    (∀ j, IsReal (x0 j)) ∧ (∀ j, IsReal (x1 j)) ∧ (∀ j, IsReal (x3 j)) ∧ (∀ j, IsReal (x4 j)) ∧ (∀ j, IsReal (x5 j))
      ∧ (∀ j, IsReal (x6 j)) ∧ (∀ j, IsReal (x7 j)) ∧ (∀ i : Fin 8192, 0 < degR x1 (ix1 i)) := by
  have h0 := congrFun h ix0
  unfold fn fn_part1 fn_part2 fn_part3 fn_part4 fn_part5 at h0
  dsimp only at h0
  obtain ⟨h0, c17⟩ := IntOp.andi_eq_one.mp h0
  obtain ⟨h0, c16⟩ := IntOp.andi_eq_one.mp h0
  obtain ⟨h0, c15⟩ := IntOp.andi_eq_one.mp h0
  obtain ⟨h0, c14⟩ := IntOp.andi_eq_one.mp h0
  obtain ⟨h0, c13⟩ := IntOp.andi_eq_one.mp h0
  obtain ⟨h0, c12⟩ := IntOp.andi_eq_one.mp h0
  obtain ⟨h0, c11⟩ := IntOp.andi_eq_one.mp h0
  obtain ⟨h0, c10⟩ := IntOp.andi_eq_one.mp h0
  obtain ⟨h0, c9⟩ := IntOp.andi_eq_one.mp h0
  obtain ⟨h0, c8⟩ := IntOp.andi_eq_one.mp h0
  obtain ⟨h0, c7⟩ := IntOp.andi_eq_one.mp h0
  obtain ⟨h0, c6⟩ := IntOp.andi_eq_one.mp h0
  obtain ⟨h0, c5⟩ := IntOp.andi_eq_one.mp h0
  obtain ⟨h0, c4⟩ := IntOp.andi_eq_one.mp h0
  obtain ⟨h0, c3⟩ := IntOp.andi_eq_one.mp h0
  obtain ⟨h0, c2⟩ := IntOp.andi_eq_one.mp h0
  obtain ⟨c0, c1⟩ := IntOp.andi_eq_one.mp h0
  refine ⟨all_real x0 _ _ _ _ c0, all_real x1 _ _ _ _ c1, all_real x3 _ _ _ _ c3, all_real x4 _ _ _ _ c4, all_real x5 _ _ _ _ c5,
    all_real x6 _ _ _ _ c6, all_real x7 _ _ _ _ c7, fun i => ?_⟩
  have hd := Host.reduce_andi_all _ _ _ _ ix0 c17 (ix1 i)
  rw [cmpf_apply, overAll_apply, constant_apply, Ideal.ofBits_zero_f32, deg_eq] at hd
  by_contra hn
  have hd' : Ideal.cmp .ogt (degR x1 (ix1 i)) 0 = 1#1 := hd
  unfold Ideal.cmp at hd'
  simp [hn] at hd'

end Cert.PreDecode

end
-- ==== Proof.lean ====
/-
  A graph-convolution network: an encoder of two rectified linear layers, a message projection, a normalised
  aggregation over the adjacency with self loops, a decoder and a three-layer policy head, masked.

  The kernel computes it in four pipelined regions (encoder and messages by row blocks; the degrees and the
  aggregation each accumulated over eight column blocks of the adjacency; the decoder and head by row blocks), the
  reference in one pass over whole arrays. Both are read at the exact instance as the same row-wise network: every stage
  but the aggregation acts on one node's row, and the aggregation's two treatments of the self loop — inside the sum
  over the augmented adjacency, or as the node's own term added after the sum over the plain one — agree for real data
  with positive degrees, which is what the precondition provides.

  The frames of the kernel's two programs are the run of their four regions and the host operations between them; the
  reference's is its run with the result dropped.
-/
import proofs.«174617_j2465311228175_2_alg».proof.Defs
import proofs.«174617_j2465311228175_2_alg».proof.Proof.Gen.Kernel
import proofs.«174617_j2465311228175_2_alg».proof.Proof.Gen.KernelIdeal
import proofs.«174617_j2465311228175_2_alg».proof.Proof.Gen.ReferenceIdeal
import proofs.«174617_j2465311228175_2_alg».proof.Proof.Gen.ReferenceIdeal.Run
import proofs.«174617_j2465311228175_2_alg».proof.Proof.Gen.ReferenceIdeal.Read
import proofs.«174617_j2465311228175_2_alg».proof.Proof.Gen.Pre_finite_inputs
import proofs.«174617_j2465311228175_2_alg».proof.Proof.KRun
import proofs.«174617_j2465311228175_2_alg».proof.Proof.KIRun
import proofs.«174617_j2465311228175_2_alg».proof.Proof.KIFinal
import proofs.«174617_j2465311228175_2_alg».proof.Proof.RefG
import proofs.«174617_j2465311228175_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Cert.Gcn

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the arguments: the kernel's four regions composed, and the reference's stages,
    are one function for real data with positive degrees. -/
theorem algebraic : Cert.algebraic_KernelIdeal_ReferenceIdeal := by
  intro m ρ m' ρ' hpre hagree
  refine ⟨fun c => netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨?_, ?_⟩) (Cert.KernelIdeal.Run.run_all m ρ)
    · exact (h c _ (Cert.KernelIdeal.Run.mem_uc Cert.KernelIdeal.main_v12 (by decide))).trans (Cert.KernelIdeal.Run.kernel_value m ρ c)
    · exact ⟨(h c _ (Cert.KernelIdeal.Run.mem_uc Cert.KernelIdeal.main_arg0 (by decide))).trans (Cert.KernelIdeal.Run.Wv6_main_arg0 m ρ c),
        (h c _ (Cert.KernelIdeal.Run.mem_uc Cert.KernelIdeal.main_arg1 (by decide))).trans (Cert.KernelIdeal.Run.Wv6_main_arg1 m ρ c),
        (h c _ (Cert.KernelIdeal.Run.mem_uc Cert.KernelIdeal.main_arg2 (by decide))).trans (Cert.KernelIdeal.Run.Wv6_main_arg2 m ρ c),
        (h c _ (Cert.KernelIdeal.Run.mem_uc Cert.KernelIdeal.main_arg3 (by decide))).trans (Cert.KernelIdeal.Run.Wv6_main_arg3 m ρ c),
        (h c _ (Cert.KernelIdeal.Run.mem_uc Cert.KernelIdeal.main_arg4 (by decide))).trans (Cert.KernelIdeal.Run.Wv6_main_arg4 m ρ c),
        (h c _ (Cert.KernelIdeal.Run.mem_uc Cert.KernelIdeal.main_arg5 (by decide))).trans (Cert.KernelIdeal.Run.Wv6_main_arg5 m ρ c),
        (h c _ (Cert.KernelIdeal.Run.mem_uc Cert.KernelIdeal.main_arg6 (by decide))).trans (Cert.KernelIdeal.Run.Wv6_main_arg6 m ρ c),
        (h c _ (Cert.KernelIdeal.Run.mem_uc Cert.KernelIdeal.main_arg7 (by decide))).trans (Cert.KernelIdeal.Run.Wv6_main_arg7 m ρ c),
        (h c _ (Cert.KernelIdeal.Run.mem_uc Cert.KernelIdeal.main_arg8 (by decide))).trans (Cert.KernelIdeal.Run.Wv6_main_arg8 m ρ c),
        (h c _ (Cert.KernelIdeal.Run.mem_uc Cert.KernelIdeal.main_arg9 (by decide))).trans (Cert.KernelIdeal.Run.Wv6_main_arg9 m ρ c),
        (h c _ (Cert.KernelIdeal.Run.mem_uc Cert.KernelIdeal.main_arg10 (by decide))).trans (Cert.KernelIdeal.Run.Wv6_main_arg10 m ρ c),
        (h c _ (Cert.KernelIdeal.Run.mem_uc Cert.KernelIdeal.main_arg11 (by decide))).trans (Cert.KernelIdeal.Run.Wv6_main_arg11 m ρ c),
        (h c _ (Cert.KernelIdeal.Run.mem_uc Cert.KernelIdeal.main_arg12 (by decide))).trans (Cert.KernelIdeal.Run.Wv6_main_arg12 m ρ c),
        (h c _ (Cert.KernelIdeal.Run.mem_uc Cert.KernelIdeal.main_arg13 (by decide))).trans (Cert.KernelIdeal.Run.Wv6_main_arg13 m ρ c),
        (h c _ (Cert.KernelIdeal.Run.mem_uc Cert.KernelIdeal.main_arg14 (by decide))).trans (Cert.KernelIdeal.Run.Wv6_main_arg14 m ρ c),
        (h c _ (Cert.KernelIdeal.Run.mem_uc Cert.KernelIdeal.main_arg15 (by decide))).trans (Cert.KernelIdeal.Run.Wv6_main_arg15 m ρ c),
        (h c _ (Cert.KernelIdeal.Run.mem_uc Cert.KernelIdeal.main_arg16 (by decide))).trans (Cert.KernelIdeal.Run.Wv6_main_arg16 m ρ c)⟩
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16⟩ := hagree c
    obtain ⟨r0, r1, r3, r4, r5, r6, r7, hpos⟩ := Cert.PreDecode.decode _ _ _ _ _ _ _ _ _ _ _ _ _ _ _ _ _ (hpre c)
    rw [Cert.ReferenceIdeal.Read.val_main_v60_eq, Cert.ReferenceIdeal.RefValue.ref_value,
      a0, a1, a2, a3, a4, a5, a6, a7, a8, a9, a10, a11, a12, a13, a14, a15, a16]
    exact (netK_eq_netR _ _ _ _ _ _ _ _ _ _ _ _ _ _ _ _ _ r0 r1 r3 r4 r5 r6 r7 hpos).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
